-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S256x256 : Shape := ⟨2, ![256, 256]⟩
abbrev S256 : Shape := ⟨1, ![256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x256 .f32) (main_arg1 : FVec F S4x2048x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S4x2048x256 .f32 := Host.absf main_arg1
  let main_cst_0 : FVec F S_ .f32 := constant S_ .f32 0x7F800000#32
  let main_v5 : FVec F S4x2048x256 .f32 := broadcastInDim S4x2048x256 ![] bcast_S_S4x2048x256 main_cst_0
  let main_v6 : IVec S4x2048x256 1 := cmpf .olt main_v4 main_v5
  let main_c_1 : IVec S_ 1 := constantI S_ 1 1#1
  let main_v7 : IVec S_ 1 := (fun x v => Host.reduce IntOp.andi x v reducesTo_S4x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x256 : Shape := ⟨3, ![4, 2048, 256]⟩
abbrev S256x256 : Shape := ⟨2, ![256, 256]⟩
abbrev S256 : Shape := ⟨1, ![256]⟩
abbrev S1x256 : Shape := ⟨2, ![1, 256]⟩
abbrev S1x256x256 : Shape := ⟨3, ![1, 256, 256]⟩
abbrev S1x2048x256 : Shape := ⟨3, ![1, 2048, 256]⟩
abbrev S2048x256 : Shape := ⟨2, ![2048, 256]⟩
abbrev S256x2048 : Shape := ⟨2, ![256, 2048]⟩
abbrev S256x1 : Shape := ⟨2, ![256, 1]⟩

abbrev nBuf : Space → Nat
  | .hbm => 23
  | .vmem => 20
  | .smem => 0
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S4x2048x256, .f32⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S2048x256, .f32⟩
  | .local _ .vmem, ⟨19, _⟩ => ⟨S2048x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  iota_S1x256_d1_w32 : S1x256.Iotas .tc 32 [1]
  natLt_1_32 : 1 < 32
  reduces_S256x2048_S256 : S256x2048.Reduces [1] S256
  shapeCasts_S256_S256x1 : S256.ShapeCasts S256x1
  broadcasts_S256x1_S256x2048 : S256x1.Broadcasts S256x2048
  reduces_S256x256_S256 : S256x256.Reduces [1] S256
  broadcasts_S256x1_S256x256 : S256x1.Broadcasts S256x256
  shapeCasts_S256x256_S1x256x256 : S256x256.ShapeCasts S1x256x256
  dot_S2048x256_S256x256_S2048x256_1_1_0_0_n_n_wf : DotDims.WF S2048x256 S256x256 S2048x256 [1] [1] [0] [0] [] []
  dot_S256x256_S256x256_S256x256_1_1_0_0_n_n_wf : DotDims.WF S256x256 S256x256 S256x256 [1] [1] [0] [0] [] []
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x2048x256.size a
  hwx0_0 : ∀ i : grid0.Coords, EltTy.bits .f32 = 32 ∨ (Rect.block (s := S4x2048x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x2048x256.size a
  hwx0_1 : ∀ i : grid0.Coords, EltTy.bits .f32 = 32 ∨ (Rect.block (s := S4x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256x256.size a ≤ S4x2048x256.size a
  hwx0_14 : ∀ i : grid0.Coords, EltTy.bits .f32 = 32 ∨ (Rect.block (s := S4x2048x256) S1x256x256.size (cc0_transform_14 i) (hinb0_14 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S1x256x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4x2048x256 : Shape := ⟨3, ![4, 2048, 256]⟩
abbrev S256x256 : Shape := ⟨2, ![256, 256]⟩
abbrev S256 : Shape := ⟨1, ![256]⟩
abbrev S1x1x256 : Shape := ⟨3, ![1, 1, 256]⟩
abbrev S4x2048x4x64 : Shape := ⟨4, ![4, 2048, 4, 64]⟩
abbrev S4x4x2048x64 : Shape := ⟨4, ![4, 4, 2048, 64]⟩
abbrev S4x4x2048x2048 : Shape := ⟨4, ![4, 4, 2048, 2048]⟩
abbrev S_ : Shape := ⟨0, ![]⟩
abbrev S4x4x2048 : Shape := ⟨3, ![4, 4, 2048]⟩
abbrev S4x4x2048x1 : Shape := ⟨4, ![4, 4, 2048, 1]⟩
abbrev S4x2048 : Shape := ⟨2, ![4, 2048]⟩
abbrev S4x2048x1 : Shape := ⟨3, ![4, 2048, 1]⟩

abbrev nBuf : Space → Nat
  | .hbm => 120
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S4x2048x256, .f32⟩
  | .hbm, ⟨15, _⟩ => ⟨S1x1x256, .f32⟩
  | .hbm, ⟨16, _⟩ => ⟨S4x2048x256, .f32⟩
  | .hbm, ⟨17, _⟩ => ⟨S4x2048x256, .f32⟩
  | .hbm, ⟨18, _⟩ => ⟨S4x2048x256, .f32⟩
  | .hbm, ⟨19, _⟩ => ⟨S1x1x256, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S1x1x256, .f32⟩
  | .hbm, ⟨24, _⟩ => ⟨S4x2048x256, .f32⟩
  | .hbm, ⟨25, _⟩ => ⟨S4x2048x256, .f32⟩
  | .hbm, ⟨26, _⟩ => ⟨S4x2048x4x64, .f32⟩
  | .hbm, ⟨27, _⟩ => ⟨S4x4x2048x64, .f32⟩
  | .hbm, ⟨28, _⟩ => ⟨S4x2048x4x64, .f32⟩
  | .hbm, ⟨29, _⟩ => ⟨S4x4x2048x64, .f32⟩
  | .hbm, ⟨30, _⟩ => ⟨S4x2048x4x64, .f32⟩
  | .hbm, ⟨31, _⟩ => ⟨S4x4x2048x64, .f32⟩
  | .hbm, ⟨32, _⟩ => ⟨S4x4x2048x2048, .f32⟩
  | .hbm, ⟨33, _⟩ => ⟨S_, .f32⟩
  | .hbm, ⟨34, _⟩ => ⟨S4x4x2048x2048, .f32⟩
  | .hbm, ⟨35, _⟩ => ⟨S4x4x2048x2048, .f32⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S4x4x2048, .f32⟩
  | .hbm, ⟨41, _⟩ => ⟨S4x4x2048x1, .f32⟩
  | .hbm, ⟨42, _⟩ => ⟨S4x4x2048x2048, .f32⟩
  | .hbm, ⟨43, _⟩ => ⟨S4x4x2048x2048, .f32⟩
  | .hbm, ⟨44, _⟩ => ⟨S4x4x2048x2048, .f32⟩
  | .hbm, ⟨45, _⟩ => ⟨S_, .f32⟩
  | .hbm, ⟨46, _⟩ => ⟨S4x4x2048, .f32⟩
  | .hbm, ⟨47, _⟩ => ⟨S4x4x2048x1, .f32⟩
  | .hbm, ⟨48, _⟩ => ⟨S4x4x2048x2048, .f32⟩
  | .hbm, ⟨49, _⟩ => ⟨S4x4x2048x2048, .f32⟩
  | .hbm, ⟨50, _⟩ => ⟨S4x4x2048x64, .f32⟩
  | .hbm, ⟨51, _⟩ => ⟨S4x4x2048x64, .f32⟩
  | .hbm, ⟨52, _⟩ => ⟨S4x2048x4x64, .f32⟩
  | .hbm, ⟨53, _⟩ => ⟨S4x2048x256, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x1, .f32⟩
  | .hbm, ⟨75, _⟩ => ⟨S4x2048x256, .f32⟩
  | .hbm, ⟨76, _⟩ => ⟨S4x2048x256, .f32⟩
  | .hbm, ⟨77, _⟩ => ⟨S1x1x256, .f32⟩
  | .hbm, ⟨78, _⟩ => ⟨S4x2048x256, .f32⟩
  | .hbm, ⟨79, _⟩ => ⟨S4x2048x256, .f32⟩
  | .hbm, ⟨80, _⟩ => ⟨S1x1x256, .f32⟩
  | .hbm, ⟨81, _⟩ => ⟨S4x2048x256, .f32⟩
  | .hbm, ⟨82, _⟩ => ⟨S4x2048x256, .f32⟩
  | .hbm, ⟨83, _⟩ => ⟨S4x2048x256, .f32⟩
  | .hbm, ⟨84, _⟩ => ⟨S1x1x256, .f32⟩
  | .hbm, ⟨85, _⟩ => ⟨S4x2048x256, .f32⟩
  | .hbm, ⟨86, _⟩ => ⟨S4x2048x256, .f32⟩
  | .hbm, ⟨87, _⟩ => ⟨S_, .f32⟩
  | .hbm, ⟨88, _⟩ => ⟨S4x2048x256, .f32⟩
  | .hbm, ⟨89, _⟩ => ⟨S4x2048x256, .f32⟩
  | .hbm, ⟨90, _⟩ => ⟨S4x2048x256, .f32⟩
  | .hbm, ⟨91, _⟩ => ⟨S_, .f32⟩
  | .hbm, ⟨92, _⟩ => ⟨S4x2048, .f32⟩
  | .hbm, ⟨93, _⟩ => ⟨S4x2048x1, .f32⟩
  | .hbm, ⟨94, _⟩ => ⟨S_, .f32⟩
  | .hbm, ⟨95, _⟩ => ⟨S4x2048x1, .f32⟩
  | .hbm, ⟨96, _⟩ => ⟨S4x2048x1, .f32⟩
  | .hbm, ⟨97, _⟩ => ⟨S4x2048x256, .f32⟩
  | .hbm, ⟨98, _⟩ => ⟨S4x2048x256, .f32⟩
  | .hbm, ⟨99, _⟩ => ⟨S4x2048x256, .f32⟩
  | .hbm, ⟨100, _⟩ => ⟨S_, .f32⟩
  | .hbm, ⟨101, _⟩ => ⟨S4x2048, .f32⟩
  | .hbm, ⟨102, _⟩ => ⟨S4x2048x1, .f32⟩
  | .hbm, ⟨103, _⟩ => ⟨S_, .f32⟩
  | .hbm, ⟨104, _⟩ => ⟨S4x2048x1, .f32⟩
  | .hbm, ⟨105, _⟩ => ⟨S4x2048x1, .f32⟩
  | .hbm, ⟨106, _⟩ => ⟨S4x2048x256, .f32⟩
  | .hbm, ⟨107, _⟩ => ⟨S4x2048x256, .f32⟩
  | .hbm, ⟨108, _⟩ => ⟨S_, .f32⟩
  | .hbm, ⟨109, _⟩ => ⟨S4x2048x1, .f32⟩
  | .hbm, ⟨110, _⟩ => ⟨S4x2048x1, .f32⟩
  | .hbm, ⟨111, _⟩ => ⟨S4x2048x1, .f32⟩
  | .hbm, ⟨112, _⟩ => ⟨S4x2048x256, .f32⟩
  | .hbm, ⟨113, _⟩ => ⟨S4x2048x256, .f32⟩
  | .hbm, ⟨114, _⟩ => ⟨S1x1x256, .f32⟩
  | .hbm, ⟨115, _⟩ => ⟨S4x2048x256, .f32⟩
  | .hbm, ⟨116, _⟩ => ⟨S4x2048x256, .f32⟩
  | .hbm, ⟨117, _⟩ => ⟨S1x1x256, .f32⟩
  | .hbm, ⟨118, _⟩ => ⟨S4x2048x256, .f32⟩
  | .hbm, ⟨119, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  shapeCasts_S4x2048x256_S4x2048x4x64 : S4x2048x256.ShapeCasts S4x2048x4x64
  transposes_S4x2048x4x64_S4x4x2048x64_0_2_1_3 : S4x2048x4x64.Transposes [0, 2, 1, 3] S4x4x2048x64
  bcast_S_S4x4x2048x2048 : S_.BroadcastsInDim S4x4x2048x2048 (![] : Fin 0 → Fin S4x4x2048x2048.rank)
  reducesTo_S4x4x2048x2048_S4x4x2048_d3 : S4x4x2048x2048.ReducesTo [3] S4x4x2048
  h_S_ : 0 < S_.numel
  bcast_S_S4x4x2048 : S_.BroadcastsInDim S4x4x2048 (![] : Fin 0 → Fin S4x4x2048.rank)
  bcast_S4x4x2048_S4x4x2048x1_0_1_2 : S4x4x2048.BroadcastsInDim S4x4x2048x1 (![0, 1, 2] : Fin 3 → Fin S4x4x2048x1.rank)
  bcast_S4x4x2048x1_S4x4x2048x2048_0_1_2_3 : S4x4x2048x1.BroadcastsInDim S4x4x2048x2048 (![0, 1, 2, 3] : Fin 4 → Fin S4x4x2048x2048.rank)
  transposes_S4x4x2048x64_S4x2048x4x64_0_2_1_3 : S4x4x2048x64.Transposes [0, 2, 1, 3] S4x2048x4x64
  shapeCasts_S4x2048x4x64_S4x2048x256 : S4x2048x4x64.ShapeCasts S4x2048x256
  reducesTo_S4x2048x256_S4x2048_d2 : S4x2048x256.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x256_0_1_2 : S4x2048x1.BroadcastsInDim S4x2048x256 (![0, 1, 2] : Fin 3 → Fin S4x2048x256.rank)
  bcast_S_S4x2048x256 : S_.BroadcastsInDim S4x2048x256 (![] : Fin 0 → Fin S4x2048x256.rank)
  dot_S4x2048x256_S256x256_S4x2048x256_2_1_01_0_n_n_wf : DotDims.WF S4x2048x256 S256x256 S4x2048x256 [2] [1] [0, 1] [0] [] []
  dot_S4x4x2048x64_S4x4x2048x64_S4x4x2048x2048_3_3_2_2_01_01_wf : DotDims.WF S4x4x2048x64 S4x4x2048x64 S4x4x2048x2048 [3] [3] [2] [2] [0, 1] [0, 1]
  dot_S4x4x2048x2048_S4x4x2048x64_S4x4x2048x64_3_2_2_3_01_01_wf : DotDims.WF S4x4x2048x2048 S4x4x2048x64 S4x4x2048x64 [3] [2] [2] [3] [0, 1] [0, 1]

variable [Facts₀]

def dot_S4x2048x256_S256x256_S4x2048x256_2_1_01_0_n_n : DotDims S4x2048x256 S256x256 S4x2048x256 where
  lhsContracting := [2]
  rhsContracting := [1]
  lhsNonContracting := [0, 1]
  rhsNonContracting := [0]
  lhsBatch := []
  rhsBatch := []
  wf := dot_S4x2048x256_S256x256_S4x2048x256_2_1_01_0_n_n_wf
def dot_S4x4x2048x64_S4x4x2048x64_S4x4x2048x2048_3_3_2_2_01_01 : DotDims S4x4x2048x64 S4x4x2048x64 S4x4x2048x2048 where
  lhsContracting := [3]
  rhsContracting := [3]
  lhsNonContracting := [2]
  rhsNonContracting := [2]
  lhsBatch := [0, 1]
  rhsBatch := [0, 1]
  wf := dot_S4x4x2048x64_S4x4x2048x64_S4x4x2048x2048_3_3_2_2_01_01_wf
def dot_S4x4x2048x2048_S4x4x2048x64_S4x4x2048x64_3_2_2_3_01_01 : DotDims S4x4x2048x2048 S4x4x2048x64 S4x4x2048x64 where
  lhsContracting := [3]
  rhsContracting := [2]
  lhsNonContracting := [2]
  rhsNonContracting := [3]
  lhsBatch := [0, 1]
  rhsBatch := [0, 1]
  wf := dot_S4x4x2048x2048_S4x4x2048x64_S4x4x2048x64_3_2_2_3_01_01_wf

class Facts : Prop extends Facts₀ where

variable [Facts]
-- ==== Proof.Spec.lean ====
/-
  The mathematics both programs compute, stated once, row by row, on the extended reals.

  A multi-head attention block over inputs Q, K : [4, 2048, 256]:
    q = Q·Wqᵀ + bq,  k = K·Wkᵀ + bk,  v = K·Wvᵀ + bv           (three linear maps, one row at a time)
    for each of the 4 heads h (columns 64h … 64h+63):
      s(j)  = (Σ_{d<64} q(64h+d) · k_j(64h+d)) / 16              (scores of one query row against all 2048 keys)
      a(j)  = exp(s(j) − max s) / Σ_j' exp(s(j') − max s)        (softmax over the keys)
    o(e)    = q(e) + Σ_j a_{head of e}(j) · v_j(e)                (residual with the projected query)
    x₁      = LayerNorm(o; g0, b0)
    x₂      = x₁ + max(x₁·Woᵀ + bo, 0)
    result  = LayerNorm(x₂; g1, b1)
  where LayerNorm(x; g, b)(e) = (x(e) − μ) · rsqrt(mean((x − μ)²) + ε) · g(e) + b(e), μ = mean x, means over the 256 columns.

  Every function here takes one ROW (a function of the column index) and returns a row, so that the same term describes a
  row of a 256-row tile and a row of the whole [4, 2048, 256] array.  The float literals stay as their bit patterns
  (the same word on both sides is never evaluated).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The divisor of a mean over 256 columns, the word 0x43800000 (256.0). -/
def c256 : EReal := Ideal.ofBits .f32 0x43800000#32
/-- The score divisor, the word 0x41800000 (16.0 = √256). -/
def c16 : EReal := Ideal.ofBits .f32 0x41800000#32
/-- LayerNorm's ε, the word 0x3727C5AC. -/
def eps : EReal := Ideal.ofBits .f32 0x3727C5AC#32
/-- The start value of a running maximum, the word 0xFF800000 (−∞). -/
def negInf : EReal := Ideal.ofBits .f32 0xFF800000#32

/-- Column d of head h among the 256 columns: 64h + d. -/
def headCol (h : Fin 4) (d : Fin 64) : Fin 256 := ⟨h.val * 64 + d.val, by have := h.isLt; have := d.isLt; omega⟩
/-- The head a column belongs to: e / 64. -/
def headOf (e : Fin 256) : Fin 4 := ⟨e.val / 64, by have := e.isLt; omega⟩
/-- A column's position inside its head: e % 64. -/
def headPos (e : Fin 256) : Fin 64 := ⟨e.val % 64, Nat.mod_lt _ (by decide)⟩

theorem headCol_headOf_headPos (e : Fin 256) : headCol (headOf e) (headPos e) = e :=
  Fin.ext (by show e.val / 64 * 64 + e.val % 64 = e.val; omega)

/-- One row of a linear map x ↦ x·Wᵀ + bias: column e is Σ_d x(d)·W(e,d) + bias(e). -/
def proj (x : Fin 256 → EReal) (W : Fin 256 → Fin 256 → EReal) (bias : Fin 256 → EReal) (e : Fin 256) : EReal :=
  (∑ d : Fin 256, x d * W e d) + bias e

/-- The score of one projected query row q against key row j in head h: the head's 64 columns contracted, over 16. -/
def score (q : Fin 256 → EReal) (k : Fin 2048 → Fin 256 → EReal) (h : Fin 4) (j : Fin 2048) : EReal :=
  Ideal.div (∑ d : Fin 64, q (headCol h d) * k j (headCol h d)) c16

/-- The maximum of a row of 2048 scores, folded from −∞. -/
def rowMax (s : Fin 2048 → EReal) : EReal := (Finset.univ : Finset (Fin 2048)).fold max negInf s

/-- exp(s(j) − max s). -/
def expShift (s : Fin 2048 → EReal) (j : Fin 2048) : EReal := Ideal.exp (s j - rowMax s)

/-- The softmax weight of key j. -/
def softmax (s : Fin 2048 → EReal) (j : Fin 2048) : EReal := Ideal.div (expShift s j) (∑ j' : Fin 2048, expShift s j')

/-- The attended row: the projected query plus, in each column, its head's softmax-weighted sum of the value rows. -/
def attend (q : Fin 256 → EReal) (k v : Fin 2048 → Fin 256 → EReal) (e : Fin 256) : EReal :=
  q e + ∑ j : Fin 2048, softmax (score q k (headOf e)) j * v j e

/-- The mean of a row of 256. -/
def mean (x : Fin 256 → EReal) : EReal := Ideal.div (∑ c : Fin 256, x c) c256

/-- LayerNorm of a row. -/
def layerNorm (x g b : Fin 256 → EReal) (e : Fin 256) : EReal :=
  (x e - mean x) * Ideal.rsqrt (mean (fun c => (x c - mean x) * (x c - mean x)) + eps) * g e + b e

/-- The feed-forward step with its residual: x + max(x·Woᵀ + bo, 0). -/
def feedForward (x : Fin 256 → EReal) (Wo : Fin 256 → Fin 256 → EReal) (bo : Fin 256 → EReal) (e : Fin 256) : EReal :=
  x e + max (proj x Wo bo e) 0

/-- One output row, from one input query row, the projected keys and values of its batch, and the weights. -/
def rowOut (qin : Fin 256 → EReal) (Wq : Fin 256 → Fin 256 → EReal) (bq : Fin 256 → EReal)
    (k v : Fin 2048 → Fin 256 → EReal) (Wo : Fin 256 → Fin 256 → EReal) (bo g0 b0 g1 b1 : Fin 256 → EReal) : Fin 256 → EReal :=
  layerNorm (feedForward (layerNorm (attend (proj qin Wq bq) k v) g0 b0) Wo bo) g1 b1

/-! ### The arrays as rows -/

/-- A [256, 256] matrix as a function of (row, column). -/
def mat (W : (⟨2, ![256, 256]⟩ : Shape).Idx → EReal) (e d : Fin 256) : EReal := W (ix2 e d)
/-- A [256] vector as a function of its index. -/
def vec (w : (⟨1, ![256]⟩ : Shape).Idx → EReal) (e : Fin 256) : EReal := w (ix1 e)
/-- Row (b, n) of a [4, 2048, 256] array. -/
def row3 (X : (⟨3, ![4, 2048, 256]⟩ : Shape).Idx → EReal) (b : Fin 4) (n : Fin 2048) (d : Fin 256) : EReal := X (ix3 b n d)

/-- The projected keys (or values) of batch b: row j is the projection of K's row (b, j). -/
def projRows (K : (⟨3, ![4, 2048, 256]⟩ : Shape).Idx → EReal) (W : (⟨2, ![256, 256]⟩ : Shape).Idx → EReal)
    (bias : (⟨1, ![256]⟩ : Shape).Idx → EReal) (b : Fin 4) (j : Fin 2048) : Fin 256 → EReal :=
  proj (row3 K b j) (mat W) (vec bias)

/-- THE RESULT: the whole [4, 2048, 256] output as one function of the fourteen argument arrays. -/
def result (Q K : (⟨3, ![4, 2048, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal)
    (Wo : (⟨2, ![256, 256]⟩ : Shape).Idx → EReal) (bo g0 b0 g1 b1 : (⟨1, ![256]⟩ : Shape).Idx → EReal) :
    (⟨3, ![4, 2048, 256]⟩ : Shape).Idx → EReal := fun i =>
  rowOut (row3 Q (i 0) (i 1)) (mat Wq) (vec bq) (projRows K Wk bk (i 0)) (projRows K Wv bv (i 0))
    (mat Wo) (vec bo) (vec g0) (vec b0) (vec g1) (vec b1) (i 2)

end Cert.Attn

end
-- ==== Proof.HeadMath.lean ====
/-
  Three facts that join the tile-wise arrangement of the attention block to the head-wise one of the specification.

  * The indicator of head h among the 256 columns, built from the column number by two integer comparisons, is 1 on the
    columns 64h … 64h+63 and 0 elsewhere.
  * Contracting over all 256 columns with the query masked by that indicator is contracting over the head's 64 columns:
    a zero factor kills its term on the extended reals too (0 · x = 0 for every x, the infinities included), so no
    finiteness is needed.
  * Multiplying by 0.0625 is dividing by 16 on every extended real, and adding up, over the four heads, the full-width
    products masked on the OUTPUT side selects, in each column, the product of that column's own head.
-/
import proofs.«179801_j41077067219485_2_alg».proof.Proof.Spec

noncomputable section

namespace Cert.Attn

open Idealize.ShloMosaic

/-! ### The literals -/

/-- The word 0x3D800000 denotes 1/16. -/
theorem ofBits_sixteenth : Ideal.ofBits .f32 0x3D800000#32 = ((1 / 16 : ℝ) : EReal) := by
  simp [Ideal.ofBits, Ideal.ieee, -EReal.coe_mul]; norm_num

/-- The word 0x41800000 denotes 16. -/
theorem c16_eq : c16 = ((16 : ℝ) : EReal) := by
  unfold c16
  simp [Ideal.ofBits, Ideal.ieee, -EReal.coe_mul]; norm_num

/-- Scaling a score by 0.0625 is dividing it by 16, at every extended real. -/
theorem mul_sixteenth (x : EReal) : x * Ideal.ofBits .f32 0x3D800000#32 = Ideal.div x c16 := by
  rw [ofBits_sixteenth, c16_eq, Ideal.div_coe (by norm_num : (16 : ℝ) ≠ 0)]

/-! ### The head indicator -/

/-- The indicator of head h on the columns: 1 where the column lies in the head, else 0. -/
def headMask (h : Fin 4) (e : Fin 256) : EReal := if headOf e = h then 1 else 0

/-- The 32-bit word the comparisons lo ≤ e and e < hi leave at column e, zero-extended from their one-bit conjunction. -/
def maskWord (lo hi : BitVec 32) (e : Fin 256) : BitVec 32 :=
  (IntOp.andi (IntOp.cmpi .sge (BitVec.ofNat 32 e.val) lo) (IntOp.cmpi .slt (BitVec.ofNat 32 e.val) hi)).setWidth 32

theorem maskWord_0 : ∀ e : Fin 256, maskWord 0#32 64#32 e = if headOf e = 0 then 1#32 else 0#32 := by decide +kernel
theorem maskWord_1 : ∀ e : Fin 256, maskWord 64#32 128#32 e = if headOf e = 1 then 1#32 else 0#32 := by decide +kernel
theorem maskWord_2 : ∀ e : Fin 256, maskWord 128#32 192#32 e = if headOf e = 2 then 1#32 else 0#32 := by decide +kernel
theorem maskWord_3 : ∀ e : Fin 256, maskWord 192#32 256#32 e = if headOf e = 3 then 1#32 else 0#32 := by decide +kernel

/-- Read as a signed integer and then as a real, the indicator word is the indicator. -/
theorem toInt_ite (p : Prop) [Decidable p] :
    ((((if p then 1#32 else 0#32 : BitVec 32).toInt : ℝ)) : EReal) = if p then 1 else 0 := by
  by_cases hp : p
  · simp [hp]
  · simp [hp]

theorem maskVal_0 (e : Fin 256) : ((((maskWord 0#32 64#32 e).toInt : ℝ)) : EReal) = headMask 0 e := by
  rw [maskWord_0 e, toInt_ite]; rfl
theorem maskVal_1 (e : Fin 256) : ((((maskWord 64#32 128#32 e).toInt : ℝ)) : EReal) = headMask 1 e := by
  rw [maskWord_1 e, toInt_ite]; rfl
theorem maskVal_2 (e : Fin 256) : ((((maskWord 128#32 192#32 e).toInt : ℝ)) : EReal) = headMask 2 e := by
  rw [maskWord_2 e, toInt_ite]; rfl
theorem maskVal_3 (e : Fin 256) : ((((maskWord 192#32 256#32 e).toInt : ℝ)) : EReal) = headMask 3 e := by
  rw [maskWord_3 e, toInt_ite]; rfl

/-! ### Columns as (head, position) -/

theorem headOf_headCol (h : Fin 4) (d : Fin 64) : headOf (headCol h d) = h :=
  Fin.ext (by show (h.val * 64 + d.val) / 64 = h.val; have := d.isLt; omega)

theorem headPos_headCol (h : Fin 4) (d : Fin 64) : headPos (headCol h d) = d :=
  Fin.ext (by show (h.val * 64 + d.val) % 64 = d.val; have := d.isLt; omega)

/-- The 256 columns are the 4 × 64 pairs (head, position inside the head). -/
def colEquiv : Fin 4 × Fin 64 ≃ Fin 256 where
  toFun p := headCol p.1 p.2
  invFun e := (headOf e, headPos e)
  left_inv p := Prod.ext (headOf_headCol p.1 p.2) (headPos_headCol p.1 p.2)
  right_inv e := headCol_headOf_headPos e

/-- A sum over the columns of a function supported on head h is the sum over that head's 64 positions. -/
theorem sum_on_head (h : Fin 4) (f : Fin 256 → EReal) :
    (∑ e : Fin 256, if headOf e = h then f e else 0) = ∑ d : Fin 64, f (headCol h d) := by
  rw [← Equiv.sum_comp colEquiv, Fintype.sum_prod_type]
  rw [Finset.sum_eq_single h]
  · refine Finset.sum_congr rfl fun d _ => ?_
    show (if headOf (headCol h d) = h then f (headCol h d) else 0) = _
    rw [if_pos (headOf_headCol h d)]
  · intro h' _ hne
    refine Finset.sum_eq_zero fun d _ => ?_
    show (if headOf (headCol h' d) = h then f (headCol h' d) else 0) = 0
    rw [headOf_headCol, if_neg hne]
  · intro hh; exact absurd (Finset.mem_univ h) hh

/-- THE MASKED CONTRACTION: over all 256 columns with the left factor masked to head h, it is the head's own contraction. -/
theorem masked_contract (h : Fin 4) (x y : Fin 256 → EReal) :
    (∑ e : Fin 256, x e * headMask h e * y e) = ∑ d : Fin 64, x (headCol h d) * y (headCol h d) := by
  rw [← sum_on_head h (fun e => x e * y e)]
  refine Finset.sum_congr rfl fun e _ => ?_
  unfold headMask
  by_cases he : headOf e = h
  · rw [if_pos he, if_pos he, mul_one]
  · rw [if_neg he, if_neg he, mul_zero, zero_mul]

/-- THE MASKED ACCUMULATION: from zero, adding each head's full-width value masked to its own columns leaves, in column e,
    the value of e's head. -/
theorem head_select (o : Fin 4 → EReal) (e : Fin 256) :
    0 + o 0 * headMask 0 e + o 1 * headMask 1 e + o 2 * headMask 2 e + o 3 * headMask 3 e = o (headOf e) := by
  unfold headMask
  generalize headOf e = h
  fin_cases h <;> simp

end Cert.Attn

end
-- ==== Proof.TileOps.lean ====
/-
  The vector operations of one 256-row tile, read at an index on the extended reals.

  Each definition below is a short composite of the tile program's own vector operations (a matrix product into a zero
  accumulator, a lane reduction kept as a column, a row or column broadcast, a pointwise step), over VARIABLE operands;
  each lemma reads it at a row r and a column (or key) index as the plain formula of the specification:
    * a product x·Wᵀ or A·v is a finite sum of products;
    * a lane sum kept as a [256, 1] column and broadcast back along the row is the row's sum, the same in every column;
    * the running maximum is the fold of max from −∞;
    * the head indicator built from the lane number is the indicator of the head's columns.
  No finiteness is used: only that 0 is absorbing for · and neutral for +, which holds on all of the extended reals.
-/
import proofs.«179801_j41077067219485_2_alg».proof.Proof.Gen.KernelIdeal
import proofs.«179801_j41077067219485_2_alg».proof.Proof.HeadMath
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Tile

open Cert.KernelIdeal Cert.KernelIdeal.Facts₀ Cert.KernelIdeal.Facts Cert.Attn Idealize.ShloMosaic Idealize.ShloMosaic.ValueIdx

/-! ### Matrix products into a zero accumulator -/

theorem lhsN_r2048 (j : S2048x256.Idx) (q : dot_S2048x256_S256x256_S2048x256_1_1_0_0_n_n.contr.Idx) : (dot_S2048x256_S256x256_S2048x256_1_1_0_0_n_n.lhsIdx j q 0).val = (j 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhsC_r2048 (j : S2048x256.Idx) (q : dot_S2048x256_S256x256_S2048x256_1_1_0_0_n_n.contr.Idx) : (dot_S2048x256_S256x256_S2048x256_1_1_0_0_n_n.lhsIdx j q 1).val = (q ⟨0, by decide⟩).val :=
  dot_S2048x256_S256x256_S2048x256_1_1_0_0_n_n.lhsIdx_val_of_single rfl j q
theorem rhsN_r2048 (j : S2048x256.Idx) (q : dot_S2048x256_S256x256_S2048x256_1_1_0_0_n_n.contr.Idx) : (dot_S2048x256_S256x256_S2048x256_1_1_0_0_n_n.rhsIdx j q 0).val = (j 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhsC_r2048 (j : S2048x256.Idx) (q : dot_S2048x256_S256x256_S2048x256_1_1_0_0_n_n.contr.Idx) : (dot_S2048x256_S256x256_S2048x256_1_1_0_0_n_n.rhsIdx j q 1).val = (q ⟨0, by decide⟩).val :=
  dot_S2048x256_S256x256_S2048x256_1_1_0_0_n_n.rhsIdx_val_of_single rfl j q

/-- x·Wᵀ for a [2048, 256] operand: entry (i, e) is Σ_d x(i,d)·W(e,d). -/
theorem matmul_rows2048 (l : FVec Ideal S2048x256 .bf16) (r : FVec Ideal S256x256 .bf16) (i : Fin 2048) (e : Fin 256) :
    matmul dot_S2048x256_S256x256_S2048x256_1_1_0_0_n_n none l r (constant S2048x256 .f32 0x00000000#32) (ix2 i e)
      = ∑ k : Fin 256, l (ix2 i k) * r (ix2 e k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 i e) ((contrEquiv1 dot_S2048x256_S256x256_S2048x256_1_1_0_0_n_n 256 rfl rfl).symm k) = ix2 i k := funext fun a => Fin.ext (by
    match a with
    | ⟨0, _⟩ => exact lhsN_r2048 _ _
    | ⟨1, _⟩ => exact (lhsC_r2048 _ _).trans hk)
  have er : dot_S2048x256_S256x256_S2048x256_1_1_0_0_n_n.rhsIdx (ix2 i e) ((contrEquiv1 dot_S2048x256_S256x256_S2048x256_1_1_0_0_n_n 256 rfl rfl).symm k) = ix2 e k := funext fun a => Fin.ext (by
    match a with
    | ⟨0, _⟩ => exact rhsN_r2048 _ _
    | ⟨1, _⟩ => exact (rhsC_r2048 _ _).trans hk)
  rw [el, er]

theorem lhsN_r256 (j : S256x256.Idx) (q : dot_S256x256_S256x256_S256x256_1_1_0_0_n_n.contr.Idx) : (dot_S256x256_S256x256_S256x256_1_1_0_0_n_n.lhsIdx j q 0).val = (j 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem lhsC_r256 (j : S256x256.Idx) (q : dot_S256x256_S256x256_S256x256_1_1_0_0_n_n.contr.Idx) : (dot_S256x256_S256x256_S256x256_1_1_0_0_n_n.lhsIdx j q 1).val = (q ⟨0, by decide⟩).val :=
  dot_S256x256_S256x256_S256x256_1_1_0_0_n_n.lhsIdx_val_of_single rfl j q
theorem rhsN_r256 (j : S256x256.Idx) (q : dot_S256x256_S256x256_S256x256_1_1_0_0_n_n.contr.Idx) : (dot_S256x256_S256x256_S256x256_1_1_0_0_n_n.rhsIdx j q 0).val = (j 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem rhsC_r256 (j : S256x256.Idx) (q : dot_S256x256_S256x256_S256x256_1_1_0_0_n_n.contr.Idx) : (dot_S256x256_S256x256_S256x256_1_1_0_0_n_n.rhsIdx j q 1).val = (q ⟨0, by decide⟩).val :=
  dot_S256x256_S256x256_S256x256_1_1_0_0_n_n.rhsIdx_val_of_single rfl j q

/-- x·Wᵀ for a [256, 256] operand. -/
theorem matmul_rows256 (l : FVec Ideal S256x256 .bf16) (r : FVec Ideal S256x256 .bf16) (i : Fin 256) (e : Fin 256) :
    matmul dot_S256x256_S256x256_S256x256_1_1_0_0_n_n none l r (constant S256x256 .f32 0x00000000#32) (ix2 i e)
      = ∑ k : Fin 256, l (ix2 i k) * r (ix2 e k) := by
  simp only [matmul]
  rw [Ideal.matmul_constant_zero_apply, ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx (ix2 i e) ((contrEquiv1 dot_S256x256_S256x256_S256x256_1_1_0_0_n_n 256 rfl rfl).symm k) = ix2 i k := funext fun a => Fin.ext (by
    match a with
    | ⟨0, _⟩ => exact lhsN_r256 _ _
    | ⟨1, _⟩ => exact (lhsC_r256 _ _).trans hk)
  have er : dot_S256x256_S256x256_S256x256_1_1_0_0_n_n.rhsIdx (ix2 i e) ((contrEquiv1 dot_S256x256_S256x256_S256x256_1_1_0_0_n_n 256 rfl rfl).symm k) = ix2 e k := funext fun a => Fin.ext (by
    match a with
    | ⟨0, _⟩ => exact rhsN_r256 _ _
    | ⟨1, _⟩ => exact (rhsC_r256 _ _).trans hk)
  rw [el, er]

theorem lhsN_sc (j : S256x2048.Idx) (q : dot_S256x256_S2048x256_S256x2048_1_1_0_0_n_n.contr.Idx) : (dot_S256x256_S2048x256_S256x2048_1_1_0_0_n_n.lhsIdx j q 0).val = (j 0).val := by
  unfold DotDims.lhsIdx
  rw [dif_neg (show ¬(0 : Fin S256x256.rank) ∈ dot_S256x256_S2048x256_S256x2048_1_1_0_0_n_n.lhsBatch by decide), dif_pos (show (0 : Fin S256x256.rank) ∈ dot_S256x256_S2048x256_S256x2048_1_1_0_0_n_n.lhsNonContracting by decide)]
  rfl
theorem lhsC_sc (j : S256x2048.Idx) (q : dot_S256x256_S2048x256_S256x2048_1_1_0_0_n_n.contr.Idx) : (dot_S256x256_S2048x256_S256x2048_1_1_0_0_n_n.lhsIdx j q 1).val = (q ⟨0, by decide⟩).val :=
  dot_S256x256_S2048x256_S256x2048_1_1_0_0_n_n.lhsIdx_val_of_single rfl j q
theorem rhsN_sc (j : S256x2048.Idx) (q : dot_S256x256_S2048x256_S256x2048_1_1_0_0_n_n.contr.Idx) : (dot_S256x256_S2048x256_S256x2048_1_1_0_0_n_n.rhsIdx j q 0).val = (j 1).val := by
  unfold DotDims.rhsIdx
  rw [dif_neg (show ¬(0 : Fin S2048x256.rank) ∈ dot_S256x256_S2048x256_S256x2048_1_1_0_0_n_n.rhsBatch by decide), dif_pos (show (0 : Fin S2048x256.rank) ∈ dot_S256x256_S2048x256_S256x2048_1_1_0_0_n_n.rhsNonContracting by decide)]
  rfl
theorem rhsC_sc (j : S256x2048.Idx) (q : dot_S256x256_S2048x256_S256x2048_1_1_0_0_n_n.contr.Idx) : (dot_S256x256_S2048x256_S256x2048_1_1_0_0_n_n.rhsIdx j q 1).val = (q ⟨0, by decide⟩).val :=
  dot_S256x256_S2048x256_S256x2048_1_1_0_0_n_n.rhsIdx_val_of_single rfl j q

/-- q·kᵀ: entry (i, j) of the [256, 2048] score tile is Σ_e q(i,e)·k(j,e). -/
theorem matmul_scores (l : FVec Ideal S256x256 .bf16) (r : FVec Ideal S2048x256 .bf16) (i : Fin 256) (e : Fin 2048) :
    matmul dot_S256x256_S2048x256_S256x2048_1_1_0_0_n_n none l r (constant S256x2048 .f32 0x00000000#32) (ix2 i e)
      = ∑ k : Fin 256, l (ix2 i k) * r (ix2 e k) := by
  simp only [matmul]
  rw [Ideal.matmul_constant_zero_apply, ← Equiv.sum_comp (contrEquiv1 dot_S256x256_S2048x256_S256x2048_1_1_0_0_n_n 256 rfl rfl).symm]
  refine Finset.sum_congr rfl fun k _ => ?_
  have hk := contrEquiv1_symm_val dot_S256x256_S2048x256_S256x2048_1_1_0_0_n_n 256 rfl rfl k
  have el : dot_S256x256_S2048x256_S256x2048_1_1_0_0_n_n.lhsIdx (ix2 i e) ((contrEquiv1 dot_S256x256_S2048x256_S256x2048_1_1_0_0_n_n 256 rfl rfl).symm k) = ix2 i k := funext fun a => Fin.ext (by
    match a with
    | ⟨0, _⟩ => exact lhsN_sc _ _
    | ⟨1, _⟩ => exact (lhsC_sc _ _).trans hk)
  have er : dot_S256x256_S2048x256_S256x2048_1_1_0_0_n_n.rhsIdx (ix2 i e) ((contrEquiv1 dot_S256x256_S2048x256_S256x2048_1_1_0_0_n_n 256 rfl rfl).symm k) = ix2 e k := funext fun a => Fin.ext (by
    match a with
    | ⟨0, _⟩ => exact rhsN_sc _ _
    | ⟨1, _⟩ => exact (rhsC_sc _ _).trans hk)
  rw [el, er]

theorem lhsN_av (j : S256x256.Idx) (q : dot_S256x2048_S2048x256_S256x256_1_0_0_1_n_n.contr.Idx) : (dot_S256x2048_S2048x256_S256x256_1_0_0_1_n_n.lhsIdx j q 0).val = (j 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhsC_av (j : S256x256.Idx) (q : dot_S256x2048_S2048x256_S256x256_1_0_0_1_n_n.contr.Idx) : (dot_S256x2048_S2048x256_S256x256_1_0_0_1_n_n.lhsIdx j q 1).val = (q ⟨0, by decide⟩).val :=
  dot_S256x2048_S2048x256_S256x256_1_0_0_1_n_n.lhsIdx_val_of_single rfl j q
theorem rhsN_av (j : S256x256.Idx) (q : dot_S256x2048_S2048x256_S256x256_1_0_0_1_n_n.contr.Idx) : (dot_S256x2048_S2048x256_S256x256_1_0_0_1_n_n.rhsIdx j q 1).val = (j 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl
theorem rhsC_av (j : S256x256.Idx) (q : dot_S256x2048_S2048x256_S256x256_1_0_0_1_n_n.contr.Idx) : (dot_S256x2048_S2048x256_S256x256_1_0_0_1_n_n.rhsIdx j q 0).val = (q ⟨0, by decide⟩).val :=
  dot_S256x2048_S2048x256_S256x256_1_0_0_1_n_n.rhsIdx_val_of_single rfl j q

/-- A·v: entry (i, e) of the [256, 256] tile is Σ_j A(i,j)·v(j,e). -/
theorem matmul_weighted (l : FVec Ideal S256x2048 .bf16) (r : FVec Ideal S2048x256 .bf16) (i : Fin 256) (e : Fin 256) :
    matmul dot_S256x2048_S2048x256_S256x256_1_0_0_1_n_n none l r (constant S256x256 .f32 0x00000000#32) (ix2 i e)
      = ∑ k : Fin 2048, l (ix2 i k) * r (ix2 k e) := by
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 i e) ((contrEquiv1 dot_S256x2048_S2048x256_S256x256_1_0_0_1_n_n 2048 rfl rfl).symm k) = ix2 i k := funext fun a => Fin.ext (by
    match a with
    | ⟨0, _⟩ => exact lhsN_av _ _
    | ⟨1, _⟩ => exact (lhsC_av _ _).trans hk)
  have er : dot_S256x2048_S2048x256_S256x256_1_0_0_1_n_n.rhsIdx (ix2 i e) ((contrEquiv1 dot_S256x2048_S2048x256_S256x256_1_0_0_1_n_n 2048 rfl rfl).symm k) = ix2 k e := funext fun a => Fin.ext (by
    match a with
    | ⟨1, _⟩ => exact rhsN_av _ _
    | ⟨0, _⟩ => exact (rhsC_av _ _).trans hk)
  rw [el, er]

/-! ### Columns: a lane reduction kept as [256, 1], and its broadcast back along the row -/

section Layout
variable {α : Type}

/-- A [256] vector viewed as a [256, 1] column reads its row. -/
theorem column_apply (v : S256.Idx → α) (h : S256.ShapeCasts S256x1) (r : Fin 256) (z : Fin 1) :
    shapeCast S256x1 v h (ix2 r z) = v (ix1 r) :=
  shapeCast_apply v h _ _ (by
    have hz : z.val = 0 := by omega
    rw [Shape.rowMajor_val_one, Shape.rowMajor_val_two]
    show r.val = r.val * 1 + z.val
    rw [hz, Nat.mul_one, Nat.add_zero])

/-- A [256, 1] column broadcast to [256, 2048] reads the row's entry in every column. -/
theorem bcastCol2048_apply (v : S256x1.Idx → α) (h : S256x1.Broadcasts S256x2048) (r : Fin 256) (j : Fin 2048) :
    broadcastTo S256x2048 v h (ix2 r j) = v (ix2 r (0 : Fin 1)) := by
  refine broadcastTo_apply v h (ix2 r j) (ix2 r (0 : Fin 1)) fun ax => ?_
  match ax with
  | ⟨0, _⟩ => show r.val = if (256 : Nat) = 1 then 0 else r.val; rw [if_neg (by decide)]
  | ⟨1, _⟩ => show (0 : Nat) = if (1 : Nat) = 1 then 0 else j.val; rw [if_pos rfl]

/-- A [256, 1] column broadcast to [256, 256]. -/
theorem bcastCol256_apply (v : S256x1.Idx → α) (h : S256x1.Broadcasts S256x256) (r : Fin 256) (e : Fin 256) :
    broadcastTo S256x256 v h (ix2 r e) = v (ix2 r (0 : Fin 1)) := by
  refine broadcastTo_apply v h (ix2 r e) (ix2 r (0 : Fin 1)) fun ax => ?_
  match ax with
  | ⟨0, _⟩ => show r.val = if (256 : Nat) = 1 then 0 else r.val; rw [if_neg (by decide)]
  | ⟨1, _⟩ => show (0 : Nat) = if (1 : Nat) = 1 then 0 else e.val; rw [if_pos rfl]

end Layout

/-- The lane index a reduction over axis 1 inserts into a row index is (row, lane). -/
theorem lift2048 (h : S256x2048.Reduces [1] S256) (r : Fin 256) (k : Fin (S256x2048.size 1)) :
    h.lift (ix1 r) k = ix2 r k := funext fun a => Fin.ext (by
  match a with
  | ⟨0, _⟩ => rfl
  | ⟨1, _⟩ => rfl)

theorem lift256 (h : S256x256.Reduces [1] S256) (r : Fin 256) (k : Fin (S256x256.size 1)) :
    h.lift (ix1 r) k = ix2 r k := funext fun a => Fin.ext (by
  match a with
  | ⟨0, _⟩ => rfl
  | ⟨1, _⟩ => rfl)

/-- The sum of a row of 2048 entries, kept as a column. -/
def rowSumCol2048 (x : FVec Ideal S256x2048 .f32) : FVec Ideal S256x1 .f32 :=
  shapeCast S256x1 (multiReduction .add [1] S256 x 0x00000000#32 reduces_S256x2048_S256 (.inl rfl) rfl) shapeCasts_S256_S256x1

theorem rowSumCol2048_apply (x : FVec Ideal S256x2048 .f32) (r : Fin 256) (z : Fin 1) :
    rowSumCol2048 x (ix2 r z) = ∑ j : Fin 2048, x (ix2 r j) := by
  unfold rowSumCol2048
  rw [column_apply]
  refine (Ideal.multiReduction_add_single x _ reduces_S256x2048_S256 _ _ (ix1 r)).trans ?_
  exact Finset.sum_congr rfl fun k _ => congrArg x (lift2048 _ r k)

/-- The sum of a row of 256 entries, kept as a column. -/
def rowSumCol256 (x : FVec Ideal S256x256 .f32) : FVec Ideal S256x1 .f32 :=
  shapeCast S256x1 (multiReduction .add [1] S256 x 0x00000000#32 reduces_S256x256_S256 (.inl rfl) rfl) shapeCasts_S256_S256x1

theorem rowSumCol256_apply (x : FVec Ideal S256x256 .f32) (r : Fin 256) (z : Fin 1) :
    rowSumCol256 x (ix2 r z) = ∑ c : Fin 256, x (ix2 r c) := by
  unfold rowSumCol256
  rw [column_apply]
  refine (Ideal.multiReduction_add_single x _ reduces_S256x256_S256 _ _ (ix1 r)).trans ?_
  exact Finset.sum_congr rfl fun k _ => congrArg x (lift256 _ r k)

/-- The maximum of a row of 2048 scores from −∞, kept as a column. -/
def rowMaxCol (x : FVec Ideal S256x2048 .f32) : FVec Ideal S256x1 .f32 :=
  shapeCast S256x1 (multiReduction .maximumf [1] S256 x 0xFF800000#32 reduces_S256x2048_S256 (.inl rfl) rfl) shapeCasts_S256_S256x1

theorem rowMaxCol_apply (x : FVec Ideal S256x2048 .f32) (r : Fin 256) (z : Fin 1) :
    rowMaxCol x (ix2 r z) = rowMax (fun j => x (ix2 r j)) := by
  unfold rowMaxCol
  rw [column_apply]
  refine (Ideal.multiReduction_maximumf_single x _ reduces_S256x2048_S256 _ _ (ix1 r)).trans ?_
  unfold rowMax negInf
  refine congrArg (Finset.fold max _ · Finset.univ) (funext fun k => ?_)
  exact congrArg x (lift2048 _ r k)

end Cert.Attn.Tile

end
-- ==== Proof.TileBlocks.lean ====
/-
  One 256-row tile of the attention block, read row by row.

  The tile's arithmetic is a composite of a few recurring blocks over its operands — the query tile x0, the projected
  keys and values of the batch (two [2048, 256] arrays), and the weights:
    a projection x·Wᵀ + b;   the indicator of head h on the 256 lanes;
    for one head: the masked scores q·kᵀ/16, their shift by the row maximum, the softmax-weighted sum of the value rows;
    LayerNorm over a row;   the feed-forward step with its residual.
  Each block is defined here over variable operands and read at (row, column) as the specification's row formula; the last
  theorem reads the whole composite as Cert.Attn.rowOut of the tile's row.  The four heads enter through the two
  facts of the head arithmetic: the masked 256-wide contraction is the head's 64-wide one, and the masked accumulation
  selects each column's own head.
-/
import proofs.«179801_j41077067219485_2_alg».proof.Proof.TileOps
import proofs.«179801_j41077067219485_2_alg».proof.Proof.Gen.KernelIdeal.Skeleton

noncomputable section

namespace Cert.Attn.Tile

open Cert.KernelIdeal Cert.KernelIdeal.Facts₀ Cert.KernelIdeal.Facts Cert.Attn Idealize.ShloMosaic Idealize.ShloMosaic.ValueIdx

/-! ### Rows of the operands -/

/-- Row r of a [1, 256, 256] block. -/
def rowOf3 (x : Vec Ideal S1x256x256 .f32) (r : Fin 256) (d : Fin 256) : EReal := x (ix3 (0 : Fin 1) r d)
/-- Row j of a [1, 2048, 256] block. -/
def rowOfK (x : Vec Ideal S1x2048x256 .f32) (j : Fin 2048) (d : Fin 256) : EReal := x (ix3 (0 : Fin 1) j d)
/-- A [1, 256] row vector as a function of the column. -/
def rowVec (v : Vec Ideal S1x256 .f32) (e : Fin 256) : EReal := v (ix2 (0 : Fin 1) e)
/-- A [256, 256] weight matrix as a function of (row, column). -/
def matOf (w : Vec Ideal S256x256 .f32) (e d : Fin 256) : EReal := w (ix2 e d)
/-- The rows of a [2048, 256] array. -/
def rows2 (x : Vec Ideal S2048x256 .f32) (j : Fin 2048) (e : Fin 256) : EReal := x (ix2 j e)

/-! ### The projections -/

/-- The projected query tile: row r, column e is Σ_d x0(r,d)·Wq(e,d) + bq(e). -/
theorem pay5_apply (x0 : Vec Ideal S1x256x256 .f32) (x2 : Vec Ideal S256x256 .f32) (x3 : Vec Ideal S1x256 .f32) (r e : Fin 256) :
    Gen.k0_pay5 (F := Ideal) x0 x2 x3 (ix2 r e) = proj (rowOf3 x0 r) (matOf x2) (rowVec x3) e := by
  unfold Gen.k0_pay5 proj rowOf3 matOf rowVec
  try dsimp only
  simp only [shapeCast_self]
  rw [addf_apply, matmul_rows256, broadcastTo_1b_ab_apply]
  refine congrArg (· + _) (Finset.sum_congr rfl fun d _ => ?_)
  rw [truncf_apply, truncf_apply, shapeCast_1ab_ab_apply]

/-- The projected keys (or values) of the batch: row j, column e is Σ_d K(j,d)·W(e,d) + b(e). -/
theorem pay3_apply (x1 : Vec Ideal S1x2048x256 .f32) (x4 : Vec Ideal S256x256 .f32) (x5 : Vec Ideal S1x256 .f32) (j : Fin 2048) (e : Fin 256) :
    Gen.k0_pay3 (F := Ideal) x1 x4 x5 (ix2 j e) = proj (rowOfK x1 j) (matOf x4) (rowVec x5) e := by
  unfold Gen.k0_pay3 Gen.k0_pay2 proj rowOfK matOf rowVec
  try dsimp only
  simp only [shapeCast_self]
  rw [addf_apply, matmul_rows2048, broadcastTo_1b_ab_apply]
  refine congrArg (· + _) (Finset.sum_congr rfl fun d _ => ?_)
  rw [truncf_apply, truncf_apply, shapeCast_1ab_ab_apply]

theorem pay4_apply (x1 : Vec Ideal S1x2048x256 .f32) (x6 : Vec Ideal S256x256 .f32) (x7 : Vec Ideal S1x256 .f32) (j : Fin 2048) (e : Fin 256) :
    Gen.k0_pay4 (F := Ideal) x1 x6 x7 (ix2 j e) = proj (rowOfK x1 j) (matOf x6) (rowVec x7) e := by
  unfold Gen.k0_pay4 Gen.k0_pay2 proj rowOfK matOf rowVec
  try dsimp only
  simp only [shapeCast_self]
  rw [addf_apply, matmul_rows2048, broadcastTo_1b_ab_apply]
  refine congrArg (· + _) (Finset.sum_congr rfl fun d _ => ?_)
  rw [truncf_apply, truncf_apply, shapeCast_1ab_ab_apply]

/-! ### The head indicator on the lanes -/

/-- The lane numbers 0 … 255 of a [1, 256] vector. -/
def lanes : IVec S1x256 32 := iota .tc S1x256 32 [1] iota_S1x256_d1_w32

/-- The indicator of lo ≤ lane < hi as a float row vector, built as the tile builds it. -/
def maskV (lo hi : BitVec 32) : FVec Ideal S1x256 .f32 :=
  sitofp .f32 (extui 32 (andi (cmpi .sge lanes (broadcast S1x256 lo)) (cmpi .slt lanes (broadcast S1x256 hi))) natLt_1_32)

theorem maskV_apply (lo hi : BitVec 32) (e : Fin 256) :
    maskV lo hi (ix2 (0 : Fin 1) e) = ((((maskWord lo hi e).toInt : ℝ)) : EReal) := by
  have hl : lanes (ix2 (0 : Fin 1) e) = BitVec.ofNat 32 e.val := iota_single_apply .tc S1x256 32 1 _ _
  show ((((IntOp.andi (IntOp.cmpi .sge (lanes (ix2 (0 : Fin 1) e)) lo) (IntOp.cmpi .slt (lanes (ix2 (0 : Fin 1) e)) hi)).setWidth 32).toInt : ℝ) : EReal) = _
  rw [hl]; rfl

theorem mask0_apply (e : Fin 256) : maskV 0#32 64#32 (ix2 (0 : Fin 1) e) = headMask 0 e := (maskV_apply _ _ e).trans (maskVal_0 e)
theorem mask1_apply (e : Fin 256) : maskV 64#32 128#32 (ix2 (0 : Fin 1) e) = headMask 1 e := (maskV_apply _ _ e).trans (maskVal_1 e)
theorem mask2_apply (e : Fin 256) : maskV 128#32 192#32 (ix2 (0 : Fin 1) e) = headMask 2 e := (maskV_apply _ _ e).trans (maskVal_2 e)
theorem mask3_apply (e : Fin 256) : maskV 192#32 256#32 (ix2 (0 : Fin 1) e) = headMask 3 e := (maskV_apply _ _ e).trans (maskVal_3 e)

/-! ### One head -/

/-- The scores of a head: the query tile masked to the head's lanes, times the keys transposed, times 0.0625. -/
def scoresV (qb : FVec Ideal S256x256 .bf16) (kb : FVec Ideal S2048x256 .bf16) (mk : FVec Ideal S1x256 .f32) : FVec Ideal S256x2048 .f32 :=
  mulf (matmul dot_S256x256_S2048x256_S256x2048_1_1_0_0_n_n none
      (mulf qb (broadcastTo S256x256 (truncf .bf16 mk bitsLt_bf16_f32) broadcasts_S1x256_S256x256)) kb (constant S256x2048 .f32 0x00000000#32))
    (broadcast S256x2048 (Scalar.ofBits .f32 0x3D800000#32))

theorem scoresV_apply (qb : FVec Ideal S256x256 .bf16) (kb : FVec Ideal S2048x256 .bf16) (mk : FVec Ideal S1x256 .f32) (h : Fin 4)
    (hm : ∀ e : Fin 256, mk (ix2 (0 : Fin 1) e) = headMask h e) (r : Fin 256) (j : Fin 2048) :
    scoresV qb kb mk (ix2 r j) = score (fun e => qb (ix2 r e)) (fun j e => kb (ix2 j e)) h j := by
  unfold scoresV score
  rw [mulf_apply, matmul_scores, broadcast_apply]
  show (∑ e : Fin 256, mulf qb (broadcastTo S256x256 (truncf .bf16 mk bitsLt_bf16_f32) broadcasts_S1x256_S256x256) (ix2 r e) * kb (ix2 j e))
      * Ideal.ofBits .f32 0x3D800000#32 = _
  rw [mul_sixteenth, ← masked_contract h (fun e => qb (ix2 r e)) (fun e => kb (ix2 j e))]
  refine congrArg (Ideal.div · c16) (Finset.sum_congr rfl fun e _ => ?_)
  rw [mulf_apply, broadcastTo_1b_ab_apply, truncf_apply, hm]

/-- The scores less their row maximum. -/
def shiftV (s : FVec Ideal S256x2048 .f32) : FVec Ideal S256x2048 .f32 :=
  subf s (broadcastTo S256x2048 (rowMaxCol s) broadcasts_S256x1_S256x2048)

theorem shiftV_apply (s : FVec Ideal S256x2048 .f32) (r : Fin 256) (j : Fin 2048) :
    shiftV s (ix2 r j) = s (ix2 r j) - rowMax (fun j => s (ix2 r j)) := by
  unfold shiftV
  rw [subf_apply, bcastCol2048_apply, rowMaxCol_apply]

/-- The softmax of shifted scores t, times the value rows: exp t over its row sum, times v. -/
def weightedV (t : FVec Ideal S256x2048 .f32) (vb : FVec Ideal S2048x256 .bf16) : FVec Ideal S256x256 .f32 :=
  matmul dot_S256x2048_S2048x256_S256x256_1_0_0_1_n_n none
    (truncf .bf16 (divf (exp t) (broadcastTo S256x2048 (rowSumCol2048 (exp t)) broadcasts_S256x1_S256x2048)) bitsLt_bf16_f32)
    vb (constant S256x256 .f32 0x00000000#32)

theorem weightedV_apply (t : FVec Ideal S256x2048 .f32) (vb : FVec Ideal S2048x256 .bf16) (r e : Fin 256) :
    weightedV t vb (ix2 r e)
      = ∑ j : Fin 2048, Ideal.div (Ideal.exp (t (ix2 r j))) (∑ j' : Fin 2048, Ideal.exp (t (ix2 r j'))) * vb (ix2 j e) := by
  unfold weightedV
  rw [matmul_weighted]
  refine Finset.sum_congr rfl fun j _ => ?_
  rw [truncf_apply, divf_apply, bcastCol2048_apply, rowSumCol2048_apply]
  rfl

/-- One head's contribution to the accumulator: its weighted value rows, masked to its own lanes. -/
def headV (qb : FVec Ideal S256x256 .bf16) (kb vb : FVec Ideal S2048x256 .bf16) (mk : FVec Ideal S1x256 .f32) : FVec Ideal S256x256 .f32 :=
  mulf (weightedV (shiftV (scoresV qb kb mk)) vb) (broadcastTo S256x256 mk broadcasts_S1x256_S256x256)

theorem headV_apply (qb : FVec Ideal S256x256 .bf16) (kb vb : FVec Ideal S2048x256 .bf16) (mk : FVec Ideal S1x256 .f32) (h : Fin 4)
    (hm : ∀ e : Fin 256, mk (ix2 (0 : Fin 1) e) = headMask h e) (r e : Fin 256) :
    headV qb kb vb mk (ix2 r e)
      = (∑ j : Fin 2048, softmax (score (fun e => qb (ix2 r e)) (fun j e => kb (ix2 j e)) h) j * vb (ix2 j e)) * headMask h e := by
  unfold headV
  rw [mulf_apply, weightedV_apply, broadcastTo_1b_ab_apply, hm]
  refine congrArg (· * headMask h e) (Finset.sum_congr rfl fun j _ => ?_)
  unfold softmax expShift
  simp only [shiftV_apply, scoresV_apply qb kb mk h hm]

/-- The attended tile: the projected query plus the four heads accumulated from zero. -/
def attendV (q : FVec Ideal S256x256 .f32) (kk vv : Vec Ideal S2048x256 .f32) : FVec Ideal S256x256 .f32 :=
  addf q (addf (addf (addf (addf (broadcast S256x256 (Scalar.ofBits .f32 0x00000000#32))
      (headV (truncf .bf16 q bitsLt_bf16_f32) (truncf .bf16 kk bitsLt_bf16_f32) (truncf .bf16 vv bitsLt_bf16_f32) (maskV 0#32 64#32)))
      (headV (truncf .bf16 q bitsLt_bf16_f32) (truncf .bf16 kk bitsLt_bf16_f32) (truncf .bf16 vv bitsLt_bf16_f32) (maskV 64#32 128#32)))
      (headV (truncf .bf16 q bitsLt_bf16_f32) (truncf .bf16 kk bitsLt_bf16_f32) (truncf .bf16 vv bitsLt_bf16_f32) (maskV 128#32 192#32)))
      (headV (truncf .bf16 q bitsLt_bf16_f32) (truncf .bf16 kk bitsLt_bf16_f32) (truncf .bf16 vv bitsLt_bf16_f32) (maskV 192#32 256#32)))

theorem attendV_apply (q : FVec Ideal S256x256 .f32) (kk vv : Vec Ideal S2048x256 .f32) (r e : Fin 256) :
    attendV q kk vv (ix2 r e) = attend (fun e => q (ix2 r e)) (rows2 kk) (rows2 vv) e := by
  unfold attendV attend
  simp only [addf_apply, broadcast_apply]
  rw [headV_apply _ _ _ _ 0 mask0_apply, headV_apply _ _ _ _ 1 mask1_apply, headV_apply _ _ _ _ 2 mask2_apply, headV_apply _ _ _ _ 3 mask3_apply]
  show q (ix2 r e) + (Ideal.ofBits .f32 0x00000000#32 + _ + _ + _ + _) = _
  rw [Ideal.ofBits_zero_f32]
  exact congrArg (q (ix2 r e) + ·)
    (head_select (fun h => ∑ j : Fin 2048, softmax (score (fun e => q (ix2 r e)) (rows2 kk) h) j * rows2 vv j e) e)

/-! ### LayerNorm and the feed-forward step -/

/-- The mean of each row, kept as a column. -/
def meanCol (x : FVec Ideal S256x256 .f32) : FVec Ideal S256x1 .f32 :=
  divf (rowSumCol256 x) (broadcast S256x1 (Scalar.ofBits .f32 0x43800000#32))

theorem meanCol_apply (x : FVec Ideal S256x256 .f32) (r : Fin 256) (z : Fin 1) :
    meanCol x (ix2 r z) = mean (fun c => x (ix2 r c)) := by
  unfold meanCol mean c256
  rw [divf_apply, rowSumCol256_apply, broadcast_apply]; rfl

/-- The sum over each row of the squared deviations from a column of centres, kept as a column. -/
def sqDevCol (x : FVec Ideal S256x256 .f32) (mu : FVec Ideal S256x1 .f32) : FVec Ideal S256x1 .f32 :=
  rowSumCol256 (mulf (subf x (broadcastTo S256x256 mu broadcasts_S256x1_S256x256)) (subf x (broadcastTo S256x256 mu broadcasts_S256x1_S256x256)))

theorem sqDevCol_apply (x : FVec Ideal S256x256 .f32) (mu : FVec Ideal S256x1 .f32) (r : Fin 256) (z : Fin 1) :
    sqDevCol x mu (ix2 r z) = ∑ c : Fin 256, (x (ix2 r c) - mu (ix2 r (0 : Fin 1))) * (x (ix2 r c) - mu (ix2 r (0 : Fin 1))) := by
  unfold sqDevCol
  rw [rowSumCol256_apply]
  refine Finset.sum_congr rfl fun c _ => ?_
  rw [mulf_apply, subf_apply, bcastCol256_apply]

/-- The normalising step, from a column of means and a column of variances. -/
def normV (x : FVec Ideal S256x256 .f32) (mu var : FVec Ideal S256x1 .f32) (g b : Vec Ideal S1x256 .f32) : FVec Ideal S256x256 .f32 :=
  addf (mulf (mulf (subf x (broadcastTo S256x256 mu broadcasts_S256x1_S256x256))
        (broadcastTo S256x256 (rsqrt (addf var (broadcast S256x1 (Scalar.ofBits .f32 0x3727C5AC#32)))) broadcasts_S256x1_S256x256))
      (broadcastTo S256x256 (shapeCast S1x256 g shapeCasts_S1x256_S1x256) broadcasts_S1x256_S256x256))
    (broadcastTo S256x256 (shapeCast S1x256 b shapeCasts_S1x256_S1x256) broadcasts_S1x256_S256x256)

theorem normV_apply (x : FVec Ideal S256x256 .f32) (mu var : FVec Ideal S256x1 .f32) (g b : Vec Ideal S1x256 .f32) (r e : Fin 256) :
    normV x mu var g b (ix2 r e)
      = (x (ix2 r e) - mu (ix2 r (0 : Fin 1))) * Ideal.rsqrt (var (ix2 r (0 : Fin 1)) + eps) * rowVec g e + rowVec b e := by
  unfold normV rowVec eps
  simp only [shapeCast_self]
  rw [addf_apply, mulf_apply, mulf_apply, subf_apply, bcastCol256_apply, bcastCol256_apply, broadcastTo_1b_ab_apply, broadcastTo_1b_ab_apply]
  rfl

/-- LayerNorm of a tile from its own row means and variances. -/
def layerNormV (x : FVec Ideal S256x256 .f32) (g b : Vec Ideal S1x256 .f32) : FVec Ideal S256x256 .f32 :=
  normV x (meanCol x) (divf (sqDevCol x (meanCol x)) (broadcast S256x1 (Scalar.ofBits .f32 0x43800000#32))) g b

theorem layerNormV_apply (x : FVec Ideal S256x256 .f32) (g b : Vec Ideal S1x256 .f32) (r e : Fin 256) :
    layerNormV x g b (ix2 r e) = layerNorm (fun c => x (ix2 r c)) (rowVec g) (rowVec b) e := by
  unfold layerNormV layerNorm
  rw [normV_apply, divf_apply, sqDevCol_apply, broadcast_apply, meanCol_apply]
  rfl

/-- The feed-forward step with its residual. -/
def feedForwardV (x : FVec Ideal S256x256 .f32) (w : Vec Ideal S256x256 .f32) (b : Vec Ideal S1x256 .f32) : FVec Ideal S256x256 .f32 :=
  addf x (maximumf (addf (matmul dot_S256x256_S256x256_S256x256_1_1_0_0_n_n none (truncf .bf16 x bitsLt_bf16_f32) (truncf .bf16 w bitsLt_bf16_f32)
      (constant S256x256 .f32 0x00000000#32)) (broadcastTo S256x256 (shapeCast S1x256 b shapeCasts_S1x256_S1x256) broadcasts_S1x256_S256x256))
    (broadcast S256x256 (Scalar.ofBits .f32 0x00000000#32)))

theorem feedForwardV_apply (x : FVec Ideal S256x256 .f32) (w : Vec Ideal S256x256 .f32) (b : Vec Ideal S1x256 .f32) (r e : Fin 256) :
    feedForwardV x w b (ix2 r e) = feedForward (fun c => x (ix2 r c)) (matOf w) (rowVec b) e := by
  unfold feedForwardV feedForward proj matOf rowVec
  simp only [shapeCast_self]
  rw [addf_apply, maximumf_apply, addf_apply, matmul_rows256, broadcastTo_1b_ab_apply, broadcast_apply]
  show x (ix2 r e) + max (_ + _) (Ideal.ofBits .f32 0x00000000#32) = _
  rw [Ideal.ofBits_zero_f32]
  rfl

/-! ### The whole tile -/

/-- The tile's output from its query block, the projected keys and values of the batch, and the weights. -/
def tileV (x0 : Vec Ideal S1x256x256 .f32) (x2 : Vec Ideal S256x256 .f32) (x3 : Vec Ideal S1x256 .f32) (kk vv : Vec Ideal S2048x256 .f32)
    (x8 : Vec Ideal S256x256 .f32) (x9 x10 x11 x12 x13 : Vec Ideal S1x256 .f32) : FVec Ideal S1x256x256 .f32 :=
  shapeCast S1x256x256
    (layerNormV (feedForwardV (layerNormV (attendV (Gen.k0_pay5 (F := Ideal) x0 x2 x3) kk vv) x10 x11) x8 x9) x12 x13)
    shapeCasts_S256x256_S1x256x256

/-- Row r of the tile's output is the specification's row formula at the tile's row r. -/
theorem tileV_apply (x0 : Vec Ideal S1x256x256 .f32) (x2 : Vec Ideal S256x256 .f32) (x3 : Vec Ideal S1x256 .f32) (kk vv : Vec Ideal S2048x256 .f32)
    (x8 : Vec Ideal S256x256 .f32) (x9 x10 x11 x12 x13 : Vec Ideal S1x256 .f32) (u : Fin 1) (r e : Fin 256) :
    tileV x0 x2 x3 kk vv x8 x9 x10 x11 x12 x13 (ix3 u r e)
      = rowOut (rowOf3 x0 r) (matOf x2) (rowVec x3) (rows2 kk) (rows2 vv) (matOf x8) (rowVec x9) (rowVec x10) (rowVec x11) (rowVec x12) (rowVec x13) e := by
  unfold tileV rowOut
  rw [shapeCast_ab_1ab_apply, layerNormV_apply]
  have h2 : (fun c => feedForwardV (layerNormV (attendV (Gen.k0_pay5 (F := Ideal) x0 x2 x3) kk vv) x10 x11) x8 x9 (ix2 r c))
      = feedForward (layerNorm (attend (proj (rowOf3 x0 r) (matOf x2) (rowVec x3)) (rows2 kk) (rows2 vv)) (rowVec x10) (rowVec x11)) (matOf x8) (rowVec x9) := by
    funext c
    rw [feedForwardV_apply]
    have h1 : (fun c => layerNormV (attendV (Gen.k0_pay5 (F := Ideal) x0 x2 x3) kk vv) x10 x11 (ix2 r c))
        = layerNorm (attend (proj (rowOf3 x0 r) (matOf x2) (rowVec x3)) (rows2 kk) (rows2 vv)) (rowVec x10) (rowVec x11) := by
      funext c
      rw [layerNormV_apply]
      have h0 : (fun c => attendV (Gen.k0_pay5 (F := Ideal) x0 x2 x3) kk vv (ix2 r c))
          = attend (proj (rowOf3 x0 r) (matOf x2) (rowVec x3)) (rows2 kk) (rows2 vv) := by
        funext c
        rw [attendV_apply]
        have hq : (fun e => Gen.k0_pay5 (F := Ideal) x0 x2 x3 (ix2 r e)) = proj (rowOf3 x0 r) (matOf x2) (rowVec x3) :=
          funext fun e => pay5_apply x0 x2 x3 r e
        rw [hq]
      rw [h0]
    rw [h1]
  rw [h2]

end Cert.Attn.Tile

end
-- ==== Proof.TileFound.lean ====
/-
  What one grid point's body leaves behind, as values.

  At the first query tile of a batch the body projects the batch's keys and values, keeps them, and computes the tile
  from them; at the other seven it computes the tile from what the first one kept.  Each statement below reads the
  pieces the body's run found — one covering store per output — back as the pure term of the blocks the body loaded:
  the kept keys are the key projection of the batch's K block, the kept values its value projection, and the tile is
  ONE term of the query block, the kept keys and values, and the weights, the same in both cases.  On the extended reals
  that term is the tile function of the row-wise specification.
-/
import proofs.«179801_j41077067219485_2_alg».proof.Proof.Gen.KernelIdeal.Frame
import proofs.«179801_j41077067219485_2_alg».proof.Proof.TileBlocks
import Idealize.ShloMosaic.Lib.Pipeline.Value

set_option maxRecDepth 16384

noncomputable section

namespace Cert.Attn.Found

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The lane numbers the head indicators are built from. -/
abbrev lanesF : IVec S1x256 32 := iota .tc S1x256 32 [1] Facts₀.iota_S1x256_d1_w32

/-- The attended tile (projected query plus the four heads), from the query block, the kept keys and values and the
    query projection's weights. -/
def attF (x0 : Vec F S1x256x256 .f32) (x2 : Vec F S256x256 .f32) (x3 : Vec F S1x256 .f32) (kk vv : Vec F S2048x256 .f32) : FVec F S256x256 .f32 :=
  k0_pay15 (k0_pay5 x0 x2 x3) (k0_pay6 x0 x2 x3) (k0_pay7 kk) (k0_pay8 vv) lanesF
    (k0_pay12 (k0_pay6 x0 x2 x3) (k0_pay7 kk) (k0_pay8 vv) k0_pay9 lanesF k0_pay10 (k0_pay11 x0 x2 x3 kk))
    (k0_pay13 lanesF) (k0_pay14 (k0_pay6 x0 x2 x3) (k0_pay7 kk) lanesF)

/-- Its row sums, kept as a column. -/
def attSumF (x0 : Vec F S1x256x256 .f32) (x2 : Vec F S256x256 .f32) (x3 : Vec F S1x256 .f32) (kk vv : Vec F S2048x256 .f32) : FVec F S256x1 .f32 :=
  k0_pay16 (k0_pay5 x0 x2 x3) (k0_pay6 x0 x2 x3) (k0_pay7 kk) (k0_pay8 vv) lanesF
    (k0_pay12 (k0_pay6 x0 x2 x3) (k0_pay7 kk) (k0_pay8 vv) k0_pay9 lanesF k0_pay10 (k0_pay11 x0 x2 x3 kk))
    (k0_pay13 lanesF) (k0_pay14 (k0_pay6 x0 x2 x3) (k0_pay7 kk) lanesF)

/-- The tile the body stores: the two LayerNorms and the feed-forward step over the attended tile. -/
def bodyOut (x0 : Vec F S1x256x256 .f32) (x2 : Vec F S256x256 .f32) (x3 : Vec F S1x256 .f32) (kk vv : Vec F S2048x256 .f32)
    (x8 : Vec F S256x256 .f32) (x9 x10 x11 x12 x13 : Vec F S1x256 .f32) : FVec F S1x256x256 .f32 :=
  k0_pay1 (k0_pay18 (attF x0 x2 x3 kk vv) (attSumF x0 x2 x3 kk vv) k0_pay17 x10 x11 x8 x9)
    (k0_pay19 (attF x0 x2 x3 kk vv) (attSumF x0 x2 x3 kk vv) k0_pay17 x10 x11 x8 x9)
    (k0_pay20 (attF x0 x2 x3 kk vv) (attSumF x0 x2 x3 kk vv) k0_pay17 x10 x11 x8 x9)
    (FloatOps.ofBits .f32 0x43800000#32) x12 x13

/-- AT THE OTHER SEVEN TILES of a batch the body leaves the tile of its query block and the kept keys and values. -/
theorem tile_later (c : Dev nD) (i : grid0.Coords) (arg2 : Memref sig .tc .vmem S1x256x256 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256x256 .f32) (harg16 : arg16.IsWhole) (arg17 : Memref sig .tc .vmem S2048x256 .f32) (harg17 : arg17.IsWhole) (arg18 : Memref sig .tc .vmem S2048x256 .f32) (harg18 : arg18.IsWhole) (hc0 : ¬cond0_0 i) (x0 : Vec F S1x256x256 .f32) (x1 : Vec F S1x2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1x256 .f32) (x11 : Vec F S1x256 .f32) (x12 : Vec F S1x256 .f32) (x13 : Vec F S1x256 .f32) (xs0 xs1 : Vec F S2048x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 xs1 = bodyOut x0 x2 x3 xs0 xs1 x8 x9 x10 x11 x12 x13 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 xs1)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread,
    View.ld_unit_zero (S := S1x256x256) hz3, View.ld_unit_zero (S := S1x2048x256) hz3, View.ld_unit_zero (S := S256x256) hz2, View.ld_unit_zero (S := S1x256) hz2, View.ld_unit_zero (S := S2048x256) hz2]
  rfl

/-- AT THE FIRST TILE of a batch the body keeps the key projection of the batch's K block … -/
theorem keys_first (c : Dev nD) (i : grid0.Coords) (arg2 : Memref sig .tc .vmem S1x256x256 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256x256 .f32) (harg16 : arg16.IsWhole) (arg17 : Memref sig .tc .vmem S2048x256 .f32) (harg17 : arg17.IsWhole) (arg18 : Memref sig .tc .vmem S2048x256 .f32) (harg18 : arg18.IsWhole) (hc0 : cond0_0 i) (x0 : Vec F S1x256x256 .f32) (x1 : Vec F S1x2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1x256 .f32) (x11 : Vec F S1x256 .f32) (x12 : Vec F S1x256 .f32) (x13 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = k0_pay3 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13)]
  unfold kernelRun0_A
  dsimp only
  sl_unfold_run_names
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x256x256) hz3, View.ld_unit_zero (S := S1x2048x256) hz3, View.ld_unit_zero (S := S256x256) hz2, View.ld_unit_zero (S := S1x256) hz2, View.ld_unit_zero (S := S2048x256) hz2]

/-- … and its value projection … -/
theorem values_first (c : Dev nD) (i : grid0.Coords) (arg2 : Memref sig .tc .vmem S1x256x256 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256x256 .f32) (harg16 : arg16.IsWhole) (arg17 : Memref sig .tc .vmem S2048x256 .f32) (harg17 : arg17.IsWhole) (arg18 : Memref sig .tc .vmem S2048x256 .f32) (harg18 : arg18.IsWhole) (hc0 : cond0_0 i) (x0 : Vec F S1x256x256 .f32) (x1 : Vec F S1x2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1x256 .f32) (x11 : Vec F S1x256 .f32) (x12 : Vec F S1x256 .f32) (x13 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = k0_pay4 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13)]
  unfold kernelRun0_A
  dsimp only
  sl_unfold_run_names
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x256x256) hz3, View.ld_unit_zero (S := S1x2048x256) hz3, View.ld_unit_zero (S := S256x256) hz2, View.ld_unit_zero (S := S1x256) hz2, View.ld_unit_zero (S := S2048x256) hz2]

/-- … and leaves the tile of its query block and those two projections, which it reads back whole. -/
theorem tile_first (c : Dev nD) (i : grid0.Coords) (arg2 : Memref sig .tc .vmem S1x256x256 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256x256 .f32) (harg16 : arg16.IsWhole) (arg17 : Memref sig .tc .vmem S2048x256 .f32) (harg17 : arg17.IsWhole) (arg18 : Memref sig .tc .vmem S2048x256 .f32) (harg18 : arg18.IsWhole) (hc0 : cond0_0 i) (x0 : Vec F S1x256x256 .f32) (x1 : Vec F S1x2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1x256 .f32) (x11 : Vec F S1x256 .f32) (x12 : Vec F S1x256 .f32) (x13 : Vec F S1x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = bodyOut x0 x2 x3 (k0_pay3 x1 x4 x5) (k0_pay4 x1 x6 x7) x8 x9 x10 x11 x12 x13 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13)]
  unfold kernelRun0_A
  dsimp only
  sl_unfold_run_names
  rw [View.canon_unit_zero hz3]
  simp only [View.readCov_unit_zero (S := S2048x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x256x256) hz3, View.ld_unit_zero (S := S1x2048x256) hz3, View.ld_unit_zero (S := S256x256) hz2, View.ld_unit_zero (S := S1x256) hz2, View.ld_unit_zero (S := S2048x256) hz2]
  rfl

/-- ON THE EXTENDED REALS the stored tile is the tile function of the row-wise specification. -/
theorem bodyOut_eq_tileV (x0 : Vec Ideal S1x256x256 .f32) (x2 : Vec Ideal S256x256 .f32) (x3 : Vec Ideal S1x256 .f32) (kk vv : Vec Ideal S2048x256 .f32)
    (x8 : Vec Ideal S256x256 .f32) (x9 x10 x11 x12 x13 : Vec Ideal S1x256 .f32) :
    bodyOut (F := Ideal) x0 x2 x3 kk vv x8 x9 x10 x11 x12 x13 = Cert.Attn.Tile.tileV x0 x2 x3 kk vv x8 x9 x10 x11 x12 x13 := rfl

end Cert.Attn.Found

end
-- ==== Proof.KernelBlocks.lean ====
/-
  Where each window's block sits in its array.

  The grid has 32 points; point t works on batch t / 8 and on query tile t % 8 (rows 256·(t % 8) … 256·(t % 8) + 255).
  A block's coordinate on an axis is its block index there times the block's extent plus the coordinate inside the block.
-/
import proofs.«179801_j41077067219485_2_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Attn.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The batch a grid point works on. -/
def batchOf (t : Fin cfg0.N) : Fin 4 := ⟨t.val / 8, by have h : t.val < 32 := lt_of_lt_of_eq t.isLt N_0; omega⟩
/-- Row r of a grid point's query tile, as a row of the whole array. -/
def rowAt (t : Fin cfg0.N) (r : Fin 256) : Fin 2048 :=
  ⟨256 * (t.val % 8) + r.val, by have h : t.val < 32 := lt_of_lt_of_eq t.isLt N_0; have hr := r.isLt; omega⟩

/-! ### The block indices, decided once over the 32 grid points -/

/-- The query window's block index: (t / 8, t % 8, 0). -/
theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
/-- The key window's block index: (t / 8, 0, 0). -/
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
/-- The output window's block index: (t / 8, t % 8, 0). -/
theorem idx14 : ∀ t : Fin cfg0.N, win0_14.index t (0 : Fin 3) = t.val / 8 ∧ win0_14.index t (1 : Fin 3) = t.val % 8
    ∧ win0_14.index t (2 : Fin 3) = 0 :=
  (by decide +kernel : ∀ t : Fin grid0.N, _)
/-- Window 2 is whole: its block index is (0, 0) at every point. -/
theorem idx2 : ∀ t : Fin cfg0.N, win0_2.index t (0 : Fin 2) = 0 ∧ win0_2.index t (1 : Fin 2) = 0 :=
  (by decide +kernel : ∀ t : Fin grid0.N, _)
/-- Window 3 is whole: its block index is (0, 0) at every point. -/
theorem idx3 : ∀ t : Fin cfg0.N, win0_3.index t (0 : Fin 2) = 0 ∧ win0_3.index t (1 : Fin 2) = 0 :=
  (by decide +kernel : ∀ t : Fin grid0.N, _)
/-- Window 4 is whole: its block index is (0, 0) at every point. -/
theorem idx4 : ∀ t : Fin cfg0.N, win0_4.index t (0 : Fin 2) = 0 ∧ win0_4.index t (1 : Fin 2) = 0 :=
  (by decide +kernel : ∀ t : Fin grid0.N, _)
/-- Window 5 is whole: its block index is (0, 0) at every point. -/
theorem idx5 : ∀ t : Fin cfg0.N, win0_5.index t (0 : Fin 2) = 0 ∧ win0_5.index t (1 : Fin 2) = 0 :=
  (by decide +kernel : ∀ t : Fin grid0.N, _)
/-- Window 6 is whole: its block index is (0, 0) at every point. -/
theorem idx6 : ∀ t : Fin cfg0.N, win0_6.index t (0 : Fin 2) = 0 ∧ win0_6.index t (1 : Fin 2) = 0 :=
  (by decide +kernel : ∀ t : Fin grid0.N, _)
/-- Window 7 is whole: its block index is (0, 0) at every point. -/
theorem idx7 : ∀ t : Fin cfg0.N, win0_7.index t (0 : Fin 2) = 0 ∧ win0_7.index t (1 : Fin 2) = 0 :=
  (by decide +kernel : ∀ t : Fin grid0.N, _)
/-- Window 8 is whole: its block index is (0, 0) at every point. -/
theorem idx8 : ∀ t : Fin cfg0.N, win0_8.index t (0 : Fin 2) = 0 ∧ win0_8.index t (1 : Fin 2) = 0 :=
  (by decide +kernel : ∀ t : Fin grid0.N, _)
/-- Window 9 is whole: its block index is (0, 0) at every point. -/
theorem idx9 : ∀ t : Fin cfg0.N, win0_9.index t (0 : Fin 2) = 0 ∧ win0_9.index t (1 : Fin 2) = 0 :=
  (by decide +kernel : ∀ t : Fin grid0.N, _)
/-- Window 10 is whole: its block index is (0, 0) at every point. -/
theorem idx10 : ∀ t : Fin cfg0.N, win0_10.index t (0 : Fin 2) = 0 ∧ win0_10.index t (1 : Fin 2) = 0 :=
  (by decide +kernel : ∀ t : Fin grid0.N, _)
/-- Window 11 is whole: its block index is (0, 0) at every point. -/
theorem idx11 : ∀ t : Fin cfg0.N, win0_11.index t (0 : Fin 2) = 0 ∧ win0_11.index t (1 : Fin 2) = 0 :=
  (by decide +kernel : ∀ t : Fin grid0.N, _)
/-- Window 12 is whole: its block index is (0, 0) at every point. -/
theorem idx12 : ∀ t : Fin cfg0.N, win0_12.index t (0 : Fin 2) = 0 ∧ win0_12.index t (1 : Fin 2) = 0 :=
  (by decide +kernel : ∀ t : Fin grid0.N, _)
/-- Window 13 is whole: its block index is (0, 0) at every point. -/
theorem idx13 : ∀ t : Fin cfg0.N, win0_13.index t (0 : Fin 2) = 0 ∧ win0_13.index t (1 : Fin 2) = 0 :=
  (by decide +kernel : ∀ t : Fin grid0.N, _)

/-! ### The two tiled inputs -/

/-- The query window's block at point t: rows 256·(t % 8) … of batch t / 8 of Q. -/
theorem blkQ (c : Dev nD) (t : Fin cfg0.N) (r d : Fin 256) :
    iblk m c 0 t (ix3 (0 : Fin 1) r d) = m ((c : Thread nD τ).loc main_arg0) (ix3 (batchOf t) (rowAt t r) d) := by
  obtain ⟨e0, e1, e2⟩ := idx0 t
  unfold iblk
  rw [View.read_apply]
  show V m c main_arg0 _ = _
  rw [V_main_arg0]
  congr 1
  funext a
  apply Fin.ext
  match a with
  | ⟨0, _⟩ => show win0_0.index t (0 : Fin 3) * 1 + 1 * (0 : Fin 1).val = t.val / 8; rw [e0]; simp
  | ⟨1, _⟩ => show win0_0.index t (1 : Fin 3) * 256 + 1 * r.val = 256 * (t.val % 8) + r.val; rw [e1]; omega
  | ⟨2, _⟩ => show win0_0.index t (2 : Fin 3) * 256 + 1 * d.val = d.val; rw [e2]; omega

/-- The key window's block at point t: all 2048 rows of batch t / 8 of K. -/
theorem blkK (c : Dev nD) (t : Fin cfg0.N) (j : Fin 2048) (d : Fin 256) :
    iblk m c 1 t (ix3 (0 : Fin 1) j d) = m ((c : Thread nD τ).loc main_arg1) (ix3 (batchOf t) j d) := by
  obtain ⟨e0, e1, e2⟩ := idx1 t
  unfold iblk
  rw [View.read_apply]
  show V m c main_arg1 _ = _
  rw [V_main_arg1]
  congr 1
  funext a
  apply Fin.ext
  match a with
  | ⟨0, _⟩ => show win0_1.index t (0 : Fin 3) * 1 + 1 * (0 : Fin 1).val = t.val / 8; rw [e0]; simp
  | ⟨1, _⟩ => show win0_1.index t (1 : Fin 3) * 2048 + 1 * j.val = j.val; rw [e1]; omega
  | ⟨2, _⟩ => show win0_1.index t (2 : Fin 3) * 256 + 1 * d.val = d.val; rw [e2]; omega

/-! ### The weight matrices, whole -/

/-- Window 2's block is the whole weight matrix. -/
theorem blkW2 (c : Dev nD) (t : Fin cfg0.N) (e d : Fin 256) :
    iblk m c 2 t (ix2 e d) = m ((c : Thread nD τ).loc main_arg2) (ix2 e d) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t (0 : Fin 2) * 256 + 1 * e.val = e.val; rw [e0]; omega
  | ⟨1, _⟩ => show win0_2.index t (1 : Fin 2) * 256 + 1 * d.val = d.val; rw [e1]; omega

/-- Window 4's block is the whole weight matrix. -/
theorem blkW4 (c : Dev nD) (t : Fin cfg0.N) (e d : Fin 256) :
    iblk m c 4 t (ix2 e d) = m ((c : Thread nD τ).loc main_arg4) (ix2 e d) := by
  obtain ⟨e0, e1⟩ := idx4 t
  unfold iblk
  rw [View.read_apply]
  show V m c main_arg4 _ = _
  rw [V_main_arg4]
  congr 1
  funext a
  apply Fin.ext
  match a with
  | ⟨0, _⟩ => show win0_4.index t (0 : Fin 2) * 256 + 1 * e.val = e.val; rw [e0]; omega
  | ⟨1, _⟩ => show win0_4.index t (1 : Fin 2) * 256 + 1 * d.val = d.val; rw [e1]; omega

/-- Window 6's block is the whole weight matrix. -/
theorem blkW6 (c : Dev nD) (t : Fin cfg0.N) (e d : Fin 256) :
    iblk m c 6 t (ix2 e d) = m ((c : Thread nD τ).loc main_arg6) (ix2 e d) := by
  obtain ⟨e0, e1⟩ := idx6 t
  unfold iblk
  rw [View.read_apply]
  show V m c main_arg6 _ = _
  rw [V_main_arg6]
  congr 1
  funext a
  apply Fin.ext
  match a with
  | ⟨0, _⟩ => show win0_6.index t (0 : Fin 2) * 256 + 1 * e.val = e.val; rw [e0]; omega
  | ⟨1, _⟩ => show win0_6.index t (1 : Fin 2) * 256 + 1 * d.val = d.val; rw [e1]; omega

/-- Window 8's block is the whole weight matrix. -/
theorem blkW8 (c : Dev nD) (t : Fin cfg0.N) (e d : Fin 256) :
    iblk m c 8 t (ix2 e d) = m ((c : Thread nD τ).loc main_arg8) (ix2 e d) := by
  obtain ⟨e0, e1⟩ := idx8 t
  unfold iblk
  rw [View.read_apply]
  show V m c main_arg8 _ = _
  rw [V_main_arg8]
  congr 1
  funext a
  apply Fin.ext
  match a with
  | ⟨0, _⟩ => show win0_8.index t (0 : Fin 2) * 256 + 1 * e.val = e.val; rw [e0]; omega
  | ⟨1, _⟩ => show win0_8.index t (1 : Fin 2) * 256 + 1 * d.val = d.val; rw [e1]; omega

/-! ### The vectors: each a [256] argument reshaped to one row [1, 256] before the region -/

/-- The array window 3 reads is argument 3 as one row. -/
theorem V_main_v0 (c : Dev nD) :
    (V m c main_v0 : S1x256.Idx → EReal) = shapeCast S1x256 (m ((c : Thread nD τ).loc main_arg3)) shapeCasts_S256_S1x256 := by
  dsimp only [Gen.V, Gen.hostOps0]; after_results; rfl

/-- Window 3's block is the whole vector, as one row. -/
theorem blkV3 (c : Dev nD) (t : Fin cfg0.N) (e : Fin 256) :
    iblk m c 3 t (ix2 (0 : Fin 1) e) = m ((c : Thread nD τ).loc main_arg3) (ix1 e) := by
  obtain ⟨e0, e1⟩ := idx3 t
  have he : ((cfg0.win 3).blk t).view.emb (ix2 (0 : Fin 1) e) = ix2 (0 : Fin 1) e := by
    funext a
    apply Fin.ext
    match a with
    | ⟨0, _⟩ => show win0_3.index t (0 : Fin 2) * 1 + 1 * (0 : Fin 1).val = (0 : Fin 1).val; rw [e0]; simp
    | ⟨1, _⟩ => show win0_3.index t (1 : Fin 2) * 256 + 1 * e.val = e.val; rw [e1]; omega
  unfold iblk
  rw [View.read_apply]
  show V m c main_v0 _ = _
  rw [he, V_main_v0, shapeCast_a_1a_apply]

/-- The array window 5 reads is argument 5 as one row. -/
theorem V_main_v1 (c : Dev nD) :
    (V m c main_v1 : S1x256.Idx → EReal) = shapeCast S1x256 (m ((c : Thread nD τ).loc main_arg5)) shapeCasts_S256_S1x256 := by
  dsimp only [Gen.V, Gen.hostOps0]; after_results; rfl

/-- Window 5's block is the whole vector, as one row. -/
theorem blkV5 (c : Dev nD) (t : Fin cfg0.N) (e : Fin 256) :
    iblk m c 5 t (ix2 (0 : Fin 1) e) = m ((c : Thread nD τ).loc main_arg5) (ix1 e) := by
  obtain ⟨e0, e1⟩ := idx5 t
  have he : ((cfg0.win 5).blk t).view.emb (ix2 (0 : Fin 1) e) = ix2 (0 : Fin 1) e := by
    funext a
    apply Fin.ext
    match a with
    | ⟨0, _⟩ => show win0_5.index t (0 : Fin 2) * 1 + 1 * (0 : Fin 1).val = (0 : Fin 1).val; rw [e0]; simp
    | ⟨1, _⟩ => show win0_5.index t (1 : Fin 2) * 256 + 1 * e.val = e.val; rw [e1]; omega
  unfold iblk
  rw [View.read_apply]
  show V m c main_v1 _ = _
  rw [he, V_main_v1, shapeCast_a_1a_apply]

/-- The array window 7 reads is argument 7 as one row. -/
theorem V_main_v2 (c : Dev nD) :
    (V m c main_v2 : S1x256.Idx → EReal) = shapeCast S1x256 (m ((c : Thread nD τ).loc main_arg7)) shapeCasts_S256_S1x256 := by
  dsimp only [Gen.V, Gen.hostOps0]; after_results; rfl

/-- Window 7's block is the whole vector, as one row. -/
theorem blkV7 (c : Dev nD) (t : Fin cfg0.N) (e : Fin 256) :
    iblk m c 7 t (ix2 (0 : Fin 1) e) = m ((c : Thread nD τ).loc main_arg7) (ix1 e) := by
  obtain ⟨e0, e1⟩ := idx7 t
  have he : ((cfg0.win 7).blk t).view.emb (ix2 (0 : Fin 1) e) = ix2 (0 : Fin 1) e := by
    funext a
    apply Fin.ext
    match a with
    | ⟨0, _⟩ => show win0_7.index t (0 : Fin 2) * 1 + 1 * (0 : Fin 1).val = (0 : Fin 1).val; rw [e0]; simp
    | ⟨1, _⟩ => show win0_7.index t (1 : Fin 2) * 256 + 1 * e.val = e.val; rw [e1]; omega
  unfold iblk
  rw [View.read_apply]
  show V m c main_v2 _ = _
  rw [he, V_main_v2, shapeCast_a_1a_apply]

/-- The array window 9 reads is argument 9 as one row. -/
theorem V_main_v3 (c : Dev nD) :
    (V m c main_v3 : S1x256.Idx → EReal) = shapeCast S1x256 (m ((c : Thread nD τ).loc main_arg9)) shapeCasts_S256_S1x256 := by
  dsimp only [Gen.V, Gen.hostOps0]; after_results; rfl

/-- Window 9's block is the whole vector, as one row. -/
theorem blkV9 (c : Dev nD) (t : Fin cfg0.N) (e : Fin 256) :
    iblk m c 9 t (ix2 (0 : Fin 1) e) = m ((c : Thread nD τ).loc main_arg9) (ix1 e) := by
  obtain ⟨e0, e1⟩ := idx9 t
  have he : ((cfg0.win 9).blk t).view.emb (ix2 (0 : Fin 1) e) = ix2 (0 : Fin 1) e := by
    funext a
    apply Fin.ext
    match a with
    | ⟨0, _⟩ => show win0_9.index t (0 : Fin 2) * 1 + 1 * (0 : Fin 1).val = (0 : Fin 1).val; rw [e0]; simp
    | ⟨1, _⟩ => show win0_9.index t (1 : Fin 2) * 256 + 1 * e.val = e.val; rw [e1]; omega
  unfold iblk
  rw [View.read_apply]
  show V m c main_v3 _ = _
  rw [he, V_main_v3, shapeCast_a_1a_apply]

/-- The array window 10 reads is argument 10 as one row. -/
theorem V_main_v4 (c : Dev nD) :
    (V m c main_v4 : S1x256.Idx → EReal) = shapeCast S1x256 (m ((c : Thread nD τ).loc main_arg10)) shapeCasts_S256_S1x256 := by
  dsimp only [Gen.V, Gen.hostOps0]; after_results; rfl

/-- Window 10's block is the whole vector, as one row. -/
theorem blkV10 (c : Dev nD) (t : Fin cfg0.N) (e : Fin 256) :
    iblk m c 10 t (ix2 (0 : Fin 1) e) = m ((c : Thread nD τ).loc main_arg10) (ix1 e) := by
  obtain ⟨e0, e1⟩ := idx10 t
  have he : ((cfg0.win 10).blk t).view.emb (ix2 (0 : Fin 1) e) = ix2 (0 : Fin 1) e := by
    funext a
    apply Fin.ext
    match a with
    | ⟨0, _⟩ => show win0_10.index t (0 : Fin 2) * 1 + 1 * (0 : Fin 1).val = (0 : Fin 1).val; rw [e0]; simp
    | ⟨1, _⟩ => show win0_10.index t (1 : Fin 2) * 256 + 1 * e.val = e.val; rw [e1]; omega
  unfold iblk
  rw [View.read_apply]
  show V m c main_v4 _ = _
  rw [he, V_main_v4, shapeCast_a_1a_apply]

/-- The array window 11 reads is argument 11 as one row. -/
theorem V_main_v5 (c : Dev nD) :
    (V m c main_v5 : S1x256.Idx → EReal) = shapeCast S1x256 (m ((c : Thread nD τ).loc main_arg11)) shapeCasts_S256_S1x256 := by
  dsimp only [Gen.V, Gen.hostOps0]; after_results; rfl

/-- Window 11's block is the whole vector, as one row. -/
theorem blkV11 (c : Dev nD) (t : Fin cfg0.N) (e : Fin 256) :
    iblk m c 11 t (ix2 (0 : Fin 1) e) = m ((c : Thread nD τ).loc main_arg11) (ix1 e) := by
  obtain ⟨e0, e1⟩ := idx11 t
  have he : ((cfg0.win 11).blk t).view.emb (ix2 (0 : Fin 1) e) = ix2 (0 : Fin 1) e := by
    funext a
    apply Fin.ext
    match a with
    | ⟨0, _⟩ => show win0_11.index t (0 : Fin 2) * 1 + 1 * (0 : Fin 1).val = (0 : Fin 1).val; rw [e0]; simp
    | ⟨1, _⟩ => show win0_11.index t (1 : Fin 2) * 256 + 1 * e.val = e.val; rw [e1]; omega
  unfold iblk
  rw [View.read_apply]
  show V m c main_v5 _ = _
  rw [he, V_main_v5, shapeCast_a_1a_apply]

/-- The array window 12 reads is argument 12 as one row. -/
theorem V_main_v6 (c : Dev nD) :
    (V m c main_v6 : S1x256.Idx → EReal) = shapeCast S1x256 (m ((c : Thread nD τ).loc main_arg12)) shapeCasts_S256_S1x256 := by
  dsimp only [Gen.V, Gen.hostOps0]; after_results; rfl

/-- Window 12's block is the whole vector, as one row. -/
theorem blkV12 (c : Dev nD) (t : Fin cfg0.N) (e : Fin 256) :
    iblk m c 12 t (ix2 (0 : Fin 1) e) = m ((c : Thread nD τ).loc main_arg12) (ix1 e) := by
  obtain ⟨e0, e1⟩ := idx12 t
  have he : ((cfg0.win 12).blk t).view.emb (ix2 (0 : Fin 1) e) = ix2 (0 : Fin 1) e := by
    funext a
    apply Fin.ext
    match a with
    | ⟨0, _⟩ => show win0_12.index t (0 : Fin 2) * 1 + 1 * (0 : Fin 1).val = (0 : Fin 1).val; rw [e0]; simp
    | ⟨1, _⟩ => show win0_12.index t (1 : Fin 2) * 256 + 1 * e.val = e.val; rw [e1]; omega
  unfold iblk
  rw [View.read_apply]
  show V m c main_v6 _ = _
  rw [he, V_main_v6, shapeCast_a_1a_apply]

/-- The array window 13 reads is argument 13 as one row. -/
theorem V_main_v7 (c : Dev nD) :
    (V m c main_v7 : S1x256.Idx → EReal) = shapeCast S1x256 (m ((c : Thread nD τ).loc main_arg13)) shapeCasts_S256_S1x256 := by
  dsimp only [Gen.V, Gen.hostOps0]; after_results; rfl

/-- Window 13's block is the whole vector, as one row. -/
theorem blkV13 (c : Dev nD) (t : Fin cfg0.N) (e : Fin 256) :
    iblk m c 13 t (ix2 (0 : Fin 1) e) = m ((c : Thread nD τ).loc main_arg13) (ix1 e) := by
  obtain ⟨e0, e1⟩ := idx13 t
  have he : ((cfg0.win 13).blk t).view.emb (ix2 (0 : Fin 1) e) = ix2 (0 : Fin 1) e := by
    funext a
    apply Fin.ext
    match a with
    | ⟨0, _⟩ => show win0_13.index t (0 : Fin 2) * 1 + 1 * (0 : Fin 1).val = (0 : Fin 1).val; rw [e0]; simp
    | ⟨1, _⟩ => show win0_13.index t (1 : Fin 2) * 256 + 1 * e.val = e.val; rw [e1]; omega
  unfold iblk
  rw [View.read_apply]
  show V m c main_v7 _ = _
  rw [he, V_main_v7, shapeCast_a_1a_apply]

/-! ### The output window -/

/-- The output window's block at point t sits at rows 256·(t % 8) … of batch t / 8. -/
theorem embOut (t : Fin cfg0.N) (u : Fin 1) (r e : Fin 256) :
    ((cfg0.win 14).blk t).view.emb (ix3 u r e) = ix3 (batchOf t) (rowAt t r) e := by
  obtain ⟨e0, e1, e2⟩ := idx14 t
  have hu : u.val = 0 := by omega
  funext a
  apply Fin.ext
  match a with
  | ⟨0, _⟩ => show win0_14.index t (0 : Fin 3) * 1 + 1 * u.val = t.val / 8; rw [e0, hu]; simp
  | ⟨1, _⟩ => show win0_14.index t (1 : Fin 3) * 256 + 1 * r.val = 256 * (t.val % 8) + r.val; rw [e1]; omega
  | ⟨2, _⟩ => show win0_14.index t (2 : Fin 3) * 256 + 1 * e.val = e.val; rw [e2]; omega

/-- An index of the output array is in point t's block iff each coordinate is in the block's range on its axis. -/
theorem mem_blk14 (t : Fin cfg0.N) (i : S4x2048x256.Idx) :
    i ∈ ((cfg0.win 14).blk t).view.set ↔ ∀ a : Fin 3, win0_14.index t a * S1x256x256.size a ≤ (i a).val
      ∧ (i a).val < win0_14.index t a * S1x256x256.size a + S1x256x256.size a := by
  show i ∈ ((View.whole main_v8).slice (win0_14.rect t)).set ↔ _
  rw [View.set_slice_whole, Rect.mem_set_unit]
  exact Iff.rfl

/-- Every index of the output array lies in the block of some point that writes back: point 8·b + n / 256. -/
theorem cover (i : S4x2048x256.Idx) :
    ∃ t : Fin cfg0.N, (cfg0.win 14).flush t = true ∧ i ∈ ((cfg0.win 14).blk t).view.set := by
  have h0 : (i 0).val < 4 := (i 0).isLt
  have h1 : (i 1).val < 2048 := (i 1).isLt
  have h2 : (i 2).val < 256 := (i 2).isLt
  have hN : 8 * (i 0).val + (i 1).val / 256 < cfg0.N := lt_of_lt_of_eq (by omega) N_0.symm
  obtain ⟨e0, e1, e2⟩ := idx14 ⟨8 * (i 0).val + (i 1).val / 256, hN⟩
  refine ⟨⟨8 * (i 0).val + (i 1).val / 256, hN⟩, flush0_14 _, ?_⟩
  rw [mem_blk14]
  intro a
  match a with
  | ⟨0, _⟩ =>
    show win0_14.index _ (0 : Fin 3) * 1 ≤ (i 0).val ∧ (i 0).val < win0_14.index _ (0 : Fin 3) * 1 + 1
    rw [e0]; show (8 * (i 0).val + (i 1).val / 256) / 8 * 1 ≤ (i 0).val ∧ (i 0).val < (8 * (i 0).val + (i 1).val / 256) / 8 * 1 + 1; omega
  | ⟨1, _⟩ =>
    show win0_14.index _ (1 : Fin 3) * 256 ≤ (i 1).val ∧ (i 1).val < win0_14.index _ (1 : Fin 3) * 256 + 256
    rw [e1]; show (8 * (i 0).val + (i 1).val / 256) % 8 * 256 ≤ (i 1).val ∧ (i 1).val < (8 * (i 0).val + (i 1).val / 256) % 8 * 256 + 256; omega
  | ⟨2, _⟩ =>
    show win0_14.index _ (2 : Fin 3) * 256 ≤ (i 2).val ∧ (i 2).val < win0_14.index _ (2 : Fin 3) * 256 + 256
    rw [e2]; omega

end Cert.Attn.Blocks

end
-- ==== Proof.KernelValue.lean ====
/-
  From the tiles to the whole array.

  The grid has 32 points, t = 8·b + q: batch b, query tile q.  The point's query block is rows 256q … 256q+255 of Q's
  batch b; its K block is all of K's batch b; the weights are whole.  At q = 0 the body keeps the key and value
  projections of K's batch b, and they are still there at q = 1 … 7: by induction over the points, what is kept after
  point t is the projection of batch t / 8.  So EVERY point leaves the tile function of its query block, the projected
  keys and values of its batch, and the weights — which, row by row, is the specification's result on rows
  256q … 256q+255 of batch b.  The 32 output blocks tile the [4, 2048, 256] array, so the array ends holding the
  specification's result.
-/
import proofs.«179801_j41077067219485_2_alg».proof.Proof.TileFound
import proofs.«179801_j41077067219485_2_alg».proof.Proof.KernelBlocks
import proofs.«179801_j41077067219485_2_alg».proof.Proof.Gen.KernelIdeal.Value

set_option maxRecDepth 16384

noncomputable section

namespace Cert.Attn.KVal

open Cert.KernelIdeal Cert.KernelIdeal.Gen Cert.Attn Cert.Attn.Tile Cert.Attn.Found Cert.Attn.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result over the arguments' launch contents. -/
def res (c : Dev nD) : S4x2048x256.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The projected keys of batch b, as the [2048, 256] array the body keeps. -/
def keysArr (c : Dev nD) (b : Fin 4) : Vec Ideal S2048x256 .f32 :=
  fun i => projRows (m ((c : Thread nD τ).loc main_arg1)) (m ((c : Thread nD τ).loc main_arg4)) (m ((c : Thread nD τ).loc main_arg5)) b (i 0) (i 1)

/-- The projected values of batch b. -/
def valsArr (c : Dev nD) (b : Fin 4) : Vec Ideal S2048x256 .f32 :=
  fun i => projRows (m ((c : Thread nD τ).loc main_arg1)) (m ((c : Thread nD τ).loc main_arg6)) (m ((c : Thread nD τ).loc main_arg7)) b (i 0) (i 1)

/-! ### The blocks as rows of the arrays -/

theorem rowQ (c : Dev nD) (t : Fin cfg0.N) (r : Fin 256) : rowOf3 (iblk m c 0 t) r = row3 (m ((c : Thread nD τ).loc main_arg0)) (batchOf t) (rowAt t r) :=
  funext fun d => blkQ m c t r d
theorem rowK (c : Dev nD) (t : Fin cfg0.N) (j : Fin 2048) : rowOfK (iblk m c 1 t) j = row3 (m ((c : Thread nD τ).loc main_arg1)) (batchOf t) j :=
  funext fun d => blkK m c t j d
theorem matW2 (c : Dev nD) (t : Fin cfg0.N) : matOf (iblk m c 2 t) = mat (m ((c : Thread nD τ).loc main_arg2)) := funext fun e => funext fun d => blkW2 m c t e d
theorem matW4 (c : Dev nD) (t : Fin cfg0.N) : matOf (iblk m c 4 t) = mat (m ((c : Thread nD τ).loc main_arg4)) := funext fun e => funext fun d => blkW4 m c t e d
theorem matW6 (c : Dev nD) (t : Fin cfg0.N) : matOf (iblk m c 6 t) = mat (m ((c : Thread nD τ).loc main_arg6)) := funext fun e => funext fun d => blkW6 m c t e d
theorem matW8 (c : Dev nD) (t : Fin cfg0.N) : matOf (iblk m c 8 t) = mat (m ((c : Thread nD τ).loc main_arg8)) := funext fun e => funext fun d => blkW8 m c t e d
theorem vecV3 (c : Dev nD) (t : Fin cfg0.N) : rowVec (iblk m c 3 t) = vec (m ((c : Thread nD τ).loc main_arg3)) := funext fun e => blkV3 m c t e
theorem vecV5 (c : Dev nD) (t : Fin cfg0.N) : rowVec (iblk m c 5 t) = vec (m ((c : Thread nD τ).loc main_arg5)) := funext fun e => blkV5 m c t e
theorem vecV7 (c : Dev nD) (t : Fin cfg0.N) : rowVec (iblk m c 7 t) = vec (m ((c : Thread nD τ).loc main_arg7)) := funext fun e => blkV7 m c t e
theorem vecV9 (c : Dev nD) (t : Fin cfg0.N) : rowVec (iblk m c 9 t) = vec (m ((c : Thread nD τ).loc main_arg9)) := funext fun e => blkV9 m c t e
theorem vecV10 (c : Dev nD) (t : Fin cfg0.N) : rowVec (iblk m c 10 t) = vec (m ((c : Thread nD τ).loc main_arg10)) := funext fun e => blkV10 m c t e
theorem vecV11 (c : Dev nD) (t : Fin cfg0.N) : rowVec (iblk m c 11 t) = vec (m ((c : Thread nD τ).loc main_arg11)) := funext fun e => blkV11 m c t e
theorem vecV12 (c : Dev nD) (t : Fin cfg0.N) : rowVec (iblk m c 12 t) = vec (m ((c : Thread nD τ).loc main_arg12)) := funext fun e => blkV12 m c t e
theorem vecV13 (c : Dev nD) (t : Fin cfg0.N) : rowVec (iblk m c 13 t) = vec (m ((c : Thread nD τ).loc main_arg13)) := funext fun e => blkV13 m c t e

/-! ### What is kept across a batch -/

set_option maxHeartbeats 4000000 in
/-- The key projection of point t's K block is the projected keys of t's batch. -/
theorem keys_of_block (c : Dev nD) (t : Fin cfg0.N) :
    k0_pay3 (F := Ideal) (iblk m c 1 t) (iblk m c 4 t) (iblk m c 5 t) = keysArr m c (batchOf t) := by
  funext i
  obtain ⟨j, e, rfl⟩ : ∃ (j : Fin 2048) (e : Fin 256), i = ix2 j e := ⟨i 0, i 1, eq_ix2 i⟩
  refine (pay3_apply (iblk m c 1 t) (iblk m c 4 t) (iblk m c 5 t) j e).trans ?_
  rw [rowK, matW4, vecV5]
  rfl

set_option maxHeartbeats 4000000 in
theorem vals_of_block (c : Dev nD) (t : Fin cfg0.N) :
    k0_pay4 (F := Ideal) (iblk m c 1 t) (iblk m c 6 t) (iblk m c 7 t) = valsArr m c (batchOf t) := by
  funext i
  obtain ⟨j, e, rfl⟩ : ∃ (j : Fin 2048) (e : Fin 256), i = ix2 j e := ⟨i 0, i 1, eq_ix2 i⟩
  refine (pay4_apply (iblk m c 1 t) (iblk m c 6 t) (iblk m c 7 t) j e).trans ?_
  rw [rowK, matW6, vecV7]
  rfl

theorem batchOf_pred (t : Fin cfg0.N) (h0 : ¬t.val % 8 = 0) (h : t.val - 1 < cfg0.N) : batchOf ⟨t.val - 1, h⟩ = batchOf t :=
  Fin.ext (by show (t.val - 1) / 8 = t.val / 8; omega)

set_option maxHeartbeats 4000000 in
/-- AFTER EVERY POINT the kept arrays are the projected keys and values of the point's batch: computed at the batch's
    first tile, untouched at the other seven. -/
theorem kept_at : ∀ (n : ℕ) (hn : n < cfg0.N) (c : Dev nD),
    (outsAt0 m c n hn).2.1 = keysArr m c (batchOf ⟨n, hn⟩) ∧ (outsAt0 m c n hn).2.2 = valsArr m c (batchOf ⟨n, hn⟩) := by
  intro n
  induction n using Nat.strong_induction_on with
  | _ n ih =>
    intro hn c
    let t : Fin cfg0.N := ⟨n, hn⟩
    by_cases h0 : n % 8 = 0
    · have hA := outsAt0_A m c t h0
      rw [show outsAt0 m c n hn = outsAt0 m c t.val t.isLt from rfl, hA]
      dsimp only
      exact ⟨(keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).trans (keys_of_block m c t),
        (values_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).trans (vals_of_block m c t)⟩
    · have hB := outsAt0_B m c t h0
      have hlt : n - 1 < n := by omega
      have hp : t.val - 1 < cfg0.N := Nat.lt_of_le_of_lt (Nat.sub_le _ _) t.isLt
      have hprev := ih (n - 1) hlt hp c
      rw [show outsAt0 m c n hn = outsAt0 m c t.val t.isLt from rfl, hB]
      dsimp only [sout0_B_0, sout0_B_1]
      exact ⟨hprev.1.trans (congrArg (keysArr m c) (batchOf_pred t h0 hp)), hprev.2.trans (congrArg (valsArr m c) (batchOf_pred t h0 hp))⟩

/-! ### What every point leaves -/

set_option maxHeartbeats 4000000 in
/-- EVERY POINT leaves the tile function of its query block, its batch's projected keys and values, and the weights. -/
theorem tile_at (c : Dev nD) (t : Fin cfg0.N) :
    (outsAt0 m c t.val t.isLt).1
      = tileV (iblk m c 0 t) (iblk m c 2 t) (iblk m c 3 t) (keysArr m c (batchOf t)) (valsArr m c (batchOf t))
          (iblk m c 8 t) (iblk m c 9 t) (iblk m c 10 t) (iblk m c 11 t) (iblk m c 12 t) (iblk m c 13 t) := by
  by_cases h0 : t.val % 8 = 0
  · rw [outsAt0_A m c t h0]
    dsimp only
    refine (tile_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).trans ?_
    rw [keys_of_block m c t, vals_of_block m c t]
    exact bodyOut_eq_tileV (iblk m c 0 t) (iblk m c 2 t) (iblk m c 3 t) (keysArr m c (batchOf t)) (valsArr m c (batchOf t))
      (iblk m c 8 t) (iblk m c 9 t) (iblk m c 10 t) (iblk m c 11 t) (iblk m c 12 t) (iblk m c 13 t)
  · have hp : t.val - 1 < cfg0.N := Nat.lt_of_le_of_lt (Nat.sub_le _ _) t.isLt
    have hprev := kept_at m (t.val - 1) hp c
    rw [outsAt0_B m c t h0]
    dsimp only
    refine (tile_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      (outsAt0 m c (t.val - 1) hp).2.1 (outsAt0 m c (t.val - 1) hp).2.2).trans ?_
    rw [hprev.1, hprev.2, batchOf_pred t h0 hp]
    exact bodyOut_eq_tileV (iblk m c 0 t) (iblk m c 2 t) (iblk m c 3 t) (keysArr m c (batchOf t)) (valsArr m c (batchOf t))
      (iblk m c 8 t) (iblk m c 9 t) (iblk m c 10 t) (iblk m c 11 t) (iblk m c 12 t) (iblk m c 13 t)

set_option maxHeartbeats 4000000 in
/-- WHAT POINT t WRITES BACK is block t of the specification's result. -/
theorem flushed_eq (c : Dev nD) (t : Fin cfg0.N) :
    (dats m 0 c).flushed 14 t = ((cfg0.win 14).blk t).view.read (Elt Ideal) (res m c) := by
  rw [Cert.KernelIdeal.Value.flushed14, tile_at m c t]
  funext y
  obtain ⟨u, r, e, rfl⟩ : ∃ (u : Fin 1) (r e : Fin 256), y = ix3 u r e := ⟨y 0, y 1, y 2, eq_ix3 y⟩
  show tileV (iblk m c 0 t) (iblk m c 2 t) (iblk m c 3 t) (keysArr m c (batchOf t)) (valsArr m c (batchOf t))
      (iblk m c 8 t) (iblk m c 9 t) (iblk m c 10 t) (iblk m c 11 t) (iblk m c 12 t) (iblk m c 13 t) (ix3 u r e)
    = res m c (((cfg0.win 14).blk t).view.emb (ix3 u r e))
  rw [embOut]
  refine (tileV_apply (iblk m c 0 t) (iblk m c 2 t) (iblk m c 3 t) (keysArr m c (batchOf t)) (valsArr m c (batchOf t))
      (iblk m c 8 t) (iblk m c 9 t) (iblk m c 10 t) (iblk m c 11 t) (iblk m c 12 t) (iblk m c 13 t) u r e).trans ?_
  rw [rowQ, matW2, vecV3, matW8, vecV9, vecV10, vecV11, vecV12, vecV13]
  rfl

/-- THE OUTPUT ARRAY after the run is the specification's result: the 32 blocks tile it. -/
theorem final (c : Dev nD) : (dats m 0 c).arrAt 14 cfg0.N = res m c :=
  (dats m 0 c).arrAt_eq_of_cover 14 (res m c) (fun t _ => flushed_eq m c t) cover

/-- THE KERNEL'S RUN: every weakly fair execution terminates with the output at the specification's result and the
    arguments unchanged. -/
theorem run : θ_run defs (onTc (τ := τ) (main (F := Ideal))) ⟨m, fun _ => 0, ρ⟩ fun r => ∀ c : Dev nD,
      r.2.mem ((c : Thread nD τ).loc main_v8) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.Attn.KVal

end
-- ==== Proof.RefProj.lean ====
/-
  The reference's three linear maps and their split into heads, read in the specification's words.

  q = Q·Wqᵀ + bq, k = K·Wkᵀ + bk, v = K·Wvᵀ + bv are each a contraction over the 256 input columns plus a bias that is
  broadcast along the batch and row axes; element (b, n, e) is the row-level projection of row (b, n) at column e.
  Splitting into heads is a reshape [4,2048,256] → [4,2048,4,64] followed by the transposition of the two middle axes:
  element (b, h, n, d) of the head array is element (b, n, 64h + d) of the projection.
-/
import proofs.«179801_j41077067219485_2_alg».proof.Proof.RefRead
import proofs.«179801_j41077067219485_2_alg».proof.Proof.Spec

noncomputable section

namespace Cert.Attn.Ref

open Cert.ReferenceIdeal Cert.ReferenceIdeal.ReadP Idealize.ShloMosaic Idealize.ShloMosaic.ValueIdx Cert.Attn

/-- The three kinds of argument array. -/
abbrev Arr3 : Type := (⟨S4x2048x256, .f32⟩ : BufTy).Contents (Elt Ideal)
abbrev Arr2 : Type := (⟨S256x256, .f32⟩ : BufTy).Contents (Elt Ideal)
abbrev Arr1 : Type := (⟨S256, .f32⟩ : BufTy).Contents (Elt Ideal)

/-- The projected query row (b, n). -/
abbrev qRow (x0 : Arr3) (x2 : Arr2) (x3 : Arr1) (b : Fin 4) (n : Fin 2048) : Fin 256 → EReal :=
  proj (row3 x0 b n) (mat x2) (vec x3)

/-! ### Index equations of the contractions and the bias broadcasts -/

theorem lidx_v0 (b : Fin 4) (n : Fin 2048) (e k : Fin 256) : lidx_main_v0 (ix3 b n e) k = ix3 b n k := by
  funext a; match a with | ⟨0, _⟩ => rfl | ⟨1, _⟩ => rfl | ⟨2, _⟩ => rfl
theorem ridx_v0 (b : Fin 4) (n : Fin 2048) (e k : Fin 256) : ridx_main_v0 (ix3 b n e) k = ix2 e k := by
  funext a; match a with | ⟨0, _⟩ => rfl | ⟨1, _⟩ => rfl
theorem bidx_v2 (b : Fin 4) (n : Fin 2048) (e : Fin 256) : idx_main_v1 (idx_main_v2 (ix3 b n e)) = ix1 e := by
  funext a; match a with | ⟨0, _⟩ => rfl

theorem lidx_v4 (b : Fin 4) (n : Fin 2048) (e k : Fin 256) : lidx_main_v4 (ix3 b n e) k = ix3 b n k := by
  funext a; match a with | ⟨0, _⟩ => rfl | ⟨1, _⟩ => rfl | ⟨2, _⟩ => rfl
theorem ridx_v4 (b : Fin 4) (n : Fin 2048) (e k : Fin 256) : ridx_main_v4 (ix3 b n e) k = ix2 e k := by
  funext a; match a with | ⟨0, _⟩ => rfl | ⟨1, _⟩ => rfl
theorem bidx_v6 (b : Fin 4) (n : Fin 2048) (e : Fin 256) : idx_main_v5 (idx_main_v6 (ix3 b n e)) = ix1 e := by
  funext a; match a with | ⟨0, _⟩ => rfl

theorem lidx_v8 (b : Fin 4) (n : Fin 2048) (e k : Fin 256) : lidx_main_v8 (ix3 b n e) k = ix3 b n k := by
  funext a; match a with | ⟨0, _⟩ => rfl | ⟨1, _⟩ => rfl | ⟨2, _⟩ => rfl
theorem ridx_v8 (b : Fin 4) (n : Fin 2048) (e k : Fin 256) : ridx_main_v8 (ix3 b n e) k = ix2 e k := by
  funext a; match a with | ⟨0, _⟩ => rfl | ⟨1, _⟩ => rfl
theorem bidx_v10 (b : Fin 4) (n : Fin 2048) (e : Fin 256) : idx_main_v9 (idx_main_v10 (ix3 b n e)) = ix1 e := by
  funext a; match a with | ⟨0, _⟩ => rfl

/-! ### The three projections -/

/-- q: element (b, n, e) is the projection of Q's row (b, n) at column e. -/
theorem v3_eq (x0 : Arr3) (x2 : Arr2) (x3 : Arr1) (b : Fin 4) (n : Fin 2048) (e : Fin 256) :
    val_main_v3 (F := Ideal) x0 x2 x3 (ix3 b n e) = qRow x0 x2 x3 b n e := by
  rw [val_main_v3_apply, val_main_v0_apply, val_main_v2_apply, val_main_v1_apply]
  simp only [lidx_v0, ridx_v0, bidx_v2, Ideal.addf_def]
  rfl

/-- k: element (b, j, e) is the projection of K's row (b, j) at column e. -/
theorem v7_eq (x1 : Arr3) (x4 : Arr2) (x5 : Arr1) (b : Fin 4) (j : Fin 2048) (e : Fin 256) :
    val_main_v7 (F := Ideal) x1 x4 x5 (ix3 b j e) = projRows x1 x4 x5 b j e := by
  rw [val_main_v7_apply, val_main_v4_apply, val_main_v6_apply, val_main_v5_apply]
  simp only [lidx_v4, ridx_v4, bidx_v6, Ideal.addf_def]
  rfl

/-- v: element (b, j, e) is the projection of K's row (b, j) by the value weights at column e. -/
theorem v11_eq (x1 : Arr3) (x6 : Arr2) (x7 : Arr1) (b : Fin 4) (j : Fin 2048) (e : Fin 256) :
    val_main_v11 (F := Ideal) x1 x6 x7 (ix3 b j e) = projRows x1 x6 x7 b j e := by
  rw [val_main_v11_apply, val_main_v8_apply, val_main_v10_apply, val_main_v9_apply]
  simp only [lidx_v8, ridx_v8, bidx_v10, Ideal.addf_def]
  rfl

/-! ### The split into heads -/

/-- Transposing the two middle axes: (b, h, n, d) reads (b, n, h, d). -/
theorem tidx_v13 (b h : Fin 4) (n : Fin 2048) (d : Fin 64) : idx_main_v13 (ix4 b h n d) = ix4 b n h d := by
  funext a; match a with | ⟨0, _⟩ => rfl | ⟨1, _⟩ => rfl | ⟨2, _⟩ => rfl | ⟨3, _⟩ => rfl
theorem tidx_v15 (b h : Fin 4) (n : Fin 2048) (d : Fin 64) : idx_main_v15 (ix4 b h n d) = ix4 b n h d := by
  funext a; match a with | ⟨0, _⟩ => rfl | ⟨1, _⟩ => rfl | ⟨2, _⟩ => rfl | ⟨3, _⟩ => rfl
theorem tidx_v17 (b h : Fin 4) (n : Fin 2048) (d : Fin 64) : idx_main_v17 (ix4 b h n d) = ix4 b n h d := by
  funext a; match a with | ⟨0, _⟩ => rfl | ⟨1, _⟩ => rfl | ⟨2, _⟩ => rfl | ⟨3, _⟩ => rfl

/-- The reshape: (b, n, h, d) has flat position ((2048b + n)·4 + h)·64 + d, which is (b, n, 64h + d) in [4,2048,256]. -/
theorem ridx_v12 (b h : Fin 4) (n : Fin 2048) (d : Fin 64) : idx_main_v12 (ix4 b n h d) = ix3 b n (headCol h d) := by
  have hb := b.isLt; have hh := h.isLt; have hn := n.isLt; have hd := d.isLt
  funext a
  match a with
  | ⟨0, _⟩ => exact Fin.ext (by show (((b.val * 2048 + n.val) * 4 + h.val) * 64 + d.val) / 524288 = b.val; omega)
  | ⟨1, _⟩ => exact Fin.ext (by show (((b.val * 2048 + n.val) * 4 + h.val) * 64 + d.val) / 256 % 2048 = n.val; omega)
  | ⟨2, _⟩ => exact Fin.ext (by show (((b.val * 2048 + n.val) * 4 + h.val) * 64 + d.val) % 256 = h.val * 64 + d.val; omega)
theorem ridx_v14 (b h : Fin 4) (n : Fin 2048) (d : Fin 64) : idx_main_v14 (ix4 b n h d) = ix3 b n (headCol h d) := by
  have hb := b.isLt; have hh := h.isLt; have hn := n.isLt; have hd := d.isLt
  funext a
  match a with
  | ⟨0, _⟩ => exact Fin.ext (by show (((b.val * 2048 + n.val) * 4 + h.val) * 64 + d.val) / 524288 = b.val; omega)
  | ⟨1, _⟩ => exact Fin.ext (by show (((b.val * 2048 + n.val) * 4 + h.val) * 64 + d.val) / 256 % 2048 = n.val; omega)
  | ⟨2, _⟩ => exact Fin.ext (by show (((b.val * 2048 + n.val) * 4 + h.val) * 64 + d.val) % 256 = h.val * 64 + d.val; omega)
theorem ridx_v16 (b h : Fin 4) (n : Fin 2048) (d : Fin 64) : idx_main_v16 (ix4 b n h d) = ix3 b n (headCol h d) := by
  have hb := b.isLt; have hh := h.isLt; have hn := n.isLt; have hd := d.isLt
  funext a
  match a with
  | ⟨0, _⟩ => exact Fin.ext (by show (((b.val * 2048 + n.val) * 4 + h.val) * 64 + d.val) / 524288 = b.val; omega)
  | ⟨1, _⟩ => exact Fin.ext (by show (((b.val * 2048 + n.val) * 4 + h.val) * 64 + d.val) / 256 % 2048 = n.val; omega)
  | ⟨2, _⟩ => exact Fin.ext (by show (((b.val * 2048 + n.val) * 4 + h.val) * 64 + d.val) % 256 = h.val * 64 + d.val; omega)

/-- The query heads: element (b, h, n, d) is column 64h + d of the projected query row (b, n). -/
theorem v13_eq (x0 : Arr3) (x2 : Arr2) (x3 : Arr1) (b h : Fin 4) (n : Fin 2048) (d : Fin 64) :
    val_main_v13 (F := Ideal) x0 x2 x3 (ix4 b h n d) = qRow x0 x2 x3 b n (headCol h d) := by
  rw [val_main_v13_apply, tidx_v13, val_main_v12_apply, ridx_v12, v3_eq]

/-- The key heads. -/
theorem v15_eq (x1 : Arr3) (x4 : Arr2) (x5 : Arr1) (b h : Fin 4) (j : Fin 2048) (d : Fin 64) :
    val_main_v15 (F := Ideal) x1 x4 x5 (ix4 b h j d) = projRows x1 x4 x5 b j (headCol h d) := by
  rw [val_main_v15_apply, tidx_v15, val_main_v14_apply, ridx_v14, v7_eq]

/-- The value heads. -/
theorem v17_eq (x1 : Arr3) (x6 : Arr2) (x7 : Arr1) (b h : Fin 4) (j : Fin 2048) (d : Fin 64) :
    val_main_v17 (F := Ideal) x1 x6 x7 (ix4 b h j d) = projRows x1 x6 x7 b j (headCol h d) := by
  rw [val_main_v17_apply, tidx_v17, val_main_v16_apply, ridx_v16, v11_eq]

end Cert.Attn.Ref

end
-- ==== Proof.RefSoftmax.lean ====
/-
  The reference's scores and their softmax, read in the specification's words.

  The scores contract the 64 columns of one head of a query row with those of a key row and divide by 16. The softmax
  over the 2048 keys subtracts the row's maximum (the running maximum starts at −∞, and taking the maximum with −∞ once
  more changes nothing, because the fold is already at least its start value), exponentiates, and divides by the sum
  (which starts at the constant 0).
-/
import proofs.«179801_j41077067219485_2_alg».proof.Proof.RefProj

noncomputable section

namespace Cert.Attn.Ref

open Cert.ReferenceIdeal Cert.ReferenceIdeal.ReadP Idealize.ShloMosaic Idealize.ShloMosaic.ValueIdx Cert.Attn

open Cert.ReferenceIdeal.Gen

/-- The scores of query row (b, n) in head h against the keys of batch b. -/
abbrev sRow (x0 x1 : Arr3) (x2 : Arr2) (x3 : Arr1) (x4 : Arr2) (x5 : Arr1) (b h : Fin 4) (n : Fin 2048) : Fin 2048 → EReal :=
  score (qRow x0 x2 x3 b n) (projRows x1 x4 x5 b) h

/-! ### The scores -/

theorem lidx_v18 (b h : Fin 4) (n j : Fin 2048) (k : Fin 64) : lidx_main_v18 (ix4 b h n j) k = ix4 b h n k := by
  funext a; match a with | ⟨0, _⟩ => rfl | ⟨1, _⟩ => rfl | ⟨2, _⟩ => rfl | ⟨3, _⟩ => rfl
theorem ridx_v18 (b h : Fin 4) (n j : Fin 2048) (k : Fin 64) : ridx_main_v18 (ix4 b h n j) k = ix4 b h j k := by
  funext a; match a with | ⟨0, _⟩ => rfl | ⟨1, _⟩ => rfl | ⟨2, _⟩ => rfl | ⟨3, _⟩ => rfl

/-- Element (b, h, n, j) of the score array is the score of query row (b, n) against key row j in head h. -/
theorem v20_eq (x0 x1 : Arr3) (x2 : Arr2) (x3 : Arr1) (x4 : Arr2) (x5 : Arr1) (b h : Fin 4) (n j : Fin 2048) :
    val_main_v20 (F := Ideal) x0 x1 x2 x3 x4 x5 (ix4 b h n j) = sRow x0 x1 x2 x3 x4 x5 b h n j := by
  rw [val_main_v20_apply, val_main_v18_apply, val_main_v19_apply, val_main_cst_apply]
  simp only [lidx_v18, ridx_v18, v13_eq, v15_eq, Ideal.hostDivf_def, Ideal.ofBits_def]
  rfl

/-! ### The row maximum -/

/-- Dropping the key axis of [4,4,2048,2048] leaves [4,4,2048]. -/
theorem reduces_keys : S4x4x2048x2048.Reduces [3] S4x4x2048 := by decide

/-- The maximum-reduction over the key axis is the fold of max from −∞ over the 2048 keys. -/
theorem v21_eq (x0 x1 : Arr3) (x2 : Arr2) (x3 : Arr1) (x4 : Arr2) (x5 : Arr1) (b h : Fin 4) (n : Fin 2048) :
    val_main_v21 (F := Ideal) x0 x1 x2 x3 x4 x5 (ix3 b h n)
      = (Finset.univ : Finset (Fin 2048)).fold max negInf
          (fun j => val_main_v20 (F := Ideal) x0 x1 x2 x3 x4 x5 (ix4 b h n j)) := by
  unfold val_main_v21
  generalize val_main_v20 (F := Ideal) x0 x1 x2 x3 x4 x5 = y
  have e := Host.reduce_eq_fold_single (FloatOps.maximumf (F := Ideal) (φ := .f32)) (y : FVec Ideal S4x4x2048x2048 .f32)
    (val_main_cst_0 (F := Ideal)) reducesTo_S4x4x2048x2048_S4x4x2048_d3 reduces_keys h_S_ (ix3 b h n)
  refine e.trans ?_
  refine congrArg (fun f => Finset.fold max negInf f (Finset.univ : Finset (Fin 2048))) (funext fun k => ?_)
  exact congrArg y (funext fun a => Fin.ext (by
    match a with | ⟨0, _⟩ => rfl | ⟨1, _⟩ => rfl | ⟨2, _⟩ => rfl | ⟨3, _⟩ => rfl))

/-- The maximum with the −∞ array leaves the fold unchanged: the fold is at least its start value. -/
theorem v23_eq (x0 x1 : Arr3) (x2 : Arr2) (x3 : Arr1) (x4 : Arr2) (x5 : Arr1) (b h : Fin 4) (n : Fin 2048) :
    val_main_v23 (F := Ideal) x0 x1 x2 x3 x4 x5 (ix3 b h n) = rowMax (sRow x0 x1 x2 x3 x4 x5 b h n) := by
  rw [val_main_v23_apply, val_main_v22_apply, val_main_cst_1_apply, v21_eq]
  simp only [v20_eq, Ideal.maximumf_def, Ideal.ofBits_def]
  exact max_eq_right ((Finset.le_fold_max _).2 (Or.inl le_rfl))

/-! ### The shifted exponentials and the softmax -/

theorem bidx_v25 (b h : Fin 4) (n j : Fin 2048) : idx_main_v24 (idx_main_v25 (ix4 b h n j)) = ix3 b h n := by
  funext a; match a with | ⟨0, _⟩ => rfl | ⟨1, _⟩ => rfl | ⟨2, _⟩ => rfl

/-- exp(s(j) − max s). -/
theorem v27_eq (x0 x1 : Arr3) (x2 : Arr2) (x3 : Arr1) (x4 : Arr2) (x5 : Arr1) (b h : Fin 4) (n j : Fin 2048) :
    val_main_v27 (F := Ideal) x0 x1 x2 x3 x4 x5 (ix4 b h n j) = expShift (sRow x0 x1 x2 x3 x4 x5 b h n) j := by
  rw [val_main_v27_apply, val_main_v26_apply, val_main_v25_apply, val_main_v24_apply, bidx_v25, v23_eq, v20_eq]
  simp only [Ideal.hostUnary_exp_def, Ideal.subf_def]
  rfl

theorem sidx_v28 (b h : Fin 4) (n k : Fin 2048) : idx_main_v28 (ix3 b h n) k = ix4 b h n k := by
  funext a; match a with | ⟨0, _⟩ => rfl | ⟨1, _⟩ => rfl | ⟨2, _⟩ => rfl | ⟨3, _⟩ => rfl
theorem bidx_v30 (b h : Fin 4) (n j : Fin 2048) : idx_main_v29 (idx_main_v30 (ix4 b h n j)) = ix3 b h n := by
  funext a; match a with | ⟨0, _⟩ => rfl | ⟨1, _⟩ => rfl | ⟨2, _⟩ => rfl

/-- The softmax weight of key j for query row (b, n) in head h. -/
theorem v31_eq (x0 x1 : Arr3) (x2 : Arr2) (x3 : Arr1) (x4 : Arr2) (x5 : Arr1) (b h : Fin 4) (n j : Fin 2048) :
    val_main_v31 (F := Ideal) x0 x1 x2 x3 x4 x5 (ix4 b h n j) = softmax (sRow x0 x1 x2 x3 x4 x5 b h n) j := by
  rw [val_main_v31_apply, val_main_v30_apply, val_main_v29_apply, bidx_v30, val_main_v28_apply, val_main_cst_2_apply]
  simp only [sidx_v28, v27_eq, Ideal.hostDivf_def, Ideal.ofBits_def, Ideal.ofBits_zero_f32, zero_add]
  rfl

end Cert.Attn.Ref

end
-- ==== Proof.RefAttend.lean ====
/-
  The reference's attended rows, read in the specification's words.

  Each head's softmax weights contract with that head's value columns over the 2048 keys; the projected query is added
  (the residual); transposing the middle axes back and reshaping [4,2048,4,64] → [4,2048,256] puts head h's column d
  at column 64h + d, so column e comes from head e / 64 at position e % 64.
-/
import proofs.«179801_j41077067219485_2_alg».proof.Proof.RefSoftmax

noncomputable section

namespace Cert.Attn.Ref

open Cert.ReferenceIdeal Cert.ReferenceIdeal.ReadP Idealize.ShloMosaic Idealize.ShloMosaic.ValueIdx Cert.Attn

/-- The attended row (b, n). -/
abbrev aRow (x0 x1 : Arr3) (x2 : Arr2) (x3 : Arr1) (x4 : Arr2) (x5 : Arr1) (x6 : Arr2) (x7 : Arr1) (b : Fin 4) (n : Fin 2048) :
    Fin 256 → EReal :=
  attend (qRow x0 x2 x3 b n) (projRows x1 x4 x5 b) (projRows x1 x6 x7 b)

theorem lidx_v32 (b h : Fin 4) (n k : Fin 2048) (d : Fin 64) : lidx_main_v32 (ix4 b h n d) k = ix4 b h n k := by
  funext a; match a with | ⟨0, _⟩ => rfl | ⟨1, _⟩ => rfl | ⟨2, _⟩ => rfl | ⟨3, _⟩ => rfl
theorem ridx_v32 (b h : Fin 4) (n k : Fin 2048) (d : Fin 64) : ridx_main_v32 (ix4 b h n d) k = ix4 b h k d := by
  funext a; match a with | ⟨0, _⟩ => rfl | ⟨1, _⟩ => rfl | ⟨2, _⟩ => rfl | ⟨3, _⟩ => rfl

/-- Per head: the projected query's column plus the softmax-weighted sum of the value rows' column. -/
theorem v33_eq (x0 x1 : Arr3) (x2 : Arr2) (x3 : Arr1) (x4 : Arr2) (x5 : Arr1) (x6 : Arr2) (x7 : Arr1)
    (b h : Fin 4) (n : Fin 2048) (d : Fin 64) :
    val_main_v33 (F := Ideal) x0 x1 x2 x3 x4 x5 x6 x7 (ix4 b h n d)
      = qRow x0 x2 x3 b n (headCol h d)
        + ∑ j : Fin 2048, softmax (sRow x0 x1 x2 x3 x4 x5 b h n) j * projRows x1 x6 x7 b j (headCol h d) := by
  rw [val_main_v33_apply, val_main_v32_apply, v13_eq]
  simp only [lidx_v32, ridx_v32, v31_eq, v17_eq, Ideal.addf_def]

theorem tidx_v34 (b h : Fin 4) (n : Fin 2048) (d : Fin 64) : idx_main_v34 (ix4 b n h d) = ix4 b h n d := by
  funext a; match a with | ⟨0, _⟩ => rfl | ⟨1, _⟩ => rfl | ⟨2, _⟩ => rfl | ⟨3, _⟩ => rfl

/-- The reshape back: (b, n, e) has flat position (2048b + n)·256 + e, which is (b, n, e / 64, e % 64) in [4,2048,4,64]. -/
theorem ridx_v35 (b : Fin 4) (n : Fin 2048) (e : Fin 256) : idx_main_v35 (ix3 b n e) = ix4 b n (headOf e) (headPos e) := by
  have hb := b.isLt; have hn := n.isLt; have he := e.isLt
  funext a
  match a with
  | ⟨0, _⟩ => exact Fin.ext (by show ((b.val * 2048 + n.val) * 256 + e.val) / 524288 = b.val; omega)
  | ⟨1, _⟩ => exact Fin.ext (by show ((b.val * 2048 + n.val) * 256 + e.val) / 256 % 2048 = n.val; omega)
  | ⟨2, _⟩ => exact Fin.ext (by show ((b.val * 2048 + n.val) * 256 + e.val) / 64 % 4 = e.val / 64; omega)
  | ⟨3, _⟩ => exact Fin.ext (by show ((b.val * 2048 + n.val) * 256 + e.val) % 64 = e.val % 64; omega)

/-- Element (b, n, e) of the attended array is the attended row (b, n) at column e. -/
theorem v35_eq (x0 x1 : Arr3) (x2 : Arr2) (x3 : Arr1) (x4 : Arr2) (x5 : Arr1) (x6 : Arr2) (x7 : Arr1)
    (b : Fin 4) (n : Fin 2048) (e : Fin 256) :
    val_main_v35 (F := Ideal) x0 x1 x2 x3 x4 x5 x6 x7 (ix3 b n e) = aRow x0 x1 x2 x3 x4 x5 x6 x7 b n e := by
  rw [val_main_v35_apply, ridx_v35, val_main_v34_apply, tidx_v34, v33_eq, headCol_headOf_headPos]
  rfl

end Cert.Attn.Ref

end
-- ==== Proof.RefNorm.lean ====
/-
  The reference's first LayerNorm and its feed-forward step, read in the specification's words.

  A LayerNorm of a row x of 256 columns: the mean μ is the sum from the constant 0 over 256; the variance is the mean of
  (x − μ)²; the result is (x − μ)·rsqrt(variance + ε)·g + b. The mean and the variance live in arrays with a unit last
  axis that are broadcast back along the columns. The feed-forward step contracts the normalized row with Wo, adds the
  bias, takes the maximum with the constant 0 and adds the normalized row back.
-/
import proofs.«179801_j41077067219485_2_alg».proof.Proof.RefAttend

noncomputable section

namespace Cert.Attn.Ref

open Cert.ReferenceIdeal Cert.ReferenceIdeal.ReadP Idealize.ShloMosaic Idealize.ShloMosaic.ValueIdx Cert.Attn

/-- The one coordinate of a unit axis. -/
abbrev z1 : Fin 1 := ⟨0, Nat.one_pos⟩

/-! ## The first LayerNorm -/

/-! ### Index equations -/

theorem sidx_v36 (b : Fin 4) (n : Fin 2048) (k : Fin 256) : idx_main_v36 (ix2 b n) k = ix3 b n k := by
  funext a; match a with | ⟨0, _⟩ => rfl | ⟨1, _⟩ => rfl | ⟨2, _⟩ => rfl
theorem sidx_v43 (b : Fin 4) (n : Fin 2048) (k : Fin 256) : idx_main_v43 (ix2 b n) k = ix3 b n k := by
  funext a; match a with | ⟨0, _⟩ => rfl | ⟨1, _⟩ => rfl | ⟨2, _⟩ => rfl
theorem midx_v37 (b : Fin 4) (n : Fin 2048) : idx_main_v37 (ix3 b n z1) = ix2 b n := by
  funext a; match a with | ⟨0, _⟩ => rfl | ⟨1, _⟩ => rfl
theorem midx_v44 (b : Fin 4) (n : Fin 2048) : idx_main_v44 (ix3 b n z1) = ix2 b n := by
  funext a; match a with | ⟨0, _⟩ => rfl | ⟨1, _⟩ => rfl
theorem bidx_v40 (b : Fin 4) (n : Fin 2048) (e : Fin 256) : idx_main_v40 (ix3 b n e) = ix3 b n z1 := by
  funext a; match a with | ⟨0, _⟩ => rfl | ⟨1, _⟩ => rfl | ⟨2, _⟩ => rfl
theorem bidx_v47 (b : Fin 4) (n : Fin 2048) (e : Fin 256) : idx_main_v47 (ix3 b n e) = ix3 b n z1 := by
  funext a; match a with | ⟨0, _⟩ => rfl | ⟨1, _⟩ => rfl | ⟨2, _⟩ => rfl
theorem bidx_v52 (b : Fin 4) (n : Fin 2048) (e : Fin 256) : idx_main_v52 (ix3 b n e) = ix3 b n z1 := by
  funext a; match a with | ⟨0, _⟩ => rfl | ⟨1, _⟩ => rfl | ⟨2, _⟩ => rfl
theorem gidx_v55 (b : Fin 4) (n : Fin 2048) (e : Fin 256) : idx_main_v54 (idx_main_v55 (ix3 b n e)) = ix1 e := by
  funext a; match a with | ⟨0, _⟩ => rfl
theorem gidx_v58 (b : Fin 4) (n : Fin 2048) (e : Fin 256) : idx_main_v57 (idx_main_v58 (ix3 b n e)) = ix1 e := by
  funext a; match a with | ⟨0, _⟩ => rfl

/-! ### The stages -/

/-- The row's mean: (0 + Σ over the 256 columns) / 256. -/
theorem v39_eq (x0 x1 : Arr3) (x2 : Arr2) (x3 : Arr1) (x4 : Arr2) (x5 : Arr1) (x6 : Arr2) (x7 : Arr1) (b : Fin 4) (n : Fin 2048) :
    val_main_v39 (F := Ideal) x0 x1 x2 x3 x4 x5 x6 x7 (ix3 b n z1) = mean (aRow x0 x1 x2 x3 x4 x5 x6 x7 b n) := by
  rw [val_main_v39_apply, val_main_v37_apply, midx_v37, val_main_v36_apply, val_main_cst_3_apply, val_main_v38_apply, val_main_cst_4_apply]
  simp only [sidx_v36, v35_eq, Ideal.hostDivf_def, Ideal.ofBits_def, Ideal.ofBits_zero_f32, zero_add]
  rfl

/-- The centred row (as the variance uses it). -/
theorem v41_eq (x0 x1 : Arr3) (x2 : Arr2) (x3 : Arr1) (x4 : Arr2) (x5 : Arr1) (x6 : Arr2) (x7 : Arr1) (b : Fin 4) (n : Fin 2048) (e : Fin 256) :
    val_main_v41 (F := Ideal) x0 x1 x2 x3 x4 x5 x6 x7 (ix3 b n e) = aRow x0 x1 x2 x3 x4 x5 x6 x7 b n e - mean (aRow x0 x1 x2 x3 x4 x5 x6 x7 b n) := by
  rw [val_main_v41_apply, val_main_v40_apply, bidx_v40, v39_eq, v35_eq]
  rfl

/-- The variance: the mean of the squared centred row. -/
theorem v46_eq (x0 x1 : Arr3) (x2 : Arr2) (x3 : Arr1) (x4 : Arr2) (x5 : Arr1) (x6 : Arr2) (x7 : Arr1) (b : Fin 4) (n : Fin 2048) :
    val_main_v46 (F := Ideal) x0 x1 x2 x3 x4 x5 x6 x7 (ix3 b n z1)
      = mean (fun c => (aRow x0 x1 x2 x3 x4 x5 x6 x7 b n c - mean (aRow x0 x1 x2 x3 x4 x5 x6 x7 b n)) * (aRow x0 x1 x2 x3 x4 x5 x6 x7 b n c - mean (aRow x0 x1 x2 x3 x4 x5 x6 x7 b n))) := by
  rw [val_main_v46_apply, val_main_v44_apply, midx_v44, val_main_v43_apply, val_main_cst_5_apply, val_main_v45_apply, val_main_cst_6_apply]
  simp only [sidx_v43, val_main_v42_apply, v41_eq, Ideal.mulf_def, Ideal.hostDivf_def, Ideal.ofBits_def,
    Ideal.ofBits_zero_f32, zero_add]
  rfl

/-- The centred row (as the normalization uses it). -/
theorem v48_eq (x0 x1 : Arr3) (x2 : Arr2) (x3 : Arr1) (x4 : Arr2) (x5 : Arr1) (x6 : Arr2) (x7 : Arr1) (b : Fin 4) (n : Fin 2048) (e : Fin 256) :
    val_main_v48 (F := Ideal) x0 x1 x2 x3 x4 x5 x6 x7 (ix3 b n e) = aRow x0 x1 x2 x3 x4 x5 x6 x7 b n e - mean (aRow x0 x1 x2 x3 x4 x5 x6 x7 b n) := by
  rw [val_main_v48_apply, val_main_v47_apply, bidx_v47, v39_eq, v35_eq]
  rfl

/-- The normalized, scaled and shifted row is the specification's LayerNorm of the row. -/
theorem v59_eq (x0 x1 : Arr3) (x2 : Arr2) (x3 : Arr1) (x4 : Arr2) (x5 : Arr1) (x6 : Arr2) (x7 : Arr1) (x10 x11 : Arr1) (b : Fin 4) (n : Fin 2048) (e : Fin 256) :
    val_main_v59 (F := Ideal) x0 x1 x2 x3 x4 x5 x6 x7 x10 x11 (ix3 b n e) = layerNorm (aRow x0 x1 x2 x3 x4 x5 x6 x7 b n) (vec x10) (vec x11) e := by
  rw [val_main_v59_apply, val_main_v56_apply, val_main_v53_apply, v48_eq, val_main_v52_apply, bidx_v52, val_main_v51_apply,
    val_main_v50_apply, v46_eq, val_main_v49_apply, val_main_cst_7_apply, val_main_v55_apply, val_main_v54_apply, gidx_v55,
    val_main_v58_apply, val_main_v57_apply, gidx_v58]
  simp only [Ideal.addf_def, Ideal.mulf_def, Ideal.hostUnary_rsqrt_def, Ideal.ofBits_def]
  rfl

/-! ## The feed-forward step -/

/-- The first LayerNorm's row (b, n). -/
abbrev lRow (x0 x1 : Arr3) (x2 : Arr2) (x3 : Arr1) (x4 : Arr2) (x5 : Arr1) (x6 : Arr2) (x7 : Arr1) (x10 x11 : Arr1) (b : Fin 4) (n : Fin 2048) : Fin 256 → EReal :=
  layerNorm (aRow x0 x1 x2 x3 x4 x5 x6 x7 b n) (vec x10) (vec x11)

theorem lidx_v60 (b : Fin 4) (n : Fin 2048) (e k : Fin 256) : lidx_main_v60 (ix3 b n e) k = ix3 b n k := by
  funext a; match a with | ⟨0, _⟩ => rfl | ⟨1, _⟩ => rfl | ⟨2, _⟩ => rfl
theorem ridx_v60 (b : Fin 4) (n : Fin 2048) (e k : Fin 256) : ridx_main_v60 (ix3 b n e) k = ix2 e k := by
  funext a; match a with | ⟨0, _⟩ => rfl | ⟨1, _⟩ => rfl
theorem bidx_v62 (b : Fin 4) (n : Fin 2048) (e : Fin 256) : idx_main_v61 (idx_main_v62 (ix3 b n e)) = ix1 e := by
  funext a; match a with | ⟨0, _⟩ => rfl

/-- The output projection of the normalized row. -/
theorem v63_eq (x0 x1 : Arr3) (x2 : Arr2) (x3 : Arr1) (x4 : Arr2) (x5 : Arr1) (x6 : Arr2) (x7 : Arr1) (x8 : Arr2) (x9 x10 x11 : Arr1) (b : Fin 4) (n : Fin 2048) (e : Fin 256) :
    val_main_v63 (F := Ideal) x0 x1 x2 x3 x4 x5 x6 x7 x8 x9 x10 x11 (ix3 b n e) = proj (lRow x0 x1 x2 x3 x4 x5 x6 x7 x10 x11 b n) (mat x8) (vec x9) e := by
  rw [val_main_v63_apply, val_main_v60_apply, val_main_v62_apply, val_main_v61_apply]
  simp only [lidx_v60, ridx_v60, bidx_v62, v59_eq, Ideal.addf_def]
  rfl

/-- The normalized row plus the positive part of its output projection. -/
theorem v65_eq (x0 x1 : Arr3) (x2 : Arr2) (x3 : Arr1) (x4 : Arr2) (x5 : Arr1) (x6 : Arr2) (x7 : Arr1) (x8 : Arr2) (x9 x10 x11 : Arr1) (b : Fin 4) (n : Fin 2048) (e : Fin 256) :
    val_main_v65 (F := Ideal) x0 x1 x2 x3 x4 x5 x6 x7 x8 x9 x10 x11 (ix3 b n e) = feedForward (lRow x0 x1 x2 x3 x4 x5 x6 x7 x10 x11 b n) (mat x8) (vec x9) e := by
  rw [val_main_v65_apply, val_main_v64_apply, v63_eq, v59_eq, val_main_call0_v0_apply, val_main_call0_cst_apply]
  simp only [Ideal.addf_def, Ideal.maximumf_def, Ideal.ofBits_def, Ideal.ofBits_zero_f32]
  rfl

end Cert.Attn.Ref

end
-- ==== Proof.Ref.lean ====
/-
  The reference's second LayerNorm, and the whole reference as the specification's result.

  The second LayerNorm is the first one's text over the feed-forward row. Element (b, n, e) of the reference's result is
  then column e of the specification's output row for query row (b, n), which is the specification's result array.
-/
import proofs.«179801_j41077067219485_2_alg».proof.Proof.RefNorm

noncomputable section

namespace Cert.Attn.Ref

open Cert.ReferenceIdeal Cert.ReferenceIdeal.ReadP Idealize.ShloMosaic Idealize.ShloMosaic.ValueIdx Cert.Attn

/-- The feed-forward row (b, n). -/
abbrev fRow (x0 x1 : Arr3) (x2 : Arr2) (x3 : Arr1) (x4 : Arr2) (x5 : Arr1) (x6 : Arr2) (x7 : Arr1) (x8 : Arr2) (x9 x10 x11 : Arr1) (b : Fin 4) (n : Fin 2048) : Fin 256 → EReal :=
  feedForward (lRow x0 x1 x2 x3 x4 x5 x6 x7 x10 x11 b n) (mat x8) (vec x9)

/-! ## The second LayerNorm -/

/-! ### Index equations -/

theorem sidx_v66 (b : Fin 4) (n : Fin 2048) (k : Fin 256) : idx_main_v66 (ix2 b n) k = ix3 b n k := by
  funext a; match a with | ⟨0, _⟩ => rfl | ⟨1, _⟩ => rfl | ⟨2, _⟩ => rfl
theorem sidx_v73 (b : Fin 4) (n : Fin 2048) (k : Fin 256) : idx_main_v73 (ix2 b n) k = ix3 b n k := by
  funext a; match a with | ⟨0, _⟩ => rfl | ⟨1, _⟩ => rfl | ⟨2, _⟩ => rfl
theorem midx_v67 (b : Fin 4) (n : Fin 2048) : idx_main_v67 (ix3 b n z1) = ix2 b n := by
  funext a; match a with | ⟨0, _⟩ => rfl | ⟨1, _⟩ => rfl
theorem midx_v74 (b : Fin 4) (n : Fin 2048) : idx_main_v74 (ix3 b n z1) = ix2 b n := by
  funext a; match a with | ⟨0, _⟩ => rfl | ⟨1, _⟩ => rfl
theorem bidx_v70 (b : Fin 4) (n : Fin 2048) (e : Fin 256) : idx_main_v70 (ix3 b n e) = ix3 b n z1 := by
  funext a; match a with | ⟨0, _⟩ => rfl | ⟨1, _⟩ => rfl | ⟨2, _⟩ => rfl
theorem bidx_v77 (b : Fin 4) (n : Fin 2048) (e : Fin 256) : idx_main_v77 (ix3 b n e) = ix3 b n z1 := by
  funext a; match a with | ⟨0, _⟩ => rfl | ⟨1, _⟩ => rfl | ⟨2, _⟩ => rfl
theorem bidx_v82 (b : Fin 4) (n : Fin 2048) (e : Fin 256) : idx_main_v82 (ix3 b n e) = ix3 b n z1 := by
  funext a; match a with | ⟨0, _⟩ => rfl | ⟨1, _⟩ => rfl | ⟨2, _⟩ => rfl
theorem gidx_v85 (b : Fin 4) (n : Fin 2048) (e : Fin 256) : idx_main_v84 (idx_main_v85 (ix3 b n e)) = ix1 e := by
  funext a; match a with | ⟨0, _⟩ => rfl
theorem gidx_v88 (b : Fin 4) (n : Fin 2048) (e : Fin 256) : idx_main_v87 (idx_main_v88 (ix3 b n e)) = ix1 e := by
  funext a; match a with | ⟨0, _⟩ => rfl

/-! ### The stages -/

/-- The row's mean: (0 + Σ over the 256 columns) / 256. -/
theorem v69_eq (x0 x1 : Arr3) (x2 : Arr2) (x3 : Arr1) (x4 : Arr2) (x5 : Arr1) (x6 : Arr2) (x7 : Arr1) (x8 : Arr2) (x9 x10 x11 : Arr1) (b : Fin 4) (n : Fin 2048) :
    val_main_v69 (F := Ideal) x0 x1 x2 x3 x4 x5 x6 x7 x8 x9 x10 x11 (ix3 b n z1) = mean (fRow x0 x1 x2 x3 x4 x5 x6 x7 x8 x9 x10 x11 b n) := by
  rw [val_main_v69_apply, val_main_v67_apply, midx_v67, val_main_v66_apply, val_main_cst_8_apply, val_main_v68_apply, val_main_cst_9_apply]
  simp only [sidx_v66, v65_eq, Ideal.hostDivf_def, Ideal.ofBits_def, Ideal.ofBits_zero_f32, zero_add]
  rfl

/-- The centred row (as the variance uses it). -/
theorem v71_eq (x0 x1 : Arr3) (x2 : Arr2) (x3 : Arr1) (x4 : Arr2) (x5 : Arr1) (x6 : Arr2) (x7 : Arr1) (x8 : Arr2) (x9 x10 x11 : Arr1) (b : Fin 4) (n : Fin 2048) (e : Fin 256) :
    val_main_v71 (F := Ideal) x0 x1 x2 x3 x4 x5 x6 x7 x8 x9 x10 x11 (ix3 b n e) = fRow x0 x1 x2 x3 x4 x5 x6 x7 x8 x9 x10 x11 b n e - mean (fRow x0 x1 x2 x3 x4 x5 x6 x7 x8 x9 x10 x11 b n) := by
  rw [val_main_v71_apply, val_main_v70_apply, bidx_v70, v69_eq, v65_eq]
  rfl

/-- The variance: the mean of the squared centred row. -/
theorem v76_eq (x0 x1 : Arr3) (x2 : Arr2) (x3 : Arr1) (x4 : Arr2) (x5 : Arr1) (x6 : Arr2) (x7 : Arr1) (x8 : Arr2) (x9 x10 x11 : Arr1) (b : Fin 4) (n : Fin 2048) :
    val_main_v76 (F := Ideal) x0 x1 x2 x3 x4 x5 x6 x7 x8 x9 x10 x11 (ix3 b n z1)
      = mean (fun c => (fRow x0 x1 x2 x3 x4 x5 x6 x7 x8 x9 x10 x11 b n c - mean (fRow x0 x1 x2 x3 x4 x5 x6 x7 x8 x9 x10 x11 b n)) * (fRow x0 x1 x2 x3 x4 x5 x6 x7 x8 x9 x10 x11 b n c - mean (fRow x0 x1 x2 x3 x4 x5 x6 x7 x8 x9 x10 x11 b n))) := by
  rw [val_main_v76_apply, val_main_v74_apply, midx_v74, val_main_v73_apply, val_main_cst_10_apply, val_main_v75_apply, val_main_cst_11_apply]
  simp only [sidx_v73, val_main_v72_apply, v71_eq, Ideal.mulf_def, Ideal.hostDivf_def, Ideal.ofBits_def,
    Ideal.ofBits_zero_f32, zero_add]
  rfl

/-- The centred row (as the normalization uses it). -/
theorem v78_eq (x0 x1 : Arr3) (x2 : Arr2) (x3 : Arr1) (x4 : Arr2) (x5 : Arr1) (x6 : Arr2) (x7 : Arr1) (x8 : Arr2) (x9 x10 x11 : Arr1) (b : Fin 4) (n : Fin 2048) (e : Fin 256) :
    val_main_v78 (F := Ideal) x0 x1 x2 x3 x4 x5 x6 x7 x8 x9 x10 x11 (ix3 b n e) = fRow x0 x1 x2 x3 x4 x5 x6 x7 x8 x9 x10 x11 b n e - mean (fRow x0 x1 x2 x3 x4 x5 x6 x7 x8 x9 x10 x11 b n) := by
  rw [val_main_v78_apply, val_main_v77_apply, bidx_v77, v69_eq, v65_eq]
  rfl

/-- The normalized, scaled and shifted row is the specification's LayerNorm of the row. -/
theorem v89_eq (x0 x1 : Arr3) (x2 : Arr2) (x3 : Arr1) (x4 : Arr2) (x5 : Arr1) (x6 : Arr2) (x7 : Arr1) (x8 : Arr2) (x9 x10 x11 : Arr1) (x12 x13 : Arr1) (b : Fin 4) (n : Fin 2048) (e : Fin 256) :
    val_main_v89 (F := Ideal) x0 x1 x2 x3 x4 x5 x6 x7 x8 x9 x10 x11 x12 x13 (ix3 b n e) = layerNorm (fRow x0 x1 x2 x3 x4 x5 x6 x7 x8 x9 x10 x11 b n) (vec x12) (vec x13) e := by
  rw [val_main_v89_apply, val_main_v86_apply, val_main_v83_apply, v78_eq, val_main_v82_apply, bidx_v82, val_main_v81_apply,
    val_main_v80_apply, v76_eq, val_main_v79_apply, val_main_cst_12_apply, val_main_v85_apply, val_main_v84_apply, gidx_v85,
    val_main_v88_apply, val_main_v87_apply, gidx_v88]
  simp only [Ideal.addf_def, Ideal.mulf_def, Ideal.hostUnary_rsqrt_def, Ideal.ofBits_def]
  rfl

/-! ## The whole reference -/

/-- The reference's result array is the specification's. -/
theorem val_eq_result
    (x0 x1 : (⟨S4x2048x256, .f32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (x8 : (⟨S256x256, .f32⟩ : BufTy).Contents (Elt Ideal)) (x9 x10 x11 x12 x13 : (⟨S256, .f32⟩ : BufTy).Contents (Elt Ideal)) :
    Cert.ReferenceIdeal.ReadP.val_main_v89 (F := Ideal) x0 x1 x2 x3 x4 x5 x6 x7 x8 x9 x10 x11 x12 x13
      = Cert.Attn.result x0 x1 x2 x3 x4 x5 x6 x7 x8 x9 x10 x11 x12 x13 := by
  funext i
  obtain ⟨b, n, e, rfl⟩ : ∃ b n e, i = ix3 b n e := ⟨i 0, i 1, i 2, eq_ix3 i⟩
  rw [v89_eq]
  rfl

end Cert.Attn.Ref

end
-- ==== Proof.RefRun.lean ====
/- The run of the reference program, read back stage by stage.

   The program is a straight line of 106 tensor operations. Its last value is a LayerNorm of
   (y + relu (y · W₂ + b₂)), where y is itself a LayerNorm of the attention output a. Each LayerNorm reads its
   input six times and the feed-forward step reads y twice, so the final value written as one tree over the
   arguments holds 72 copies of a. The stage definitions `ReadP.val_main_vN` keep each intermediate value as ONE
   definition that later stages cite, and this module states the run against them.

   The line is cut at the three points where exactly one intermediate is live (a, y, and y + relu(…)). For a line
   l₁ ++ l₂ the final contents are those of l₂ started from the contents l₁ leaves (`after_append`), so each
   piece is read on its own, over an ARBITRARY incoming memory W of which only the live value and the parameter
   arrays are used; no goal ever holds more than one piece's expansion. -/
import proofs.«179801_j41077067219485_2_alg».proof.Proof.RefRead
import Idealize.ShloMosaic.Lib.StableHlo.Run

noncomputable section

namespace Cert.Attn.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 106 operations, in order (the called function's three operations stand in the call's place). -/
abbrev ops : List (HloOp τ sig (Elt F)) :=
  [ binary main_arg0 main_arg2 main_v0 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg3 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v0 main_v2 main_v3 (addf : (⟨S4x2048x256, .f32⟩ : BufTy).Contents (Elt F) → (⟨S4x2048x256, .f32⟩ : BufTy).Contents (Elt F) → (⟨S4x2048x256, .f32⟩ : BufTy).Contents (Elt F)),
    binary main_arg1 main_arg4 main_v4 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg5 main_v5 (broadcastInDim S1x1x256 ![2] bcast_S256_S1x1x256_2 : (⟨S256, .f32⟩ : BufTy).Contents (Elt F) → (⟨S1x1x256, .f32⟩ : BufTy).Contents (Elt F)),
    unary main_v5 main_v6 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v4 main_v6 main_v7 (addf : (⟨S4x2048x256, .f32⟩ : BufTy).Contents (Elt F) → (⟨S4x2048x256, .f32⟩ : BufTy).Contents (Elt F) → (⟨S4x2048x256, .f32⟩ : BufTy).Contents (Elt F)),
    binary main_arg1 main_arg6 main_v8 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg7 main_v9 (broadcastInDim S1x1x256 ![2] bcast_S256_S1x1x256_2 : (⟨S256, .f32⟩ : BufTy).Contents (Elt F) → (⟨S1x1x256, .f32⟩ : BufTy).Contents (Elt F)),
    unary main_v9 main_v10 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v8 main_v10 main_v11 (addf : (⟨S4x2048x256, .f32⟩ : BufTy).Contents (Elt F) → (⟨S4x2048x256, .f32⟩ : BufTy).Contents (Elt F) → (⟨S4x2048x256, .f32⟩ : BufTy).Contents (Elt F)),
    reshape main_v3 main_v12 rfl shapeCasts_S4x2048x256_S4x2048x4x64,
    unary main_v12 main_v13 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    reshape main_v7 main_v14 rfl shapeCasts_S4x2048x256_S4x2048x4x64,
    unary main_v14 main_v15 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    reshape main_v11 main_v16 rfl shapeCasts_S4x2048x256_S4x2048x4x64,
    unary main_v16 main_v17 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    binary main_v13 main_v15 main_v18 ((fun l r => Host.dotGeneral dot_S4x4x2048x64_S4x4x2048x64_S4x4x2048x2048_3_3_2_2_01_01 none l r) : (⟨S4x4x2048x64, .f32⟩ : BufTy).Contents (Elt F) → (⟨S4x4x2048x64, .f32⟩ : BufTy).Contents (Elt F) → (⟨S4x4x2048x2048, .f32⟩ : BufTy).Contents (Elt F)),
    nullary main_cst (constant S_ .f32 0x41800000#32),
    unary main_cst main_v19 (broadcastInDim S4x4x2048x2048 ![] bcast_S_S4x4x2048x2048 : (⟨S_, .f32⟩ : BufTy).Contents (Elt F) → (⟨S4x4x2048x2048, .f32⟩ : BufTy).Contents (Elt F)),
    binary main_v18 main_v19 main_v20 (Host.divf : (⟨S4x4x2048x2048, .f32⟩ : BufTy).Contents (Elt F) → (⟨S4x4x2048x2048, .f32⟩ : BufTy).Contents (Elt F) → (⟨S4x4x2048x2048, .f32⟩ : BufTy).Contents (Elt F)),
    nullary main_cst_0 (constant S_ .f32 0xFF800000#32),
    binary main_v20 main_cst_0 main_v21 ((fun x v => Host.reduce FloatOps.maximumf x v reducesTo_S4x4x2048x2048_S4x4x2048_d3 h_S_) : (⟨S4x4x2048x2048, .f32⟩ : BufTy).Contents (Elt F) → (⟨S_, .f32⟩ : BufTy).Contents (Elt F) → (⟨S4x4x2048, .f32⟩ : BufTy).Contents (Elt F)),
    nullary main_cst_1 (constant S_ .f32 0xFF800000#32),
    unary main_cst_1 main_v22 (broadcastInDim S4x4x2048 ![] bcast_S_S4x4x2048 : (⟨S_, .f32⟩ : BufTy).Contents (Elt F) → (⟨S4x4x2048, .f32⟩ : BufTy).Contents (Elt F)),
    binary main_v22 main_v21 main_v23 (maximumf : (⟨S4x4x2048, .f32⟩ : BufTy).Contents (Elt F) → (⟨S4x4x2048, .f32⟩ : BufTy).Contents (Elt F) → (⟨S4x4x2048, .f32⟩ : BufTy).Contents (Elt F)),
    unary main_v23 main_v24 (broadcastInDim S4x4x2048x1 ![0, 1, 2] bcast_S4x4x2048_S4x4x2048x1_0_1_2 : (⟨S4x4x2048, .f32⟩ : BufTy).Contents (Elt F) → (⟨S4x4x2048x1, .f32⟩ : BufTy).Contents (Elt F)),
    unary main_v24 main_v25 (broadcastInDim S4x4x2048x2048 ![0, 1, 2, 3] bcast_S4x4x2048x1_S4x4x2048x2048_0_1_2_3 : (⟨S4x4x2048x1, .f32⟩ : BufTy).Contents (Elt F) → (⟨S4x4x2048x2048, .f32⟩ : BufTy).Contents (Elt F)),
    binary main_v20 main_v25 main_v26 (subf : (⟨S4x4x2048x2048, .f32⟩ : BufTy).Contents (Elt F) → (⟨S4x4x2048x2048, .f32⟩ : BufTy).Contents (Elt F) → (⟨S4x4x2048x2048, .f32⟩ : BufTy).Contents (Elt F)),
    unary main_v26 main_v27 (Host.exp : (⟨S4x4x2048x2048, .f32⟩ : BufTy).Contents (Elt F) → (⟨S4x4x2048x2048, .f32⟩ : BufTy).Contents (Elt F)),
    nullary main_cst_2 (constant S_ .f32 0x00000000#32),
    binary main_v27 main_cst_2 main_v28 ((fun x v => Host.reduceAdd x v reducesTo_S4x4x2048x2048_S4x4x2048_d3 h_S_) : (⟨S4x4x2048x2048, .f32⟩ : BufTy).Contents (Elt F) → (⟨S_, .f32⟩ : BufTy).Contents (Elt F) → (⟨S4x4x2048, .f32⟩ : BufTy).Contents (Elt F)),
    unary main_v28 main_v29 (broadcastInDim S4x4x2048x1 ![0, 1, 2] bcast_S4x4x2048_S4x4x2048x1_0_1_2 : (⟨S4x4x2048, .f32⟩ : BufTy).Contents (Elt F) → (⟨S4x4x2048x1, .f32⟩ : BufTy).Contents (Elt F)),
    unary main_v29 main_v30 (broadcastInDim S4x4x2048x2048 ![0, 1, 2, 3] bcast_S4x4x2048x1_S4x4x2048x2048_0_1_2_3 : (⟨S4x4x2048x1, .f32⟩ : BufTy).Contents (Elt F) → (⟨S4x4x2048x2048, .f32⟩ : BufTy).Contents (Elt F)),
    binary main_v27 main_v30 main_v31 (Host.divf : (⟨S4x4x2048x2048, .f32⟩ : BufTy).Contents (Elt F) → (⟨S4x4x2048x2048, .f32⟩ : BufTy).Contents (Elt F) → (⟨S4x4x2048x2048, .f32⟩ : BufTy).Contents (Elt F)),
    binary main_v31 main_v17 main_v32 ((fun l r => Host.dotGeneral dot_S4x4x2048x2048_S4x4x2048x64_S4x4x2048x64_3_2_2_3_01_01 none l r) : (⟨S4x4x2048x2048, .f32⟩ : BufTy).Contents (Elt F) → (⟨S4x4x2048x64, .f32⟩ : BufTy).Contents (Elt F) → (⟨S4x4x2048x64, .f32⟩ : BufTy).Contents (Elt F)),
    binary main_v13 main_v32 main_v33 (addf : (⟨S4x4x2048x64, .f32⟩ : BufTy).Contents (Elt F) → (⟨S4x4x2048x64, .f32⟩ : BufTy).Contents (Elt F) → (⟨S4x4x2048x64, .f32⟩ : BufTy).Contents (Elt F)),
    unary main_v33 main_v34 ((transpose S4x2048x4x64 [0, 2, 1, 3] · transposes_S4x4x2048x64_S4x2048x4x64_0_2_1_3) : (⟨S4x4x2048x64, .f32⟩ : BufTy).Contents (Elt F) → (⟨S4x2048x4x64, .f32⟩ : BufTy).Contents (Elt F)),
    reshape main_v34 main_v35 rfl shapeCasts_S4x2048x4x64_S4x2048x256,
    nullary main_cst_3 (constant S_ .f32 0x00000000#32),
    binary main_v35 main_cst_3 main_v36 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v36 main_v37 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_4 (constant S_ .f32 0x43800000#32),
    unary main_cst_4 main_v38 (broadcastInDim S4x2048x1 ![] bcast_S_S4x2048x1 : (⟨S_, .f32⟩ : BufTy).Contents (Elt F) → (⟨S4x2048x1, .f32⟩ : BufTy).Contents (Elt F)),
    binary main_v37 main_v38 main_v39 (Host.divf : (⟨S4x2048x1, .f32⟩ : BufTy).Contents (Elt F) → (⟨S4x2048x1, .f32⟩ : BufTy).Contents (Elt F) → (⟨S4x2048x1, .f32⟩ : BufTy).Contents (Elt F)),
    unary main_v39 main_v40 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v35 main_v40 main_v41 (subf : (⟨S4x2048x256, .f32⟩ : BufTy).Contents (Elt F) → (⟨S4x2048x256, .f32⟩ : BufTy).Contents (Elt F) → (⟨S4x2048x256, .f32⟩ : BufTy).Contents (Elt F)),
    binary main_v41 main_v41 main_v42 (mulf : (⟨S4x2048x256, .f32⟩ : BufTy).Contents (Elt F) → (⟨S4x2048x256, .f32⟩ : BufTy).Contents (Elt F) → (⟨S4x2048x256, .f32⟩ : BufTy).Contents (Elt F)),
    nullary main_cst_5 (constant S_ .f32 0x00000000#32),
    binary main_v42 main_cst_5 main_v43 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v43 main_v44 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x43800000#32),
    unary main_cst_6 main_v45 (broadcastInDim S4x2048x1 ![] bcast_S_S4x2048x1 : (⟨S_, .f32⟩ : BufTy).Contents (Elt F) → (⟨S4x2048x1, .f32⟩ : BufTy).Contents (Elt F)),
    binary main_v44 main_v45 main_v46 (Host.divf : (⟨S4x2048x1, .f32⟩ : BufTy).Contents (Elt F) → (⟨S4x2048x1, .f32⟩ : BufTy).Contents (Elt F) → (⟨S4x2048x1, .f32⟩ : BufTy).Contents (Elt F)),
    unary main_v39 main_v47 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v35 main_v47 main_v48 (subf : (⟨S4x2048x256, .f32⟩ : BufTy).Contents (Elt F) → (⟨S4x2048x256, .f32⟩ : BufTy).Contents (Elt F) → (⟨S4x2048x256, .f32⟩ : BufTy).Contents (Elt F)),
    nullary main_cst_7 (constant S_ .f32 0x3727C5AC#32),
    unary main_cst_7 main_v49 (broadcastInDim S4x2048x1 ![] bcast_S_S4x2048x1 : (⟨S_, .f32⟩ : BufTy).Contents (Elt F) → (⟨S4x2048x1, .f32⟩ : BufTy).Contents (Elt F)),
    binary main_v46 main_v49 main_v50 (addf : (⟨S4x2048x1, .f32⟩ : BufTy).Contents (Elt F) → (⟨S4x2048x1, .f32⟩ : BufTy).Contents (Elt F) → (⟨S4x2048x1, .f32⟩ : BufTy).Contents (Elt F)),
    unary main_v50 main_v51 (Host.rsqrt : (⟨S4x2048x1, .f32⟩ : BufTy).Contents (Elt F) → (⟨S4x2048x1, .f32⟩ : BufTy).Contents (Elt F)),
    unary main_v51 main_v52 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v48 main_v52 main_v53 (mulf : (⟨S4x2048x256, .f32⟩ : BufTy).Contents (Elt F) → (⟨S4x2048x256, .f32⟩ : BufTy).Contents (Elt F) → (⟨S4x2048x256, .f32⟩ : BufTy).Contents (Elt F)),
    unary main_arg10 main_v54 (broadcastInDim S1x1x256 ![2] bcast_S256_S1x1x256_2 : (⟨S256, .f32⟩ : BufTy).Contents (Elt F) → (⟨S1x1x256, .f32⟩ : BufTy).Contents (Elt F)),
    unary main_v54 main_v55 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v53 main_v55 main_v56 (mulf : (⟨S4x2048x256, .f32⟩ : BufTy).Contents (Elt F) → (⟨S4x2048x256, .f32⟩ : BufTy).Contents (Elt F) → (⟨S4x2048x256, .f32⟩ : BufTy).Contents (Elt F)),
    unary main_arg11 main_v57 (broadcastInDim S1x1x256 ![2] bcast_S256_S1x1x256_2 : (⟨S256, .f32⟩ : BufTy).Contents (Elt F) → (⟨S1x1x256, .f32⟩ : BufTy).Contents (Elt F)),
    unary main_v57 main_v58 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v56 main_v58 main_v59 (addf : (⟨S4x2048x256, .f32⟩ : BufTy).Contents (Elt F) → (⟨S4x2048x256, .f32⟩ : BufTy).Contents (Elt F) → (⟨S4x2048x256, .f32⟩ : BufTy).Contents (Elt F)),
    binary main_v59 main_arg8 main_v60 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg9 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v60 main_v62 main_v63 (addf : (⟨S4x2048x256, .f32⟩ : BufTy).Contents (Elt F) → (⟨S4x2048x256, .f32⟩ : BufTy).Contents (Elt F) → (⟨S4x2048x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x2048x256, .f32⟩) main_call0_v0) (broadcastInDim S4x2048x256 ![] bcast_S_S4x2048x256),
    TRef.binary (TRef.of (T := ⟨S4x2048x256, .f32⟩) main_v63) (TRef.of (T := ⟨S4x2048x256, .f32⟩) main_call0_v0) (TRef.of (T := ⟨S4x2048x256, .f32⟩) main_v64) maximumf,
    binary main_v59 main_v64 main_v65 (addf : (⟨S4x2048x256, .f32⟩ : BufTy).Contents (Elt F) → (⟨S4x2048x256, .f32⟩ : BufTy).Contents (Elt F) → (⟨S4x2048x256, .f32⟩ : BufTy).Contents (Elt F)),
    nullary main_cst_8 (constant S_ .f32 0x00000000#32),
    binary main_v65 main_cst_8 main_v66 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v66 main_v67 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_9 (constant S_ .f32 0x43800000#32),
    unary main_cst_9 main_v68 (broadcastInDim S4x2048x1 ![] bcast_S_S4x2048x1 : (⟨S_, .f32⟩ : BufTy).Contents (Elt F) → (⟨S4x2048x1, .f32⟩ : BufTy).Contents (Elt F)),
    binary main_v67 main_v68 main_v69 (Host.divf : (⟨S4x2048x1, .f32⟩ : BufTy).Contents (Elt F) → (⟨S4x2048x1, .f32⟩ : BufTy).Contents (Elt F) → (⟨S4x2048x1, .f32⟩ : BufTy).Contents (Elt F)),
    unary main_v69 main_v70 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v65 main_v70 main_v71 (subf : (⟨S4x2048x256, .f32⟩ : BufTy).Contents (Elt F) → (⟨S4x2048x256, .f32⟩ : BufTy).Contents (Elt F) → (⟨S4x2048x256, .f32⟩ : BufTy).Contents (Elt F)),
    binary main_v71 main_v71 main_v72 (mulf : (⟨S4x2048x256, .f32⟩ : BufTy).Contents (Elt F) → (⟨S4x2048x256, .f32⟩ : BufTy).Contents (Elt F) → (⟨S4x2048x256, .f32⟩ : BufTy).Contents (Elt F)),
    nullary main_cst_10 (constant S_ .f32 0x00000000#32),
    binary main_v72 main_cst_10 main_v73 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v73 main_v74 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x43800000#32),
    unary main_cst_11 main_v75 (broadcastInDim S4x2048x1 ![] bcast_S_S4x2048x1 : (⟨S_, .f32⟩ : BufTy).Contents (Elt F) → (⟨S4x2048x1, .f32⟩ : BufTy).Contents (Elt F)),
    binary main_v74 main_v75 main_v76 (Host.divf : (⟨S4x2048x1, .f32⟩ : BufTy).Contents (Elt F) → (⟨S4x2048x1, .f32⟩ : BufTy).Contents (Elt F) → (⟨S4x2048x1, .f32⟩ : BufTy).Contents (Elt F)),
    unary main_v69 main_v77 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v65 main_v77 main_v78 (subf : (⟨S4x2048x256, .f32⟩ : BufTy).Contents (Elt F) → (⟨S4x2048x256, .f32⟩ : BufTy).Contents (Elt F) → (⟨S4x2048x256, .f32⟩ : BufTy).Contents (Elt F)),
    nullary main_cst_12 (constant S_ .f32 0x3727C5AC#32),
    unary main_cst_12 main_v79 (broadcastInDim S4x2048x1 ![] bcast_S_S4x2048x1 : (⟨S_, .f32⟩ : BufTy).Contents (Elt F) → (⟨S4x2048x1, .f32⟩ : BufTy).Contents (Elt F)),
    binary main_v76 main_v79 main_v80 (addf : (⟨S4x2048x1, .f32⟩ : BufTy).Contents (Elt F) → (⟨S4x2048x1, .f32⟩ : BufTy).Contents (Elt F) → (⟨S4x2048x1, .f32⟩ : BufTy).Contents (Elt F)),
    unary main_v80 main_v81 (Host.rsqrt : (⟨S4x2048x1, .f32⟩ : BufTy).Contents (Elt F) → (⟨S4x2048x1, .f32⟩ : BufTy).Contents (Elt F)),
    unary main_v81 main_v82 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v78 main_v82 main_v83 (mulf : (⟨S4x2048x256, .f32⟩ : BufTy).Contents (Elt F) → (⟨S4x2048x256, .f32⟩ : BufTy).Contents (Elt F) → (⟨S4x2048x256, .f32⟩ : BufTy).Contents (Elt F)),
    unary main_arg12 main_v84 (broadcastInDim S1x1x256 ![2] bcast_S256_S1x1x256_2 : (⟨S256, .f32⟩ : BufTy).Contents (Elt F) → (⟨S1x1x256, .f32⟩ : BufTy).Contents (Elt F)),
    unary main_v84 main_v85 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v83 main_v85 main_v86 (mulf : (⟨S4x2048x256, .f32⟩ : BufTy).Contents (Elt F) → (⟨S4x2048x256, .f32⟩ : BufTy).Contents (Elt F) → (⟨S4x2048x256, .f32⟩ : BufTy).Contents (Elt F)),
    unary main_arg13 main_v87 (broadcastInDim S1x1x256 ![2] bcast_S256_S1x1x256_2 : (⟨S256, .f32⟩ : BufTy).Contents (Elt F) → (⟨S1x1x256, .f32⟩ : BufTy).Contents (Elt F)),
    unary main_v87 main_v88 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v86 main_v88 main_v89 (addf : (⟨S4x2048x256, .f32⟩ : BufTy).Contents (Elt F) → (⟨S4x2048x256, .f32⟩ : BufTy).Contents (Elt F) → (⟨S4x2048x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The three projections, the scaled scores, the softmax, the weighted sum, the residual with the query heads,
    and the heads merged back: everything up to the attention output `main_v35`. -/
abbrev s1 : List (HloOp τ sig (Elt F)) :=
  [ binary main_arg0 main_arg2 main_v0 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg3 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v0 main_v2 main_v3 (addf : (⟨S4x2048x256, .f32⟩ : BufTy).Contents (Elt F) → (⟨S4x2048x256, .f32⟩ : BufTy).Contents (Elt F) → (⟨S4x2048x256, .f32⟩ : BufTy).Contents (Elt F)),
    binary main_arg1 main_arg4 main_v4 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg5 main_v5 (broadcastInDim S1x1x256 ![2] bcast_S256_S1x1x256_2 : (⟨S256, .f32⟩ : BufTy).Contents (Elt F) → (⟨S1x1x256, .f32⟩ : BufTy).Contents (Elt F)),
    unary main_v5 main_v6 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v4 main_v6 main_v7 (addf : (⟨S4x2048x256, .f32⟩ : BufTy).Contents (Elt F) → (⟨S4x2048x256, .f32⟩ : BufTy).Contents (Elt F) → (⟨S4x2048x256, .f32⟩ : BufTy).Contents (Elt F)),
    binary main_arg1 main_arg6 main_v8 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg7 main_v9 (broadcastInDim S1x1x256 ![2] bcast_S256_S1x1x256_2 : (⟨S256, .f32⟩ : BufTy).Contents (Elt F) → (⟨S1x1x256, .f32⟩ : BufTy).Contents (Elt F)),
    unary main_v9 main_v10 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v8 main_v10 main_v11 (addf : (⟨S4x2048x256, .f32⟩ : BufTy).Contents (Elt F) → (⟨S4x2048x256, .f32⟩ : BufTy).Contents (Elt F) → (⟨S4x2048x256, .f32⟩ : BufTy).Contents (Elt F)),
    reshape main_v3 main_v12 rfl shapeCasts_S4x2048x256_S4x2048x4x64,
    unary main_v12 main_v13 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    reshape main_v7 main_v14 rfl shapeCasts_S4x2048x256_S4x2048x4x64,
    unary main_v14 main_v15 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    reshape main_v11 main_v16 rfl shapeCasts_S4x2048x256_S4x2048x4x64,
    unary main_v16 main_v17 ((transpose S4x4x2048x64 [0, 2, 1, 3] · transposes_S4x2048x4x64_S4x4x2048x64_0_2_1_3) : (⟨S4x2048x4x64, .f32⟩ : BufTy).Contents (Elt F) → (⟨S4x4x2048x64, .f32⟩ : BufTy).Contents (Elt F)),
    binary main_v13 main_v15 main_v18 ((fun l r => Host.dotGeneral dot_S4x4x2048x64_S4x4x2048x64_S4x4x2048x2048_3_3_2_2_01_01 none l r) : (⟨S4x4x2048x64, .f32⟩ : BufTy).Contents (Elt F) → (⟨S4x4x2048x64, .f32⟩ : BufTy).Contents (Elt F) → (⟨S4x4x2048x2048, .f32⟩ : BufTy).Contents (Elt F)),
    nullary main_cst (constant S_ .f32 0x41800000#32),
    unary main_cst main_v19 (broadcastInDim S4x4x2048x2048 ![] bcast_S_S4x4x2048x2048 : (⟨S_, .f32⟩ : BufTy).Contents (Elt F) → (⟨S4x4x2048x2048, .f32⟩ : BufTy).Contents (Elt F)),
    binary main_v18 main_v19 main_v20 (Host.divf : (⟨S4x4x2048x2048, .f32⟩ : BufTy).Contents (Elt F) → (⟨S4x4x2048x2048, .f32⟩ : BufTy).Contents (Elt F) → (⟨S4x4x2048x2048, .f32⟩ : BufTy).Contents (Elt F)),
    nullary main_cst_0 (constant S_ .f32 0xFF800000#32),
    binary main_v20 main_cst_0 main_v21 ((fun x v => Host.reduce FloatOps.maximumf x v reducesTo_S4x4x2048x2048_S4x4x2048_d3 h_S_) : (⟨S4x4x2048x2048, .f32⟩ : BufTy).Contents (Elt F) → (⟨S_, .f32⟩ : BufTy).Contents (Elt F) → (⟨S4x4x2048, .f32⟩ : BufTy).Contents (Elt F)),
    nullary main_cst_1 (constant S_ .f32 0xFF800000#32),
    unary main_cst_1 main_v22 (broadcastInDim S4x4x2048 ![] bcast_S_S4x4x2048 : (⟨S_, .f32⟩ : BufTy).Contents (Elt F) → (⟨S4x4x2048, .f32⟩ : BufTy).Contents (Elt F)),
    binary main_v22 main_v21 main_v23 (maximumf : (⟨S4x4x2048, .f32⟩ : BufTy).Contents (Elt F) → (⟨S4x4x2048, .f32⟩ : BufTy).Contents (Elt F) → (⟨S4x4x2048, .f32⟩ : BufTy).Contents (Elt F)),
    unary main_v23 main_v24 (broadcastInDim S4x4x2048x1 ![0, 1, 2] bcast_S4x4x2048_S4x4x2048x1_0_1_2 : (⟨S4x4x2048, .f32⟩ : BufTy).Contents (Elt F) → (⟨S4x4x2048x1, .f32⟩ : BufTy).Contents (Elt F)),
    unary main_v24 main_v25 (broadcastInDim S4x4x2048x2048 ![0, 1, 2, 3] bcast_S4x4x2048x1_S4x4x2048x2048_0_1_2_3 : (⟨S4x4x2048x1, .f32⟩ : BufTy).Contents (Elt F) → (⟨S4x4x2048x2048, .f32⟩ : BufTy).Contents (Elt F)),
    binary main_v20 main_v25 main_v26 (subf : (⟨S4x4x2048x2048, .f32⟩ : BufTy).Contents (Elt F) → (⟨S4x4x2048x2048, .f32⟩ : BufTy).Contents (Elt F) → (⟨S4x4x2048x2048, .f32⟩ : BufTy).Contents (Elt F)),
    unary main_v26 main_v27 (Host.exp : (⟨S4x4x2048x2048, .f32⟩ : BufTy).Contents (Elt F) → (⟨S4x4x2048x2048, .f32⟩ : BufTy).Contents (Elt F)),
    nullary main_cst_2 (constant S_ .f32 0x00000000#32),
    binary main_v27 main_cst_2 main_v28 ((fun x v => Host.reduceAdd x v reducesTo_S4x4x2048x2048_S4x4x2048_d3 h_S_) : (⟨S4x4x2048x2048, .f32⟩ : BufTy).Contents (Elt F) → (⟨S_, .f32⟩ : BufTy).Contents (Elt F) → (⟨S4x4x2048, .f32⟩ : BufTy).Contents (Elt F)),
    unary main_v28 main_v29 (broadcastInDim S4x4x2048x1 ![0, 1, 2] bcast_S4x4x2048_S4x4x2048x1_0_1_2 : (⟨S4x4x2048, .f32⟩ : BufTy).Contents (Elt F) → (⟨S4x4x2048x1, .f32⟩ : BufTy).Contents (Elt F)),
    unary main_v29 main_v30 (broadcastInDim S4x4x2048x2048 ![0, 1, 2, 3] bcast_S4x4x2048x1_S4x4x2048x2048_0_1_2_3 : (⟨S4x4x2048x1, .f32⟩ : BufTy).Contents (Elt F) → (⟨S4x4x2048x2048, .f32⟩ : BufTy).Contents (Elt F)),
    binary main_v27 main_v30 main_v31 (Host.divf : (⟨S4x4x2048x2048, .f32⟩ : BufTy).Contents (Elt F) → (⟨S4x4x2048x2048, .f32⟩ : BufTy).Contents (Elt F) → (⟨S4x4x2048x2048, .f32⟩ : BufTy).Contents (Elt F)),
    binary main_v31 main_v17 main_v32 ((fun l r => Host.dotGeneral dot_S4x4x2048x2048_S4x4x2048x64_S4x4x2048x64_3_2_2_3_01_01 none l r) : (⟨S4x4x2048x2048, .f32⟩ : BufTy).Contents (Elt F) → (⟨S4x4x2048x64, .f32⟩ : BufTy).Contents (Elt F) → (⟨S4x4x2048x64, .f32⟩ : BufTy).Contents (Elt F)),
    binary main_v13 main_v32 main_v33 (addf : (⟨S4x4x2048x64, .f32⟩ : BufTy).Contents (Elt F) → (⟨S4x4x2048x64, .f32⟩ : BufTy).Contents (Elt F) → (⟨S4x4x2048x64, .f32⟩ : BufTy).Contents (Elt F)),
    unary main_v33 main_v34 ((transpose S4x2048x4x64 [0, 2, 1, 3] · transposes_S4x4x2048x64_S4x2048x4x64_0_2_1_3) : (⟨S4x4x2048x64, .f32⟩ : BufTy).Contents (Elt F) → (⟨S4x2048x4x64, .f32⟩ : BufTy).Contents (Elt F)),
    reshape main_v34 main_v35 rfl shapeCasts_S4x2048x4x64_S4x2048x256 ]

/-- The first LayerNorm (mean, centred square, variance, rsqrt, scale and shift), ending at `main_v59`. -/
abbrev s2 : List (HloOp τ sig (Elt F)) :=
  [ nullary main_cst_3 (constant S_ .f32 0x00000000#32),
    binary main_v35 main_cst_3 main_v36 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v36 main_v37 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_4 (constant S_ .f32 0x43800000#32),
    unary main_cst_4 main_v38 (broadcastInDim S4x2048x1 ![] bcast_S_S4x2048x1 : (⟨S_, .f32⟩ : BufTy).Contents (Elt F) → (⟨S4x2048x1, .f32⟩ : BufTy).Contents (Elt F)),
    binary main_v37 main_v38 main_v39 (Host.divf : (⟨S4x2048x1, .f32⟩ : BufTy).Contents (Elt F) → (⟨S4x2048x1, .f32⟩ : BufTy).Contents (Elt F) → (⟨S4x2048x1, .f32⟩ : BufTy).Contents (Elt F)),
    unary main_v39 main_v40 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v35 main_v40 main_v41 (subf : (⟨S4x2048x256, .f32⟩ : BufTy).Contents (Elt F) → (⟨S4x2048x256, .f32⟩ : BufTy).Contents (Elt F) → (⟨S4x2048x256, .f32⟩ : BufTy).Contents (Elt F)),
    binary main_v41 main_v41 main_v42 (mulf : (⟨S4x2048x256, .f32⟩ : BufTy).Contents (Elt F) → (⟨S4x2048x256, .f32⟩ : BufTy).Contents (Elt F) → (⟨S4x2048x256, .f32⟩ : BufTy).Contents (Elt F)),
    nullary main_cst_5 (constant S_ .f32 0x00000000#32),
    binary main_v42 main_cst_5 main_v43 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v43 main_v44 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x43800000#32),
    unary main_cst_6 main_v45 (broadcastInDim S4x2048x1 ![] bcast_S_S4x2048x1 : (⟨S_, .f32⟩ : BufTy).Contents (Elt F) → (⟨S4x2048x1, .f32⟩ : BufTy).Contents (Elt F)),
    binary main_v44 main_v45 main_v46 (Host.divf : (⟨S4x2048x1, .f32⟩ : BufTy).Contents (Elt F) → (⟨S4x2048x1, .f32⟩ : BufTy).Contents (Elt F) → (⟨S4x2048x1, .f32⟩ : BufTy).Contents (Elt F)),
    unary main_v39 main_v47 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v35 main_v47 main_v48 (subf : (⟨S4x2048x256, .f32⟩ : BufTy).Contents (Elt F) → (⟨S4x2048x256, .f32⟩ : BufTy).Contents (Elt F) → (⟨S4x2048x256, .f32⟩ : BufTy).Contents (Elt F)),
    nullary main_cst_7 (constant S_ .f32 0x3727C5AC#32),
    unary main_cst_7 main_v49 (broadcastInDim S4x2048x1 ![] bcast_S_S4x2048x1 : (⟨S_, .f32⟩ : BufTy).Contents (Elt F) → (⟨S4x2048x1, .f32⟩ : BufTy).Contents (Elt F)),
    binary main_v46 main_v49 main_v50 (addf : (⟨S4x2048x1, .f32⟩ : BufTy).Contents (Elt F) → (⟨S4x2048x1, .f32⟩ : BufTy).Contents (Elt F) → (⟨S4x2048x1, .f32⟩ : BufTy).Contents (Elt F)),
    unary main_v50 main_v51 (Host.rsqrt : (⟨S4x2048x1, .f32⟩ : BufTy).Contents (Elt F) → (⟨S4x2048x1, .f32⟩ : BufTy).Contents (Elt F)),
    unary main_v51 main_v52 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v48 main_v52 main_v53 (mulf : (⟨S4x2048x256, .f32⟩ : BufTy).Contents (Elt F) → (⟨S4x2048x256, .f32⟩ : BufTy).Contents (Elt F) → (⟨S4x2048x256, .f32⟩ : BufTy).Contents (Elt F)),
    unary main_arg10 main_v54 (broadcastInDim S1x1x256 ![2] bcast_S256_S1x1x256_2 : (⟨S256, .f32⟩ : BufTy).Contents (Elt F) → (⟨S1x1x256, .f32⟩ : BufTy).Contents (Elt F)),
    unary main_v54 main_v55 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v53 main_v55 main_v56 (mulf : (⟨S4x2048x256, .f32⟩ : BufTy).Contents (Elt F) → (⟨S4x2048x256, .f32⟩ : BufTy).Contents (Elt F) → (⟨S4x2048x256, .f32⟩ : BufTy).Contents (Elt F)),
    unary main_arg11 main_v57 (broadcastInDim S1x1x256 ![2] bcast_S256_S1x1x256_2 : (⟨S256, .f32⟩ : BufTy).Contents (Elt F) → (⟨S1x1x256, .f32⟩ : BufTy).Contents (Elt F)),
    unary main_v57 main_v58 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v56 main_v58 main_v59 (addf : (⟨S4x2048x256, .f32⟩ : BufTy).Contents (Elt F) → (⟨S4x2048x256, .f32⟩ : BufTy).Contents (Elt F) → (⟨S4x2048x256, .f32⟩ : BufTy).Contents (Elt F)) ]

/-- The feed-forward step with its relu, and the residual, ending at `main_v65`. -/
abbrev s3 : List (HloOp τ sig (Elt F)) :=
  [ binary main_v59 main_arg8 main_v60 ((fun l r => Host.dotGeneral dot_S4x2048x256_S256x256_S4x2048x256_2_1_01_0_n_n none l r) : (⟨S4x2048x256, .f32⟩ : BufTy).Contents (Elt F) → (⟨S256x256, .f32⟩ : BufTy).Contents (Elt F) → (⟨S4x2048x256, .f32⟩ : BufTy).Contents (Elt F)),
    unary main_arg9 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v60 main_v62 main_v63 (addf : (⟨S4x2048x256, .f32⟩ : BufTy).Contents (Elt F) → (⟨S4x2048x256, .f32⟩ : BufTy).Contents (Elt F) → (⟨S4x2048x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x2048x256, .f32⟩) main_call0_v0) (broadcastInDim S4x2048x256 ![] bcast_S_S4x2048x256),
    TRef.binary (TRef.of (T := ⟨S4x2048x256, .f32⟩) main_v63) (TRef.of (T := ⟨S4x2048x256, .f32⟩) main_call0_v0) (TRef.of (T := ⟨S4x2048x256, .f32⟩) main_v64) maximumf,
    binary main_v59 main_v64 main_v65 (addf : (⟨S4x2048x256, .f32⟩ : BufTy).Contents (Elt F) → (⟨S4x2048x256, .f32⟩ : BufTy).Contents (Elt F) → (⟨S4x2048x256, .f32⟩ : BufTy).Contents (Elt F)) ]

/-- The second LayerNorm, ending at the result `main_v89`. -/
abbrev s4 : List (HloOp τ sig (Elt F)) :=
  [ nullary main_cst_8 (constant S_ .f32 0x00000000#32),
    binary main_v65 main_cst_8 main_v66 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v66 main_v67 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_9 (constant S_ .f32 0x43800000#32),
    unary main_cst_9 main_v68 (broadcastInDim S4x2048x1 ![] bcast_S_S4x2048x1 : (⟨S_, .f32⟩ : BufTy).Contents (Elt F) → (⟨S4x2048x1, .f32⟩ : BufTy).Contents (Elt F)),
    binary main_v67 main_v68 main_v69 (Host.divf : (⟨S4x2048x1, .f32⟩ : BufTy).Contents (Elt F) → (⟨S4x2048x1, .f32⟩ : BufTy).Contents (Elt F) → (⟨S4x2048x1, .f32⟩ : BufTy).Contents (Elt F)),
    unary main_v69 main_v70 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v65 main_v70 main_v71 (subf : (⟨S4x2048x256, .f32⟩ : BufTy).Contents (Elt F) → (⟨S4x2048x256, .f32⟩ : BufTy).Contents (Elt F) → (⟨S4x2048x256, .f32⟩ : BufTy).Contents (Elt F)),
    binary main_v71 main_v71 main_v72 (mulf : (⟨S4x2048x256, .f32⟩ : BufTy).Contents (Elt F) → (⟨S4x2048x256, .f32⟩ : BufTy).Contents (Elt F) → (⟨S4x2048x256, .f32⟩ : BufTy).Contents (Elt F)),
    nullary main_cst_10 (constant S_ .f32 0x00000000#32),
    binary main_v72 main_cst_10 main_v73 ((fun x v => Host.reduceAdd x v reducesTo_S4x2048x256_S4x2048_d2 h_S_) : (⟨S4x2048x256, .f32⟩ : BufTy).Contents (Elt F) → (⟨S_, .f32⟩ : BufTy).Contents (Elt F) → (⟨S4x2048, .f32⟩ : BufTy).Contents (Elt F)),
    unary main_v73 main_v74 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x43800000#32),
    unary main_cst_11 main_v75 (broadcastInDim S4x2048x1 ![] bcast_S_S4x2048x1 : (⟨S_, .f32⟩ : BufTy).Contents (Elt F) → (⟨S4x2048x1, .f32⟩ : BufTy).Contents (Elt F)),
    binary main_v74 main_v75 main_v76 (Host.divf : (⟨S4x2048x1, .f32⟩ : BufTy).Contents (Elt F) → (⟨S4x2048x1, .f32⟩ : BufTy).Contents (Elt F) → (⟨S4x2048x1, .f32⟩ : BufTy).Contents (Elt F)),
    unary main_v69 main_v77 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v65 main_v77 main_v78 (subf : (⟨S4x2048x256, .f32⟩ : BufTy).Contents (Elt F) → (⟨S4x2048x256, .f32⟩ : BufTy).Contents (Elt F) → (⟨S4x2048x256, .f32⟩ : BufTy).Contents (Elt F)),
    nullary main_cst_12 (constant S_ .f32 0x3727C5AC#32),
    unary main_cst_12 main_v79 (broadcastInDim S4x2048x1 ![] bcast_S_S4x2048x1 : (⟨S_, .f32⟩ : BufTy).Contents (Elt F) → (⟨S4x2048x1, .f32⟩ : BufTy).Contents (Elt F)),
    binary main_v76 main_v79 main_v80 (addf : (⟨S4x2048x1, .f32⟩ : BufTy).Contents (Elt F) → (⟨S4x2048x1, .f32⟩ : BufTy).Contents (Elt F) → (⟨S4x2048x1, .f32⟩ : BufTy).Contents (Elt F)),
    unary main_v80 main_v81 (Host.rsqrt : (⟨S4x2048x1, .f32⟩ : BufTy).Contents (Elt F) → (⟨S4x2048x1, .f32⟩ : BufTy).Contents (Elt F)),
    unary main_v81 main_v82 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
    binary main_v78 main_v82 main_v83 (mulf : (⟨S4x2048x256, .f32⟩ : BufTy).Contents (Elt F) → (⟨S4x2048x256, .f32⟩ : BufTy).Contents (Elt F) → (⟨S4x2048x256, .f32⟩ : BufTy).Contents (Elt F)),
    unary main_arg12 main_v84 (broadcastInDim S1x1x256 ![2] bcast_S256_S1x1x256_2 : (⟨S256, .f32⟩ : BufTy).Contents (Elt F) → (⟨S1x1x256, .f32⟩ : BufTy).Contents (Elt F)),
    unary main_v84 main_v85 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v83 main_v85 main_v86 (mulf : (⟨S4x2048x256, .f32⟩ : BufTy).Contents (Elt F) → (⟨S4x2048x256, .f32⟩ : BufTy).Contents (Elt F) → (⟨S4x2048x256, .f32⟩ : BufTy).Contents (Elt F)),
    unary main_arg13 main_v87 (broadcastInDim S1x1x256 ![2] bcast_S256_S1x1x256_2 : (⟨S256, .f32⟩ : BufTy).Contents (Elt F) → (⟨S1x1x256, .f32⟩ : BufTy).Contents (Elt F)),
    unary main_v87 main_v88 (broadcastInDim S4x2048x256 ![0, 1, 2] bcast_S1x1x256_S4x2048x256_0_1_2 : (⟨S1x1x256, .f32⟩ : BufTy).Contents (Elt F) → (⟨S4x2048x256, .f32⟩ : BufTy).Contents (Elt F)),
    binary main_v86 main_v88 main_v89 (addf : (⟨S4x2048x256, .f32⟩ : BufTy).Contents (Elt F) → (⟨S4x2048x256, .f32⟩ : BufTy).Contents (Elt F) → (⟨S4x2048x256, .f32⟩ : BufTy).Contents (Elt F)) ]

set_option maxRecDepth 8192 in
/-- The line is its four pieces in order. -/
theorem ops_eq : (ops : List (HloOp τ sig (Elt F))) = s1 ++ s2 ++ s3 ++ s4 := rfl

/-- Running l₁ and then l₂ is running l₂ from what l₁ leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The four pieces, each from an arbitrary memory -/

section Pieces

variable (W : Valuation τ sig (Elt F))

set_option maxRecDepth 8192 in
set_option maxHeartbeats 4000000 in
/-- The first piece leaves the attention output, as a function of the two inputs and the three projections'
    weights and biases. -/
theorem seg1 : after s1 W (Proc.devRef .tc main_v35)
    = ReadP.val_main_v35 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  after_results_simp <;> rfl

/-! A piece writes only its own intermediate values, so a parameter array a later piece reads is still what it was. -/
theorem keep1_arg8 : after s1 W (Proc.devRef .tc main_arg8) = W (Proc.devRef .tc main_arg8) := by
  after_results_simp <;> rfl
theorem keep1_arg9 : after s1 W (Proc.devRef .tc main_arg9) = W (Proc.devRef .tc main_arg9) := by
  after_results_simp <;> rfl
theorem keep1_arg10 : after s1 W (Proc.devRef .tc main_arg10) = W (Proc.devRef .tc main_arg10) := by
  after_results_simp <;> rfl
theorem keep1_arg11 : after s1 W (Proc.devRef .tc main_arg11) = W (Proc.devRef .tc main_arg11) := by
  after_results_simp <;> rfl
theorem keep1_arg12 : after s1 W (Proc.devRef .tc main_arg12) = W (Proc.devRef .tc main_arg12) := by
  after_results_simp <;> rfl
theorem keep1_arg13 : after s1 W (Proc.devRef .tc main_arg13) = W (Proc.devRef .tc main_arg13) := by
  after_results_simp <;> rfl
theorem keep2_arg8 : after s2 W (Proc.devRef .tc main_arg8) = W (Proc.devRef .tc main_arg8) := by
  after_results_simp <;> rfl
theorem keep2_arg9 : after s2 W (Proc.devRef .tc main_arg9) = W (Proc.devRef .tc main_arg9) := by
  after_results_simp <;> rfl
theorem keep2_arg12 : after s2 W (Proc.devRef .tc main_arg12) = W (Proc.devRef .tc main_arg12) := by
  after_results_simp <;> rfl
theorem keep2_arg13 : after s2 W (Proc.devRef .tc main_arg13) = W (Proc.devRef .tc main_arg13) := by
  after_results_simp <;> rfl
theorem keep3_arg12 : after s3 W (Proc.devRef .tc main_arg12) = W (Proc.devRef .tc main_arg12) := by
  after_results_simp <;> rfl
theorem keep3_arg13 : after s3 W (Proc.devRef .tc main_arg13) = W (Proc.devRef .tc main_arg13) := by
  after_results_simp <;> rfl

set_option maxRecDepth 8192 in
set_option maxHeartbeats 4000000 in
/-- The second piece, from a memory holding the attention output and the first LayerNorm's scale and shift. -/
theorem seg2 {x0 : (⟨S4x2048x256, .f32⟩ : BufTy).Contents (Elt F)} {x1 : (⟨S4x2048x256, .f32⟩ : BufTy).Contents (Elt F)} {x2 : (⟨S256x256, .f32⟩ : BufTy).Contents (Elt F)} {x3 : (⟨S256, .f32⟩ : BufTy).Contents (Elt F)} {x4 : (⟨S256x256, .f32⟩ : BufTy).Contents (Elt F)} {x5 : (⟨S256, .f32⟩ : BufTy).Contents (Elt F)} {x6 : (⟨S256x256, .f32⟩ : BufTy).Contents (Elt F)} {x7 : (⟨S256, .f32⟩ : BufTy).Contents (Elt F)} {x10 : (⟨S256, .f32⟩ : BufTy).Contents (Elt F)} {x11 : (⟨S256, .f32⟩ : BufTy).Contents (Elt F)}
    (h : W (Proc.devRef .tc main_v35) = ReadP.val_main_v35 x0 x1 x2 x3 x4 x5 x6 x7)
    (h10 : W (Proc.devRef .tc main_arg10) = x10) (h11 : W (Proc.devRef .tc main_arg11) = x11) :
    after s2 W (Proc.devRef .tc main_v59) = ReadP.val_main_v59 x0 x1 x2 x3 x4 x5 x6 x7 x10 x11 := by
  subst h10 h11
  after_results_simp
  rw [h]
  rfl

set_option maxRecDepth 8192 in
set_option maxHeartbeats 4000000 in
/-- The third piece, from a memory holding the first LayerNorm's value and the feed-forward weight and bias. -/
theorem seg3 {x0 : (⟨S4x2048x256, .f32⟩ : BufTy).Contents (Elt F)} {x1 : (⟨S4x2048x256, .f32⟩ : BufTy).Contents (Elt F)} {x2 : (⟨S256x256, .f32⟩ : BufTy).Contents (Elt F)} {x3 : (⟨S256, .f32⟩ : BufTy).Contents (Elt F)} {x4 : (⟨S256x256, .f32⟩ : BufTy).Contents (Elt F)} {x5 : (⟨S256, .f32⟩ : BufTy).Contents (Elt F)} {x6 : (⟨S256x256, .f32⟩ : BufTy).Contents (Elt F)} {x7 : (⟨S256, .f32⟩ : BufTy).Contents (Elt F)} {x8 : (⟨S256x256, .f32⟩ : BufTy).Contents (Elt F)} {x9 : (⟨S256, .f32⟩ : BufTy).Contents (Elt F)} {x10 : (⟨S256, .f32⟩ : BufTy).Contents (Elt F)} {x11 : (⟨S256, .f32⟩ : BufTy).Contents (Elt F)}
    (h : W (Proc.devRef .tc main_v59) = ReadP.val_main_v59 x0 x1 x2 x3 x4 x5 x6 x7 x10 x11)
    (h8 : W (Proc.devRef .tc main_arg8) = x8) (h9 : W (Proc.devRef .tc main_arg9) = x9) :
    after s3 W (Proc.devRef .tc main_v65) = ReadP.val_main_v65 x0 x1 x2 x3 x4 x5 x6 x7 x8 x9 x10 x11 := by
  subst h8 h9
  after_results_simp
  rw [h]
  rfl

set_option maxRecDepth 8192 in
set_option maxHeartbeats 4000000 in
/-- The fourth piece, from a memory holding the residual sum and the second LayerNorm's scale and shift. -/
theorem seg4 {x0 : (⟨S4x2048x256, .f32⟩ : BufTy).Contents (Elt F)} {x1 : (⟨S4x2048x256, .f32⟩ : BufTy).Contents (Elt F)} {x2 : (⟨S256x256, .f32⟩ : BufTy).Contents (Elt F)} {x3 : (⟨S256, .f32⟩ : BufTy).Contents (Elt F)} {x4 : (⟨S256x256, .f32⟩ : BufTy).Contents (Elt F)} {x5 : (⟨S256, .f32⟩ : BufTy).Contents (Elt F)} {x6 : (⟨S256x256, .f32⟩ : BufTy).Contents (Elt F)} {x7 : (⟨S256, .f32⟩ : BufTy).Contents (Elt F)} {x8 : (⟨S256x256, .f32⟩ : BufTy).Contents (Elt F)} {x9 : (⟨S256, .f32⟩ : BufTy).Contents (Elt F)} {x10 : (⟨S256, .f32⟩ : BufTy).Contents (Elt F)} {x11 : (⟨S256, .f32⟩ : BufTy).Contents (Elt F)} {x12 : (⟨S256, .f32⟩ : BufTy).Contents (Elt F)} {x13 : (⟨S256, .f32⟩ : BufTy).Contents (Elt F)}
    (h : W (Proc.devRef .tc main_v65) = ReadP.val_main_v65 x0 x1 x2 x3 x4 x5 x6 x7 x8 x9 x10 x11)
    (h12 : W (Proc.devRef .tc main_arg12) = x12) (h13 : W (Proc.devRef .tc main_arg13) = x13) :
    after s4 W (Proc.devRef .tc main_v89) = ReadP.val_main_v89 x0 x1 x2 x3 x4 x5 x6 x7 x8 x9 x10 x11 x12 x13 := by
  subst h12 h13
  after_results_simp
  rw [h]
  rfl

end Pieces

/-! ## The whole line -/

/-- The result after the whole line, from any memory: the last stage at that memory's argument arrays. Each piece's
    lemma is fed the previous piece's conclusion, and a parameter array read late is traced back through the pieces
    before it, none of which writes it. -/
theorem res_eq (V : Valuation τ sig (Elt F)) :
    after ops V (Proc.devRef .tc main_v89)
      = ReadP.val_main_v89 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have e : after (ops : List (HloOp τ sig (Elt F))) V = after s4 (after s3 (after s2 (after s1 V))) := by
    rw [ops_eq, after_append, after_append, after_append]
  have h2 := seg2 (after s1 V) (seg1 V) (keep1_arg10 V) (keep1_arg11 V)
  have h3 := seg3 (after s2 (after s1 V)) h2
    ((keep2_arg8 _).trans (keep1_arg8 V)) ((keep2_arg9 _).trans (keep1_arg9 V))
  have h4 := seg4 (after s3 (after s2 (after s1 V))) h3
    (((keep3_arg12 _).trans (keep2_arg12 _)).trans (keep1_arg12 V))
    (((keep3_arg13 _).trans (keep2_arg13 _)).trans (keep1_arg13 V))
  rw [e]
  exact h4

/-! No operation of the line writes an argument array. -/
set_option maxRecDepth 8192 in
set_option maxHeartbeats 4000000 in
theorem kept_arg0 (V : Valuation τ sig (Elt F)) : after ops V (Proc.devRef .tc main_arg0) = V (Proc.devRef .tc main_arg0) := by
  after_results_simp <;> rfl
set_option maxRecDepth 8192 in
set_option maxHeartbeats 4000000 in
theorem kept_arg1 (V : Valuation τ sig (Elt F)) : after ops V (Proc.devRef .tc main_arg1) = V (Proc.devRef .tc main_arg1) := by
  after_results_simp <;> rfl
set_option maxRecDepth 8192 in
set_option maxHeartbeats 4000000 in
theorem kept_arg2 (V : Valuation τ sig (Elt F)) : after ops V (Proc.devRef .tc main_arg2) = V (Proc.devRef .tc main_arg2) := by
  after_results_simp <;> rfl
set_option maxRecDepth 8192 in
set_option maxHeartbeats 4000000 in
theorem kept_arg3 (V : Valuation τ sig (Elt F)) : after ops V (Proc.devRef .tc main_arg3) = V (Proc.devRef .tc main_arg3) := by
  after_results_simp <;> rfl
set_option maxRecDepth 8192 in
set_option maxHeartbeats 4000000 in
theorem kept_arg4 (V : Valuation τ sig (Elt F)) : after ops V (Proc.devRef .tc main_arg4) = V (Proc.devRef .tc main_arg4) := by
  after_results_simp <;> rfl
set_option maxRecDepth 8192 in
set_option maxHeartbeats 4000000 in
theorem kept_arg5 (V : Valuation τ sig (Elt F)) : after ops V (Proc.devRef .tc main_arg5) = V (Proc.devRef .tc main_arg5) := by
  after_results_simp <;> rfl
set_option maxRecDepth 8192 in
set_option maxHeartbeats 4000000 in
theorem kept_arg6 (V : Valuation τ sig (Elt F)) : after ops V (Proc.devRef .tc main_arg6) = V (Proc.devRef .tc main_arg6) := by
  after_results_simp <;> rfl
set_option maxRecDepth 8192 in
set_option maxHeartbeats 4000000 in
theorem kept_arg7 (V : Valuation τ sig (Elt F)) : after ops V (Proc.devRef .tc main_arg7) = V (Proc.devRef .tc main_arg7) := by
  after_results_simp <;> rfl
set_option maxRecDepth 8192 in
set_option maxHeartbeats 4000000 in
theorem kept_arg8 (V : Valuation τ sig (Elt F)) : after ops V (Proc.devRef .tc main_arg8) = V (Proc.devRef .tc main_arg8) := by
  after_results_simp <;> rfl
set_option maxRecDepth 8192 in
set_option maxHeartbeats 4000000 in
theorem kept_arg9 (V : Valuation τ sig (Elt F)) : after ops V (Proc.devRef .tc main_arg9) = V (Proc.devRef .tc main_arg9) := by
  after_results_simp <;> rfl
set_option maxRecDepth 8192 in
set_option maxHeartbeats 4000000 in
theorem kept_arg10 (V : Valuation τ sig (Elt F)) : after ops V (Proc.devRef .tc main_arg10) = V (Proc.devRef .tc main_arg10) := by
  after_results_simp <;> rfl
set_option maxRecDepth 8192 in
set_option maxHeartbeats 4000000 in
theorem kept_arg11 (V : Valuation τ sig (Elt F)) : after ops V (Proc.devRef .tc main_arg11) = V (Proc.devRef .tc main_arg11) := by
  after_results_simp <;> rfl
set_option maxRecDepth 8192 in
set_option maxHeartbeats 4000000 in
theorem kept_arg12 (V : Valuation τ sig (Elt F)) : after ops V (Proc.devRef .tc main_arg12) = V (Proc.devRef .tc main_arg12) := by
  after_results_simp <;> rfl
set_option maxRecDepth 8192 in
set_option maxHeartbeats 4000000 in
theorem kept_arg13 (V : Valuation τ sig (Elt F)) : after ops V (Proc.devRef .tc main_arg13) = V (Proc.devRef .tc main_arg13) := by
  after_results_simp <;> rfl

set_option maxRecDepth 8192 in
set_option maxHeartbeats 8000000 in
/-- On every device, for any float values, from any memory with zero counters: every weakly fair execution of the
    program terminates with the result buffer at the last stage's value of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = Cert.ReferenceIdeal.ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v89).trans (res_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c))⟩)
    (run_seq scopedRefs_eq scopedSems_eq defs main (fun _ => ops) main_eq (fun _ => ops_sub) m ρ)

end Cert.Attn.RefRun

end
-- ==== Proof.lean ====
/-
  The certificate of a fused multi-head attention block against its plain reference, on the extended reals.

  Both programs take Q, K : [4, 2048, 256] and the weights of four linear maps and two LayerNorms.  The reference projects
  Q, K to queries, keys and values, splits the 256 columns into 4 heads of 64, forms per head the scores q·kᵀ/16, their
  softmax over the 2048 keys and the weighted sum of the values, adds the projected query, and applies LayerNorm, a
  feed-forward step with its residual, and LayerNorm again.  The kernel does the same one 256-row query tile at a time over
  a 4 × 8 grid, keeping each batch's projected keys and values from its first tile to its eighth; it never slices the
  64 columns of a head but masks the query's other columns to zero before a full-width contraction, scales by 0.0625,
  and masks each head's full-width weighted sum to the head's own columns before adding the four up from zero.

  At the extended reals a change of float format is the identity and every operation is exact, and the two are the same
  function: a zero factor annihilates its term (0·x = 0 for every extended real, so no finiteness is used), which makes
  the masked contraction the head's own and the masked accumulation a selection of each column's head; multiplying
  by 1/16 is dividing by 16; and all sums, maxima and LayerNorm steps are taken in the same arrangement on both sides.
  The common value is Cert.Attn.result (Proof/Spec.lean).  The kernel's run ends with its output array at that value
  (Proof/KernelValue.lean: what every grid point writes back is that value's block, and the 32 blocks tile the array);
  the reference's run ends at its last stage (Proof/RefRun.lean), which is that value (Proof/Ref.lean).
  The three frame claims are the runs with the values dropped; the idealization rewrote nothing, so there is nothing to
  preserve.
-/
import proofs.«179801_j41077067219485_2_alg».proof.Defs
import proofs.«179801_j41077067219485_2_alg».proof.Proof.Gen.Kernel
import proofs.«179801_j41077067219485_2_alg».proof.Proof.Gen.Kernel.Skeleton
import proofs.«179801_j41077067219485_2_alg».proof.Proof.Gen.Kernel.Launch
import proofs.«179801_j41077067219485_2_alg».proof.Proof.Gen.Kernel.Points
import proofs.«179801_j41077067219485_2_alg».proof.Proof.Gen.Kernel.Frame
import proofs.«179801_j41077067219485_2_alg».proof.Proof.Gen.KernelIdeal
import proofs.«179801_j41077067219485_2_alg».proof.Proof.Gen.KernelIdeal.Skeleton
import proofs.«179801_j41077067219485_2_alg».proof.Proof.Gen.KernelIdeal.Launch
import proofs.«179801_j41077067219485_2_alg».proof.Proof.Gen.KernelIdeal.Points
import proofs.«179801_j41077067219485_2_alg».proof.Proof.Gen.KernelIdeal.Frame
import proofs.«179801_j41077067219485_2_alg».proof.Proof.Gen.KernelIdeal.Value
import proofs.«179801_j41077067219485_2_alg».proof.Proof.Gen.ReferenceIdeal
import proofs.«179801_j41077067219485_2_alg».proof.Proof.Gen.Pre_finite_inputs
import proofs.«179801_j41077067219485_2_alg».proof.Proof.KernelValue
import proofs.«179801_j41077067219485_2_alg».proof.Proof.Ref
import proofs.«179801_j41077067219485_2_alg».proof.Proof.RefRun
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the value of the result dropped. -/
theorem frame_referenceIdeal : Cert.frame_ReferenceIdeal := fun m ρ _ =>
  (θ_run Cert.ReferenceIdeal.defs _ _).mono (fun _ h c => (h c).2) (Cert.Attn.RefRun.run (F := Ideal) m ρ)

/-- The idealization applied no rewrite: nothing to preserve. -/
theorem preserves : Cert.preserves_Kernel_KernelIdeal := trivial

/-- From memories agreeing on the arguments, the kernel's output array and the reference's result are both the
    specification's result of those arguments. -/
theorem algebraic : Cert.algebraic_KernelIdeal_ReferenceIdeal := by
  intro m ρ m' ρ' _ hagree
  refine ⟨fun c => Cert.Attn.KVal.res m c, Cert.Attn.KVal.run m ρ, ?_⟩
  refine (θ_run Cert.ReferenceIdeal.defs _ _).mono (fun _ h c => ⟨(h c).1.trans ?_, (h c).2⟩)
    (Cert.Attn.RefRun.run (F := Ideal) m' ρ')
  obtain ⟨h0, h1, h2, h3, h4, h5, h6, h7, h8, h9, h10, h11, h12, h13⟩ := hagree c
  rw [Cert.Attn.Ref.val_eq_result, h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
